-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_arg15 : FVec F S128x128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  main_v78

def fn_part3 {F : FTy → Type} [FloatOps F] (main_arg11 : FVec F S128 .f32) (main_arg12 : FVec F S128 .f32) (main_arg13 : FVec F S128 .f32) (main_arg14 : FVec F S128 .f32) (main_arg15 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128x128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_v48 main_v49 main_v50

def fn_part1 {F : FTy → Type} [FloatOps F] (main_arg4 : FVec F S128 .f32) (main_arg5 : FVec F S128 .f32) (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x128 .f32) (main_arg1 : FVec F S128x128 .f32) (main_arg2 : FVec F S128x128 .f32) (main_arg3 : FVec F S128x128 .f32) (main_arg4 : FVec F S128 .f32) (main_arg5 : FVec F S128 .f32) (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : IVec S600000 32) (main_arg17 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩

abbrev nBuf : Space → Nat
  | .hbm => 212
  | .vmem => 51
  | .smem => 0
  | _ => 0

abbrev hbmTy0_0 (i : Nat) : BufTy := match i % 128 with
  | 0 => ⟨S50000x128, .f32⟩
  | 1 => ⟨S128x128, .f32⟩
  | 2 => ⟨S128x128, .f32⟩
  | 3 => ⟨S128x128, .f32⟩
  | 4 => ⟨S128, .f32⟩
  | 5 => ⟨S128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S600000, .i32⟩
  | 17 => ⟨S600000, .i32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S50000, .f32⟩
  | 27 => ⟨S50000x1, .f32⟩
  | 28 => ⟨S128x128, .f32⟩
  | 29 => ⟨S128x128, .f32⟩
  | 30 => ⟨S128x128, .f32⟩
  | 31 => ⟨S50000x128, .bf16⟩
  | 32 => ⟨S50000x128, .bf16⟩
  | 33 => ⟨S50000x128, .bf16⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .bf16⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .bf16⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .bf16⟩
  | 61 => ⟨S600000x128, .f32⟩
  | 62 => ⟨S600000x128, .f32⟩
  | 63 => ⟨S600000x128, .f32⟩
  | 64 => ⟨S1x128, .f32⟩
  | 65 => ⟨S600000x128, .f32⟩
  | 66 => ⟨S600000x128, .f32⟩
  | 67 => ⟨S600000x128, .f32⟩
  | 68 => ⟨S600000x128, .f32⟩
  | 69 => ⟨S_, .f32⟩
  | 70 => ⟨S600000x128, .f32⟩
  | 71 => ⟨S600000x128, .f32⟩
  | 72 => ⟨S_, .f32⟩
  | 73 => ⟨S600000x128, .f32⟩
  | 74 => ⟨S600000x128, .f32⟩
  | 75 => ⟨S600000x128, .f32⟩
  | 76 => ⟨S600000x128, .f32⟩
  | 77 => ⟨S_, .f32⟩
  | 78 => ⟨S50000x128, .f32⟩
  | 79 => ⟨S600000x1, .i32⟩
  | 80 => ⟨S50000x128, .f32⟩
  | 81 => ⟨S1x128, .f32⟩
  | 82 => ⟨S1x128, .f32⟩
  | 83 => ⟨S1x128, .f32⟩
  | 84 => ⟨S50000x128, .f32⟩
  | 85 => ⟨S50000x128, .f32⟩
  | 86 => ⟨S50000x128, .f32⟩
  | 87 => ⟨S50000x128, .f32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S128, .f32⟩
  | 109 => ⟨S1x128, .f32⟩
  | 110 => ⟨S1x128, .f32⟩
  | 111 => ⟨S1x128, .f32⟩
  | 112 => ⟨S_, .f32⟩
  | 113 => ⟨S_, .i1⟩
  | 114 => ⟨S_, .f32⟩
  | 115 => ⟨S_, .f32⟩
  | 116 => ⟨S1x128, .f32⟩
  | 117 => ⟨S1x128, .f32⟩
  | 118 => ⟨S50000x128, .f32⟩
  | 119 => ⟨S128x128, .f32⟩
  | 120 => ⟨S128x128, .f32⟩
  | 121 => ⟨S128x128, .f32⟩
  | 122 => ⟨S50000x128, .bf16⟩
  | 123 => ⟨S50000x128, .bf16⟩
  | 124 => ⟨S50000x128, .bf16⟩
  | 125 => ⟨S_, .i32⟩
  | 126 => ⟨S600000, .i32⟩
  | 127 => ⟨S600000, .i1⟩
  | _ => ⟨S50000x128, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .bf16⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .bf16⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .bf16⟩
  | 24 => ⟨S600000x128, .f32⟩
  | 25 => ⟨S600000x128, .f32⟩
  | 26 => ⟨S600000x128, .f32⟩
  | 27 => ⟨S1x128, .f32⟩
  | 28 => ⟨S600000x128, .f32⟩
  | 29 => ⟨S600000x128, .f32⟩
  | 30 => ⟨S600000x128, .f32⟩
  | 31 => ⟨S600000x128, .f32⟩
  | 32 => ⟨S_, .f32⟩
  | 33 => ⟨S600000x128, .f32⟩
  | 34 => ⟨S600000x128, .f32⟩
  | 35 => ⟨S_, .f32⟩
  | 36 => ⟨S600000x128, .f32⟩
  | 37 => ⟨S600000x128, .f32⟩
  | 38 => ⟨S600000x128, .f32⟩
  | 39 => ⟨S600000x128, .f32⟩
  | 40 => ⟨S_, .f32⟩
  | 41 => ⟨S50000x128, .f32⟩
  | 42 => ⟨S600000x1, .i32⟩
  | 43 => ⟨S50000x128, .f32⟩
  | 44 => ⟨S1x128, .f32⟩
  | 45 => ⟨S1x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S1x128, .f32⟩
  | 73 => ⟨S1x128, .f32⟩
  | 74 => ⟨S1x128, .f32⟩
  | 75 => ⟨S_, .f32⟩
  | 76 => ⟨S_, .i1⟩
  | 77 => ⟨S_, .f32⟩
  | 78 => ⟨S_, .f32⟩
  | 79 => ⟨S1x128, .f32⟩
  | 80 => ⟨S1x128, .f32⟩
  | 81 => ⟨S50000x128, .f32⟩
  | 82 => ⟨S128x128, .f32⟩
  | 83 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .bf16⟩
  | .local _ .vmem, ⟨8, _⟩ => ⟨S5000x128, .bf16⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x1, .f32⟩
  | .local _ .vmem, ⟨15, _⟩ => ⟨S5000x1, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S5000x128, .bf16⟩
  | .local _ .vmem, ⟨28, _⟩ => ⟨S5000x128, .bf16⟩
  | .local _ .vmem, ⟨29, _⟩ => ⟨S5000x128, .bf16⟩
  | .local _ .vmem, ⟨30, _⟩ => ⟨S5000x128, .bf16⟩
  | .local _ .vmem, ⟨31, _⟩ => ⟨S5000x128, .bf16⟩
  | .local _ .vmem, ⟨32, _⟩ => ⟨S5000x128, .bf16⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S5000x1, .f32⟩
  | .local _ .vmem, ⟨37, _⟩ => ⟨S5000x1, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10_0 : Ref sig .tc := ⟨.hbm, 31, rfl⟩
abbrev main_v10_1 : Ref sig .tc := ⟨.hbm, 32, rfl⟩
abbrev main_v10_2 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_c_12 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_cst_0 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_cst_1 : Ref sig .tc := ⟨.hbm, 105, rfl⟩
abbrev main_call0_v8 : Ref sig .tc := ⟨.hbm, 106, rfl⟩
abbrev main_call0_cst_2 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_call0_v12 : Ref sig .tc := ⟨.hbm, 111, rfl⟩
abbrev main_call0_cst_3 : Ref sig .tc := ⟨.hbm, 112, rfl⟩
abbrev main_call0_v13 : Ref sig .tc := ⟨.hbm, 113, rfl⟩
abbrev main_call0_cst_4 : Ref sig .tc := ⟨.hbm, 114, rfl⟩
abbrev main_call0_call0_v0 : Ref sig .tc := ⟨.hbm, 115, rfl⟩
abbrev main_call0_call0_v1 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65_0 : Ref sig .tc := ⟨.hbm, 122, rfl⟩
abbrev main_v65_1 : Ref sig .tc := ⟨.hbm, 123, rfl⟩
abbrev main_v65_2 : Ref sig .tc := ⟨.hbm, 124, rfl⟩
abbrev main_c_13 : Ref sig .tc := ⟨.hbm, 125, rfl⟩
abbrev main_v66 : Ref sig .tc := ⟨.hbm, 126, rfl⟩
abbrev main_v67 : Ref sig .tc := ⟨.hbm, 127, rfl⟩
abbrev main_c_14 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_c_15 : Ref sig .tc := ⟨.hbm, 134, rfl⟩
abbrev main_v73 : Ref sig .tc := ⟨.hbm, 135, rfl⟩
abbrev main_v74 : Ref sig .tc := ⟨.hbm, 136, rfl⟩
abbrev main_c_16 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_c_17 : Ref sig .tc := ⟨.hbm, 143, rfl⟩
abbrev main_v80 : Ref sig .tc := ⟨.hbm, 144, rfl⟩
abbrev main_v81 : Ref sig .tc := ⟨.hbm, 145, rfl⟩
abbrev main_c_18 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_cst_19 : Ref sig .tc := ⟨.hbm, 160, rfl⟩
abbrev main_v95 : Ref sig .tc := ⟨.hbm, 161, rfl⟩
abbrev main_v96 : Ref sig .tc := ⟨.hbm, 162, rfl⟩
abbrev main_cst_20 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_cst_21 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_cst_22 : Ref sig .tc := ⟨.hbm, 179, rfl⟩
abbrev main_v111 : Ref sig .tc := ⟨.hbm, 180, rfl⟩
abbrev main_v112 : Ref sig .tc := ⟨.hbm, 181, rfl⟩
abbrev main_cst_23 : Ref sig .tc := ⟨.hbm, 182, rfl⟩
abbrev main_v113 : Ref sig .tc := ⟨.hbm, 183, rfl⟩
abbrev main_v114 : Ref sig .tc := ⟨.hbm, 184, rfl⟩
abbrev main_c_24 : Ref sig .tc := ⟨.hbm, 185, rfl⟩
abbrev main_call1_cst : Ref sig .tc := ⟨.hbm, 186, rfl⟩
abbrev main_call1_v0 : Ref sig .tc := ⟨.hbm, 187, rfl⟩
abbrev main_call1_v1 : Ref sig .tc := ⟨.hbm, 188, rfl⟩
abbrev main_call1_cst_0 : Ref sig .tc := ⟨.hbm, 189, rfl⟩
abbrev main_call1_v2 : Ref sig .tc := ⟨.hbm, 190, rfl⟩
abbrev main_call1_v3 : Ref sig .tc := ⟨.hbm, 191, rfl⟩
abbrev main_call1_v4 : Ref sig .tc := ⟨.hbm, 192, rfl⟩
abbrev main_call1_v5 : Ref sig .tc := ⟨.hbm, 193, rfl⟩
abbrev main_call1_v6 : Ref sig .tc := ⟨.hbm, 194, rfl⟩
abbrev main_call1_v7 : Ref sig .tc := ⟨.hbm, 195, rfl⟩
abbrev main_call1_cst_1 : Ref sig .tc := ⟨.hbm, 196, rfl⟩
abbrev main_call1_v8 : Ref sig .tc := ⟨.hbm, 197, rfl⟩
abbrev main_call1_cst_2 : Ref sig .tc := ⟨.hbm, 198, rfl⟩
abbrev main_call1_v9 : Ref sig .tc := ⟨.hbm, 199, rfl⟩
abbrev main_call1_v10 : Ref sig .tc := ⟨.hbm, 200, rfl⟩
abbrev main_call1_v11 : Ref sig .tc := ⟨.hbm, 201, rfl⟩
abbrev main_call1_v12 : Ref sig .tc := ⟨.hbm, 202, rfl⟩
abbrev main_call1_cst_3 : Ref sig .tc := ⟨.hbm, 203, rfl⟩
abbrev main_call1_v13 : Ref sig .tc := ⟨.hbm, 204, rfl⟩
abbrev main_call1_cst_4 : Ref sig .tc := ⟨.hbm, 205, rfl⟩
abbrev main_call1_call0_v0 : Ref sig .tc := ⟨.hbm, 206, rfl⟩
abbrev main_call1_call0_v1 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg3_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem2_1 : DmaSem sig := 48
abbrev cc4_sem3_0 : DmaSem sig := 49
abbrev cc4_sem3_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  shapeCasts_S128_S1x128 : S128.ShapeCasts S1x128
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S1x128_S5000x128 : S1x128.Broadcasts S5000x128
  broadcasts_S5000x1_S5000x128 : S5000x1.Broadcasts S5000x128
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .bf16 = 32 ∨ (Rect.block (s := S50000x128) S5000x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .bf16 = 32 ∨ (Rect.block (s := S50000x128) S5000x128.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .bf16 = 32 ∨ (Rect.block (s := S50000x128) S5000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_2) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v65_1) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v65_2) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v103) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v104) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v114) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v115) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v105) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v106) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v116) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v117) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v118) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 243
  | .vmem => 0
  | .smem => 0
  | _ => 0

abbrev hbmTy0_0 (i : Nat) : BufTy := match i % 128 with
  | 0 => ⟨S50000x128, .f32⟩
  | 1 => ⟨S128x128, .f32⟩
  | 2 => ⟨S128x128, .f32⟩
  | 3 => ⟨S128x128, .f32⟩
  | 4 => ⟨S128, .f32⟩
  | 5 => ⟨S128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S600000, .i32⟩
  | 17 => ⟨S600000, .i32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S50000, .f32⟩
  | 27 => ⟨S50000x1, .f32⟩
  | 28 => ⟨S128x128, .f32⟩
  | 29 => ⟨S50000x128, .f32⟩
  | 30 => ⟨S128x128, .f32⟩
  | 31 => ⟨S50000x128, .f32⟩
  | 32 => ⟨S128x128, .f32⟩
  | 33 => ⟨S50000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S600000x128, .f32⟩
  | 53 => ⟨S1x128, .f32⟩
  | 54 => ⟨S600000x128, .f32⟩
  | 55 => ⟨S600000x128, .f32⟩
  | 56 => ⟨S600000x128, .f32⟩
  | 57 => ⟨S600000x128, .f32⟩
  | 58 => ⟨S_, .f32⟩
  | 59 => ⟨S600000x128, .f32⟩
  | 60 => ⟨S600000x128, .f32⟩
  | 61 => ⟨S_, .f32⟩
  | 62 => ⟨S600000x128, .f32⟩
  | 63 => ⟨S600000x128, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S600000x128, .f32⟩
  | 74 => ⟨S_, .f32⟩
  | 75 => ⟨S50000x128, .f32⟩
  | 76 => ⟨S600000x1, .i32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S50000x128, .f32⟩
  | 83 => ⟨S_, .f32⟩
  | 84 => ⟨S128, .f32⟩
  | 85 => ⟨S_, .f32⟩
  | 86 => ⟨S128, .f32⟩
  | 87 => ⟨S128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S50000x128, .f32⟩
  | 96 => ⟨S50000x128, .f32⟩
  | 97 => ⟨S50000x128, .f32⟩
  | 98 => ⟨S_, .f32⟩
  | 99 => ⟨S_, .f32⟩
  | 100 => ⟨S_, .f32⟩
  | 101 => ⟨S_, .f32⟩
  | 102 => ⟨S128, .f32⟩
  | 103 => ⟨S128, .f32⟩
  | 104 => ⟨S128, .f32⟩
  | 105 => ⟨S_, .f32⟩
  | 106 => ⟨S_, .i1⟩
  | 107 => ⟨S_, .f32⟩
  | 108 => ⟨S_, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .i1⟩
  | 2 => ⟨S_, .f32⟩
  | 3 => ⟨S50000x128, .f32⟩
  | 4 => ⟨S50000x128, .f32⟩
  | 5 => ⟨S50000x128, .f32⟩
  | 6 => ⟨S128x128, .f32⟩
  | 7 => ⟨S50000x128, .f32⟩
  | 8 => ⟨S128x128, .f32⟩
  | 9 => ⟨S50000x128, .f32⟩
  | 10 => ⟨S128x128, .f32⟩
  | 11 => ⟨S50000x128, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S600000x128, .f32⟩
  | 31 => ⟨S1x128, .f32⟩
  | 32 => ⟨S600000x128, .f32⟩
  | 33 => ⟨S600000x128, .f32⟩
  | 34 => ⟨S600000x128, .f32⟩
  | 35 => ⟨S600000x128, .f32⟩
  | 36 => ⟨S_, .f32⟩
  | 37 => ⟨S600000x128, .f32⟩
  | 38 => ⟨S600000x128, .f32⟩
  | 39 => ⟨S_, .f32⟩
  | 40 => ⟨S600000x128, .f32⟩
  | 41 => ⟨S600000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S600000x128, .f32⟩
  | 52 => ⟨S_, .f32⟩
  | 53 => ⟨S50000x128, .f32⟩
  | 54 => ⟨S600000x1, .i32⟩
  | 55 => ⟨S50000x128, .f32⟩
  | 56 => ⟨S1x128, .f32⟩
  | 57 => ⟨S50000x128, .f32⟩
  | 58 => ⟨S50000x128, .f32⟩
  | 59 => ⟨S50000x128, .f32⟩
  | 60 => ⟨S50000x128, .f32⟩
  | 61 => ⟨S_, .f32⟩
  | 62 => ⟨S128, .f32⟩
  | 63 => ⟨S_, .f32⟩
  | 64 => ⟨S128, .f32⟩
  | 65 => ⟨S128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S50000x128, .f32⟩
  | 74 => ⟨S50000x128, .f32⟩
  | 75 => ⟨S50000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S128x128, .f32⟩
  | 106 => ⟨S50000x128, .f32⟩
  | 107 => ⟨S50000x128, .f32⟩
  | 108 => ⟨S_, .f32⟩
  | 109 => ⟨S50000x128, .f32⟩
  | 110 => ⟨S50000x128, .i1⟩
  | 111 => ⟨S_, .f32⟩
  | 112 => ⟨S50000x128, .f32⟩
  | 113 => ⟨S50000x128, .f32⟩
  | 114 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_c_12 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_cst_0 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_v7 : Ref sig .tc := ⟨.hbm, 98, rfl⟩
abbrev main_call0_cst_1 : Ref sig .tc := ⟨.hbm, 99, rfl⟩
abbrev main_call0_v8 : Ref sig .tc := ⟨.hbm, 100, rfl⟩
abbrev main_call0_cst_2 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_cst_3 : Ref sig .tc := ⟨.hbm, 105, rfl⟩
abbrev main_call0_v12 : Ref sig .tc := ⟨.hbm, 106, rfl⟩
abbrev main_call0_cst_4 : Ref sig .tc := ⟨.hbm, 107, rfl⟩
abbrev main_call0_call0_v0 : Ref sig .tc := ⟨.hbm, 108, rfl⟩
abbrev main_call0_call0_v1 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_13 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_14 : Ref sig .tc := ⟨.hbm, 127, rfl⟩
abbrev main_v72 : Ref sig .tc := ⟨.hbm, 128, rfl⟩
abbrev main_v73 : Ref sig .tc := ⟨.hbm, 129, rfl⟩
abbrev main_cst_15 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_c_16 : Ref sig .tc := ⟨.hbm, 140, rfl⟩
abbrev main_v83 : Ref sig .tc := ⟨.hbm, 141, rfl⟩
abbrev main_v84 : Ref sig .tc := ⟨.hbm, 142, rfl⟩
abbrev main_c_17 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_c_18 : Ref sig .tc := ⟨.hbm, 149, rfl⟩
abbrev main_v90 : Ref sig .tc := ⟨.hbm, 150, rfl⟩
abbrev main_v91 : Ref sig .tc := ⟨.hbm, 151, rfl⟩
abbrev main_c_19 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_20 : Ref sig .tc := ⟨.hbm, 164, rfl⟩
abbrev main_v103 : Ref sig .tc := ⟨.hbm, 165, rfl⟩
abbrev main_v104 : Ref sig .tc := ⟨.hbm, 166, rfl⟩
abbrev main_cst_21 : Ref sig .tc := ⟨.hbm, 167, rfl⟩
abbrev main_v105 : Ref sig .tc := ⟨.hbm, 168, rfl⟩
abbrev main_v106 : Ref sig .tc := ⟨.hbm, 169, rfl⟩
abbrev main_c_22 : Ref sig .tc := ⟨.hbm, 170, rfl⟩
abbrev main_v107 : Ref sig .tc := ⟨.hbm, 171, rfl⟩
abbrev main_v108 : Ref sig .tc := ⟨.hbm, 172, rfl⟩
abbrev main_c_23 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_24 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_25 : Ref sig .tc := ⟨.hbm, 189, rfl⟩
abbrev main_v123 : Ref sig .tc := ⟨.hbm, 190, rfl⟩
abbrev main_cst_26 : Ref sig .tc := ⟨.hbm, 191, rfl⟩
abbrev main_v124 : Ref sig .tc := ⟨.hbm, 192, rfl⟩
abbrev main_v125 : Ref sig .tc := ⟨.hbm, 193, rfl⟩
abbrev main_c_27 : Ref sig .tc := ⟨.hbm, 194, rfl⟩
abbrev main_call2_cst : Ref sig .tc := ⟨.hbm, 195, rfl⟩
abbrev main_call2_v0 : Ref sig .tc := ⟨.hbm, 196, rfl⟩
abbrev main_call2_v1 : Ref sig .tc := ⟨.hbm, 197, rfl⟩
abbrev main_call2_cst_0 : Ref sig .tc := ⟨.hbm, 198, rfl⟩
abbrev main_call2_v2 : Ref sig .tc := ⟨.hbm, 199, rfl⟩
abbrev main_call2_v3 : Ref sig .tc := ⟨.hbm, 200, rfl⟩
abbrev main_call2_v4 : Ref sig .tc := ⟨.hbm, 201, rfl⟩
abbrev main_call2_v5 : Ref sig .tc := ⟨.hbm, 202, rfl⟩
abbrev main_call2_v6 : Ref sig .tc := ⟨.hbm, 203, rfl⟩
abbrev main_call2_v7 : Ref sig .tc := ⟨.hbm, 204, rfl⟩
abbrev main_call2_cst_1 : Ref sig .tc := ⟨.hbm, 205, rfl⟩
abbrev main_call2_v8 : Ref sig .tc := ⟨.hbm, 206, rfl⟩
abbrev main_call2_cst_2 : Ref sig .tc := ⟨.hbm, 207, rfl⟩
abbrev main_call2_v9 : Ref sig .tc := ⟨.hbm, 208, rfl⟩
abbrev main_call2_v10 : Ref sig .tc := ⟨.hbm, 209, rfl⟩
abbrev main_call2_v11 : Ref sig .tc := ⟨.hbm, 210, rfl⟩
abbrev main_call2_cst_3 : Ref sig .tc := ⟨.hbm, 211, rfl⟩
abbrev main_call2_v12 : Ref sig .tc := ⟨.hbm, 212, rfl⟩
abbrev main_call2_cst_4 : Ref sig .tc := ⟨.hbm, 213, rfl⟩
abbrev main_call2_call0_v0 : Ref sig .tc := ⟨.hbm, 214, rfl⟩
abbrev main_call2_call0_v1 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_cst_28 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_cst_29 : Ref sig .tc := ⟨.hbm, 236, rfl⟩
abbrev main_v145 : Ref sig .tc := ⟨.hbm, 237, rfl⟩
abbrev main_v146 : Ref sig .tc := ⟨.hbm, 238, rfl⟩
abbrev main_cst_30 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  transposes_S128x128_S128x128_1_0 : S128x128.Transposes [1, 0] S128x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KerStages.lean ====
/-
  The host operations of the idealized kernel's program between its regions, as functions of the arrays they read:
  the normaliser column, the transposed weights, a layer's aggregate from the three projected arrays, the bias and
  the affine parameters as one-row arrays, the pre-activation the statistics are taken of, its column mean and
  variance kept as one-row arrays. Each stretch's fold, read at the buffers the next region takes, is these functions
  of the buffers the stretch finds; a buffer no operation of the stretch writes is found as it was.
-/
import proofs.«112986_j26706106647093_2_alg».proof.Proof.Gen.KernelIdeal.Launch
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

/-- The normaliser column: the number of edges ending at each node, at least one. -/
def normK (ee : (⟨S600000, .i32⟩ : BufTy).Contents (Elt F)) : (⟨S50000x1, .f32⟩ : BufTy).Contents (Elt F) :=
  ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant (F := F) S_ .f32 0x00000000#32))) ((broadcastInDim S600000x1 ![0] bcast_S600000_S600000x1_0 : (⟨S600000, .i32⟩ : BufTy).Contents (Elt F) → (⟨S600000x1, .i32⟩ : BufTy).Contents (Elt F)) ee) ((broadcastInDim S600000 ![] bcast_S_S600000 : (⟨S_, .f32⟩ : BufTy).Contents (Elt F) → (⟨S600000, .f32⟩ : BufTy).Contents (Elt F)) ((constant (F := F) S_ .f32 0x3F800000#32)))) ((broadcastInDim S50000 ![] bcast_S_S50000 : (⟨S_, .f32⟩ : BufTy).Contents (Elt F) → (⟨S50000, .f32⟩ : BufTy).Contents (Elt F)) ((constant (F := F) S_ .f32 0x3F800000#32)))))

/-- A weight transposed. -/
def trK (w : (⟨S128x128, .f32⟩ : BufTy).Contents (Elt F)) : (⟨S128x128, .f32⟩ : BufTy).Contents (Elt F) :=
  (((transpose S128x128 [1, 0] · transposes_S128x128_S128x128_1_0) : (⟨S128x128, .f32⟩ : BufTy).Contents (Elt F) → (⟨S128x128, .f32⟩ : BufTy).Contents (Elt F)) w)

/-- The aggregate: per edge the logistic gate of `vi` at the end node plus `vj` at the start node plus the bias, times `u` at the start node, summed onto the end nodes (the three arrays widened from their storage format first). -/
def edgeK (u : (⟨S50000x128, .bf16⟩ : BufTy).Contents (Elt F)) (vi : (⟨S50000x128, .bf16⟩ : BufTy).Contents (Elt F)) (vj : (⟨S50000x128, .bf16⟩ : BufTy).Contents (Elt F)) (bv : (⟨S128, .f32⟩ : BufTy).Contents (Elt F)) (es : (⟨S600000, .i32⟩ : BufTy).Contents (Elt F)) (ee : (⟨S600000, .i32⟩ : BufTy).Contents (Elt F)) : (⟨S50000x128, .f32⟩ : BufTy).Contents (Elt F) :=
  (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant (F := F) S_ .f32 0x00000000#32))) ((broadcastInDim S600000x1 ![0] bcast_S600000_S600000x1_0 : (⟨S600000, .i32⟩ : BufTy).Contents (Elt F) → (⟨S600000x1, .i32⟩ : BufTy).Contents (Elt F)) ee) ((mulf : (⟨S600000x128, .f32⟩ : BufTy).Contents (Elt F) → (⟨S600000x128, .f32⟩ : BufTy).Contents (Elt F) → (⟨S600000x128, .f32⟩ : BufTy).Contents (Elt F)) ((Host.divf : (⟨S600000x128, .f32⟩ : BufTy).Contents (Elt F) → (⟨S600000x128, .f32⟩ : BufTy).Contents (Elt F) → (⟨S600000x128, .f32⟩ : BufTy).Contents (Elt F)) ((broadcastInDim S600000x128 ![] bcast_S_S600000x128 : (⟨S_, .f32⟩ : BufTy).Contents (Elt F) → (⟨S600000x128, .f32⟩ : BufTy).Contents (Elt F)) ((constant (F := F) S_ .f32 0x3F800000#32))) ((addf : (⟨S600000x128, .f32⟩ : BufTy).Contents (Elt F) → (⟨S600000x128, .f32⟩ : BufTy).Contents (Elt F) → (⟨S600000x128, .f32⟩ : BufTy).Contents (Elt F)) ((broadcastInDim S600000x128 ![] bcast_S_S600000x128 : (⟨S_, .f32⟩ : BufTy).Contents (Elt F) → (⟨S600000x128, .f32⟩ : BufTy).Contents (Elt F)) ((constant (F := F) S_ .f32 0x3F800000#32))) ((Host.exp : (⟨S600000x128, .f32⟩ : BufTy).Contents (Elt F) → (⟨S600000x128, .f32⟩ : BufTy).Contents (Elt F)) ((Host.negf : (⟨S600000x128, .f32⟩ : BufTy).Contents (Elt F) → (⟨S600000x128, .f32⟩ : BufTy).Contents (Elt F)) ((addf : (⟨S600000x128, .f32⟩ : BufTy).Contents (Elt F) → (⟨S600000x128, .f32⟩ : BufTy).Contents (Elt F) → (⟨S600000x128, .f32⟩ : BufTy).Contents (Elt F)) ((addf : (⟨S600000x128, .f32⟩ : BufTy).Contents (Elt F) → (⟨S600000x128, .f32⟩ : BufTy).Contents (Elt F) → (⟨S600000x128, .f32⟩ : BufTy).Contents (Elt F)) (((extf .f32 · bitsLt_bf16_f32) : (⟨S600000x128, .bf16⟩ : BufTy).Contents (Elt F) → (⟨S600000x128, .f32⟩ : BufTy).Contents (Elt F)) (((fun x i => Host.gather gather_S50000x128_S600000x1_S600000x128_1_0_n_n_0_1_1128 x i) : (⟨S50000x128, .bf16⟩ : BufTy).Contents (Elt F) → (⟨S600000x1, .i32⟩ : BufTy).Contents (Elt F) → (⟨S600000x128, .bf16⟩ : BufTy).Contents (Elt F)) vi ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) ee ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) ee ((broadcastInDim S600000 ![] bcast_S_S600000 : (⟨S_, .i32⟩ : BufTy).Contents (Elt F) → (⟨S600000, .i32⟩ : BufTy).Contents (Elt F)) ((constantI S_ 32 50000#32)))) ee)))) (((extf .f32 · bitsLt_bf16_f32) : (⟨S600000x128, .bf16⟩ : BufTy).Contents (Elt F) → (⟨S600000x128, .f32⟩ : BufTy).Contents (Elt F)) (((fun x i => Host.gather gather_S50000x128_S600000x1_S600000x128_1_0_n_n_0_1_1128 x i) : (⟨S50000x128, .bf16⟩ : BufTy).Contents (Elt F) → (⟨S600000x1, .i32⟩ : BufTy).Contents (Elt F) → (⟨S600000x128, .bf16⟩ : BufTy).Contents (Elt F)) vj ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) es ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) es ((broadcastInDim S600000 ![] bcast_S_S600000 : (⟨S_, .i32⟩ : BufTy).Contents (Elt F) → (⟨S600000, .i32⟩ : BufTy).Contents (Elt F)) ((constantI S_ 32 50000#32)))) es))))) ((broadcastInDim S600000x128 ![0, 1] bcast_S1x128_S600000x128_0_1 : (⟨S1x128, .f32⟩ : BufTy).Contents (Elt F) → (⟨S600000x128, .f32⟩ : BufTy).Contents (Elt F)) ((broadcastInDim S1x128 ![1] bcast_S128_S1x128_1 : (⟨S128, .f32⟩ : BufTy).Contents (Elt F) → (⟨S1x128, .f32⟩ : BufTy).Contents (Elt F)) bv))))))) (((extf .f32 · bitsLt_bf16_f32) : (⟨S600000x128, .bf16⟩ : BufTy).Contents (Elt F) → (⟨S600000x128, .f32⟩ : BufTy).Contents (Elt F)) (((fun x i => Host.gather gather_S50000x128_S600000x1_S600000x128_1_0_n_n_0_1_1128 x i) : (⟨S50000x128, .bf16⟩ : BufTy).Contents (Elt F) → (⟨S600000x1, .i32⟩ : BufTy).Contents (Elt F) → (⟨S600000x128, .bf16⟩ : BufTy).Contents (Elt F)) u ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) es ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) es ((broadcastInDim S600000 ![] bcast_S_S600000 : (⟨S_, .i32⟩ : BufTy).Contents (Elt F) → (⟨S600000, .i32⟩ : BufTy).Contents (Elt F)) ((constantI S_ 32 50000#32)))) es))))))

/-- A vector as a one-row array. -/
def rowK (v : (⟨S128, .f32⟩ : BufTy).Contents (Elt F)) : (⟨S1x128, .f32⟩ : BufTy).Contents (Elt F) :=
  (shapeCast _ v shapeCasts_S128_S1x128)

/-- The pre-activation: the one-row bias added down the rows, each row divided by the node's normaliser. -/
def hxK (g : (⟨S50000x128, .f32⟩ : BufTy).Contents (Elt F)) (b : (⟨S1x128, .f32⟩ : BufTy).Contents (Elt F)) (n : (⟨S50000x1, .f32⟩ : BufTy).Contents (Elt F)) : (⟨S50000x128, .f32⟩ : BufTy).Contents (Elt F) :=
  ((Host.divf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) g ((broadcastInDim S50000x128 ![0, 1] bcast_S1x128_S50000x128_0_1 : (⟨S1x128, .f32⟩ : BufTy).Contents (Elt F) → (⟨S50000x128, .f32⟩ : BufTy).Contents (Elt F)) b)) ((broadcastInDim S50000x128 ![0, 1] bcast_S50000x1_S50000x128_0_1 : (⟨S50000x1, .f32⟩ : BufTy).Contents (Elt F) → (⟨S50000x128, .f32⟩ : BufTy).Contents (Elt F)) n))

/-- The column mean, as a one-row array. -/
def meanK (h : (⟨S50000x128, .f32⟩ : BufTy).Contents (Elt F)) : (⟨S1x128, .f32⟩ : BufTy).Contents (Elt F) :=
  ((Host.divf : (⟨S1x128, .f32⟩ : BufTy).Contents (Elt F) → (⟨S1x128, .f32⟩ : BufTy).Contents (Elt F) → (⟨S1x128, .f32⟩ : BufTy).Contents (Elt F)) ((broadcastInDim S1x128 ![1] bcast_S128_S1x128_1 : (⟨S128, .f32⟩ : BufTy).Contents (Elt F) → (⟨S1x128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) h ((constant (F := F) S_ .f32 0x00000000#32)))) ((broadcastInDim S1x128 ![] bcast_S_S1x128 : (⟨S_, .f32⟩ : BufTy).Contents (Elt F) → (⟨S1x128, .f32⟩ : BufTy).Contents (Elt F)) ((constant (F := F) S_ .f32 0x47435000#32))))

/-- The column variance, as a one-row array. -/
def varK (h : (⟨S50000x128, .f32⟩ : BufTy).Contents (Elt F)) : (⟨S1x128, .f32⟩ : BufTy).Contents (Elt F) :=
  ((fun p a b => select (broadcastInDim S1x128 ![] bcast_S_S1x128 p) a b) ((cmpf .ogt) (subf ((constant (F := F) S_ .f32 0x47435000#32)) ((sitofp .f32) ((constantI S_ 32 0#32)))) ((constant (F := F) S_ .f32 0x00000000#32))) (Host.divf ((broadcastInDim S1x128 ![1] bcast_S128_S1x128_1) ((fun x v => Host.reduceAdd x v reducesTo_S50000x128_S128_d0 h_S_) (mulf (subf h ((broadcastInDim S50000x128 ![0, 1] bcast_S1x128_S50000x128_0_1) (Host.divf ((broadcastInDim S1x128 ![1] bcast_S128_S1x128_1) ((fun x v => Host.reduceAdd x v reducesTo_S50000x128_S128_d0 h_S_) h ((constant (F := F) S_ .f32 0x00000000#32)))) ((broadcastInDim S1x128 ![] bcast_S_S1x128) ((constant (F := F) S_ .f32 0x47435000#32)))))) (subf h ((broadcastInDim S50000x128 ![0, 1] bcast_S1x128_S50000x128_0_1) (Host.divf ((broadcastInDim S1x128 ![1] bcast_S128_S1x128_1) ((fun x v => Host.reduceAdd x v reducesTo_S50000x128_S128_d0 h_S_) h ((constant (F := F) S_ .f32 0x00000000#32)))) ((broadcastInDim S1x128 ![] bcast_S_S1x128) ((constant (F := F) S_ .f32 0x47435000#32))))))) ((constant (F := F) S_ .f32 0x00000000#32)))) ((broadcastInDim S1x128 ![] bcast_S_S1x128) (subf ((constant (F := F) S_ .f32 0x47435000#32)) ((sitofp .f32) ((constantI S_ 32 0#32)))))) ((broadcastInDim S1x128 ![] bcast_S_S1x128) (id ((constant (F := F) S_ .f32 0x7FC00000#32)))))

/-- The stretch before the first region: the normaliser. -/
theorem seg0_v6 (W : Valuation τ sig (Elt F)) :
    after hostOps0 (W) (Proc.devRef .tc main_v6) = normK (W (Proc.devRef .tc main_arg17)) := by
  dsimp only [hostOps0, hostOps1, hostOps1_1, hostOps2, hostOps3, hostOps3_1, hostOps4]
  after_results_simp
  try (simp only [varK, hxK, edgeK, rowK, meanK, normK, trK])
  try rfl

/-- The stretch before the first region: a transposed weight. -/
theorem seg0_v7 (W : Valuation τ sig (Elt F)) :
    after hostOps0 (W) (Proc.devRef .tc main_v7) = trK (W (Proc.devRef .tc main_arg1)) := by
  dsimp only [hostOps0, hostOps1, hostOps1_1, hostOps2, hostOps3, hostOps3_1, hostOps4]
  after_results_simp
  try (simp only [varK, hxK, edgeK, rowK, meanK, normK, trK])
  try rfl

/-- The stretch before the first region: a transposed weight. -/
theorem seg0_v8 (W : Valuation τ sig (Elt F)) :
    after hostOps0 (W) (Proc.devRef .tc main_v8) = trK (W (Proc.devRef .tc main_arg2)) := by
  dsimp only [hostOps0, hostOps1, hostOps1_1, hostOps2, hostOps3, hostOps3_1, hostOps4]
  after_results_simp
  try (simp only [varK, hxK, edgeK, rowK, meanK, normK, trK])
  try rfl

/-- The stretch before the first region: a transposed weight. -/
theorem seg0_v9 (W : Valuation τ sig (Elt F)) :
    after hostOps0 (W) (Proc.devRef .tc main_v9) = trK (W (Proc.devRef .tc main_arg3)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg0 (W : Valuation τ sig (Elt F)) :
    after hostOps0 (W) (Proc.devRef .tc main_arg0) = (W (Proc.devRef .tc main_arg0)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg4 (W : Valuation τ sig (Elt F)) :
    after hostOps0 (W) (Proc.devRef .tc main_arg4) = (W (Proc.devRef .tc main_arg4)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg5 (W : Valuation τ sig (Elt F)) :
    after hostOps0 (W) (Proc.devRef .tc main_arg5) = (W (Proc.devRef .tc main_arg5)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg6 (W : Valuation τ sig (Elt F)) :
    after hostOps0 (W) (Proc.devRef .tc main_arg6) = (W (Proc.devRef .tc main_arg6)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg7 (W : Valuation τ sig (Elt F)) :
    after hostOps0 (W) (Proc.devRef .tc main_arg7) = (W (Proc.devRef .tc main_arg7)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg8 (W : Valuation τ sig (Elt F)) :
    after hostOps0 (W) (Proc.devRef .tc main_arg8) = (W (Proc.devRef .tc main_arg8)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg9 (W : Valuation τ sig (Elt F)) :
    after hostOps0 (W) (Proc.devRef .tc main_arg9) = (W (Proc.devRef .tc main_arg9)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg10 (W : Valuation τ sig (Elt F)) :
    after hostOps0 (W) (Proc.devRef .tc main_arg10) = (W (Proc.devRef .tc main_arg10)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg11 (W : Valuation τ sig (Elt F)) :
    after hostOps0 (W) (Proc.devRef .tc main_arg11) = (W (Proc.devRef .tc main_arg11)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg12 (W : Valuation τ sig (Elt F)) :
    after hostOps0 (W) (Proc.devRef .tc main_arg12) = (W (Proc.devRef .tc main_arg12)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg13 (W : Valuation τ sig (Elt F)) :
    after hostOps0 (W) (Proc.devRef .tc main_arg13) = (W (Proc.devRef .tc main_arg13)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg14 (W : Valuation τ sig (Elt F)) :
    after hostOps0 (W) (Proc.devRef .tc main_arg14) = (W (Proc.devRef .tc main_arg14)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg15 (W : Valuation τ sig (Elt F)) :
    after hostOps0 (W) (Proc.devRef .tc main_arg15) = (W (Proc.devRef .tc main_arg15)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg16 (W : Valuation τ sig (Elt F)) :
    after hostOps0 (W) (Proc.devRef .tc main_arg16) = (W (Proc.devRef .tc main_arg16)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg0_arg17 (W : Valuation τ sig (Elt F)) :
    after hostOps0 (W) (Proc.devRef .tc main_arg17) = (W (Proc.devRef .tc main_arg17)) := by
  dsimp only [hostOps0, hostOps1, hostOps1_1, hostOps2, hostOps3, hostOps3_1, hostOps4]
  after_results_simp
  try (simp only [varK, hxK, edgeK, rowK, meanK, normK, trK])
  try rfl

/-- Between the first two regions: the aggregate. -/
theorem seg1_v48 (W : Valuation τ sig (Elt F)) :
    after hostOps1_1 (after hostOps1 (W)) (Proc.devRef .tc main_v48) = edgeK (W (Proc.devRef .tc main_v10_0)) (W (Proc.devRef .tc main_v10_1)) (W (Proc.devRef .tc main_v10_2)) (W (Proc.devRef .tc main_arg5)) (W (Proc.devRef .tc main_arg16)) (W (Proc.devRef .tc main_arg17)) := by
  dsimp only [hostOps0, hostOps1, hostOps1_1, hostOps2, hostOps3, hostOps3_1, hostOps4]
  after_results_simp
  try (simp only [varK, hxK, edgeK, rowK, meanK, normK, trK])
  try rfl

/-- Between the first two regions: the bias as a row. -/
theorem seg1_v49 (W : Valuation τ sig (Elt F)) :
    after hostOps1_1 (after hostOps1 (W)) (Proc.devRef .tc main_v49) = rowK (W (Proc.devRef .tc main_arg4)) := by
  dsimp only [hostOps0, hostOps1, hostOps1_1, hostOps2, hostOps3, hostOps3_1, hostOps4]
  after_results_simp
  try (simp only [varK, hxK, edgeK, rowK, meanK, normK, trK])
  try rfl

/-- Between the first two regions: the scale as a row. -/
theorem seg1_v50 (W : Valuation τ sig (Elt F)) :
    after hostOps1_1 (after hostOps1 (W)) (Proc.devRef .tc main_v50) = rowK (W (Proc.devRef .tc main_arg11)) := by
  dsimp only [hostOps0, hostOps1, hostOps1_1, hostOps2, hostOps3, hostOps3_1, hostOps4]
  after_results_simp
  try (simp only [varK, hxK, edgeK, rowK, meanK, normK, trK])
  try rfl

/-- Between the first two regions: the shift as a row. -/
theorem seg1_v51 (W : Valuation τ sig (Elt F)) :
    after hostOps1_1 (after hostOps1 (W)) (Proc.devRef .tc main_v51) = rowK (W (Proc.devRef .tc main_arg12)) := by
  dsimp only [hostOps0, hostOps1, hostOps1_1, hostOps2, hostOps3, hostOps3_1, hostOps4]
  after_results_simp
  try (simp only [varK, hxK, edgeK, rowK, meanK, normK, trK])
  try rfl

/-- Between the first two regions: the column mean of the pre-activation. -/
theorem seg1_v59 (W : Valuation τ sig (Elt F)) :
    after hostOps1_1 (after hostOps1 (W)) (Proc.devRef .tc main_v59) = meanK (hxK (edgeK (W (Proc.devRef .tc main_v10_0)) (W (Proc.devRef .tc main_v10_1)) (W (Proc.devRef .tc main_v10_2)) (W (Proc.devRef .tc main_arg5)) (W (Proc.devRef .tc main_arg16)) (W (Proc.devRef .tc main_arg17))) (rowK (W (Proc.devRef .tc main_arg4))) (W (Proc.devRef .tc main_v6))) := by
  dsimp only [hostOps0, hostOps1, hostOps1_1, hostOps2, hostOps3, hostOps3_1, hostOps4]
  after_results_simp
  try (simp only [varK, hxK, edgeK, rowK, meanK, normK, trK])
  try rfl

set_option maxHeartbeats 4000000 in
/-- Between the first two regions: the column variance of the pre-activation. -/
theorem seg1_v60 (W : Valuation τ sig (Elt F)) :
    after hostOps1_1 (after hostOps1 (W)) (Proc.devRef .tc main_v60) = varK (hxK (edgeK (W (Proc.devRef .tc main_v10_0)) (W (Proc.devRef .tc main_v10_1)) (W (Proc.devRef .tc main_v10_2)) (W (Proc.devRef .tc main_arg5)) (W (Proc.devRef .tc main_arg16)) (W (Proc.devRef .tc main_arg17))) (rowK (W (Proc.devRef .tc main_arg4))) (W (Proc.devRef .tc main_v6))) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_v6 (W : Valuation τ sig (Elt F)) :
    after hostOps1_1 (after hostOps1 (W)) (Proc.devRef .tc main_v6) = (W (Proc.devRef .tc main_v6)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg0 (W : Valuation τ sig (Elt F)) :
    after hostOps1_1 (after hostOps1 (W)) (Proc.devRef .tc main_arg0) = (W (Proc.devRef .tc main_arg0)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg6 (W : Valuation τ sig (Elt F)) :
    after hostOps1_1 (after hostOps1 (W)) (Proc.devRef .tc main_arg6) = (W (Proc.devRef .tc main_arg6)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg7 (W : Valuation τ sig (Elt F)) :
    after hostOps1_1 (after hostOps1 (W)) (Proc.devRef .tc main_arg7) = (W (Proc.devRef .tc main_arg7)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg8 (W : Valuation τ sig (Elt F)) :
    after hostOps1_1 (after hostOps1 (W)) (Proc.devRef .tc main_arg8) = (W (Proc.devRef .tc main_arg8)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg9 (W : Valuation τ sig (Elt F)) :
    after hostOps1_1 (after hostOps1 (W)) (Proc.devRef .tc main_arg9) = (W (Proc.devRef .tc main_arg9)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg10 (W : Valuation τ sig (Elt F)) :
    after hostOps1_1 (after hostOps1 (W)) (Proc.devRef .tc main_arg10) = (W (Proc.devRef .tc main_arg10)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg13 (W : Valuation τ sig (Elt F)) :
    after hostOps1_1 (after hostOps1 (W)) (Proc.devRef .tc main_arg13) = (W (Proc.devRef .tc main_arg13)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg14 (W : Valuation τ sig (Elt F)) :
    after hostOps1_1 (after hostOps1 (W)) (Proc.devRef .tc main_arg14) = (W (Proc.devRef .tc main_arg14)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg15 (W : Valuation τ sig (Elt F)) :
    after hostOps1_1 (after hostOps1 (W)) (Proc.devRef .tc main_arg15) = (W (Proc.devRef .tc main_arg15)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg16 (W : Valuation τ sig (Elt F)) :
    after hostOps1_1 (after hostOps1 (W)) (Proc.devRef .tc main_arg16) = (W (Proc.devRef .tc main_arg16)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg1_arg17 (W : Valuation τ sig (Elt F)) :
    after hostOps1_1 (after hostOps1 (W)) (Proc.devRef .tc main_arg17) = (W (Proc.devRef .tc main_arg17)) := by
  dsimp only [hostOps0, hostOps1, hostOps1_1, hostOps2, hostOps3, hostOps3_1, hostOps4]
  after_results_simp
  try (simp only [varK, hxK, edgeK, rowK, meanK, normK, trK])
  try rfl

/-- Between the second and third regions: a transposed weight. -/
theorem seg2_v62 (W : Valuation τ sig (Elt F)) :
    after hostOps2 (W) (Proc.devRef .tc main_v62) = trK (W (Proc.devRef .tc main_arg6)) := by
  dsimp only [hostOps0, hostOps1, hostOps1_1, hostOps2, hostOps3, hostOps3_1, hostOps4]
  after_results_simp
  try (simp only [varK, hxK, edgeK, rowK, meanK, normK, trK])
  try rfl

/-- Between the second and third regions: a transposed weight. -/
theorem seg2_v63 (W : Valuation τ sig (Elt F)) :
    after hostOps2 (W) (Proc.devRef .tc main_v63) = trK (W (Proc.devRef .tc main_arg7)) := by
  dsimp only [hostOps0, hostOps1, hostOps1_1, hostOps2, hostOps3, hostOps3_1, hostOps4]
  after_results_simp
  try (simp only [varK, hxK, edgeK, rowK, meanK, normK, trK])
  try rfl

/-- Between the second and third regions: a transposed weight. -/
theorem seg2_v64 (W : Valuation τ sig (Elt F)) :
    after hostOps2 (W) (Proc.devRef .tc main_v64) = trK (W (Proc.devRef .tc main_arg8)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_v61 (W : Valuation τ sig (Elt F)) :
    after hostOps2 (W) (Proc.devRef .tc main_v61) = (W (Proc.devRef .tc main_v61)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_v6 (W : Valuation τ sig (Elt F)) :
    after hostOps2 (W) (Proc.devRef .tc main_v6) = (W (Proc.devRef .tc main_v6)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_arg0 (W : Valuation τ sig (Elt F)) :
    after hostOps2 (W) (Proc.devRef .tc main_arg0) = (W (Proc.devRef .tc main_arg0)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_arg9 (W : Valuation τ sig (Elt F)) :
    after hostOps2 (W) (Proc.devRef .tc main_arg9) = (W (Proc.devRef .tc main_arg9)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_arg10 (W : Valuation τ sig (Elt F)) :
    after hostOps2 (W) (Proc.devRef .tc main_arg10) = (W (Proc.devRef .tc main_arg10)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_arg13 (W : Valuation τ sig (Elt F)) :
    after hostOps2 (W) (Proc.devRef .tc main_arg13) = (W (Proc.devRef .tc main_arg13)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_arg14 (W : Valuation τ sig (Elt F)) :
    after hostOps2 (W) (Proc.devRef .tc main_arg14) = (W (Proc.devRef .tc main_arg14)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_arg15 (W : Valuation τ sig (Elt F)) :
    after hostOps2 (W) (Proc.devRef .tc main_arg15) = (W (Proc.devRef .tc main_arg15)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_arg16 (W : Valuation τ sig (Elt F)) :
    after hostOps2 (W) (Proc.devRef .tc main_arg16) = (W (Proc.devRef .tc main_arg16)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg2_arg17 (W : Valuation τ sig (Elt F)) :
    after hostOps2 (W) (Proc.devRef .tc main_arg17) = (W (Proc.devRef .tc main_arg17)) := by
  dsimp only [hostOps0, hostOps1, hostOps1_1, hostOps2, hostOps3, hostOps3_1, hostOps4]
  after_results_simp
  try (simp only [varK, hxK, edgeK, rowK, meanK, normK, trK])
  try rfl

/-- Between the third and fourth regions: the aggregate. -/
theorem seg3_v103 (W : Valuation τ sig (Elt F)) :
    after hostOps3_1 (after hostOps3 (W)) (Proc.devRef .tc main_v103) = edgeK (W (Proc.devRef .tc main_v65_0)) (W (Proc.devRef .tc main_v65_1)) (W (Proc.devRef .tc main_v65_2)) (W (Proc.devRef .tc main_arg10)) (W (Proc.devRef .tc main_arg16)) (W (Proc.devRef .tc main_arg17)) := by
  dsimp only [hostOps0, hostOps1, hostOps1_1, hostOps2, hostOps3, hostOps3_1, hostOps4]
  after_results_simp
  try (simp only [varK, hxK, edgeK, rowK, meanK, normK, trK])
  try rfl

/-- Between the third and fourth regions: the bias as a row. -/
theorem seg3_v104 (W : Valuation τ sig (Elt F)) :
    after hostOps3_1 (after hostOps3 (W)) (Proc.devRef .tc main_v104) = rowK (W (Proc.devRef .tc main_arg9)) := by
  dsimp only [hostOps0, hostOps1, hostOps1_1, hostOps2, hostOps3, hostOps3_1, hostOps4]
  after_results_simp
  try (simp only [varK, hxK, edgeK, rowK, meanK, normK, trK])
  try rfl

/-- Between the third and fourth regions: the scale as a row. -/
theorem seg3_v105 (W : Valuation τ sig (Elt F)) :
    after hostOps3_1 (after hostOps3 (W)) (Proc.devRef .tc main_v105) = rowK (W (Proc.devRef .tc main_arg13)) := by
  dsimp only [hostOps0, hostOps1, hostOps1_1, hostOps2, hostOps3, hostOps3_1, hostOps4]
  after_results_simp
  try (simp only [varK, hxK, edgeK, rowK, meanK, normK, trK])
  try rfl

/-- Between the third and fourth regions: the shift as a row. -/
theorem seg3_v106 (W : Valuation τ sig (Elt F)) :
    after hostOps3_1 (after hostOps3 (W)) (Proc.devRef .tc main_v106) = rowK (W (Proc.devRef .tc main_arg14)) := by
  dsimp only [hostOps0, hostOps1, hostOps1_1, hostOps2, hostOps3, hostOps3_1, hostOps4]
  after_results_simp
  try (simp only [varK, hxK, edgeK, rowK, meanK, normK, trK])
  try rfl

/-- Between the third and fourth regions: the column mean of the pre-activation. -/
theorem seg3_v114 (W : Valuation τ sig (Elt F)) :
    after hostOps3_1 (after hostOps3 (W)) (Proc.devRef .tc main_v114) = meanK (hxK (edgeK (W (Proc.devRef .tc main_v65_0)) (W (Proc.devRef .tc main_v65_1)) (W (Proc.devRef .tc main_v65_2)) (W (Proc.devRef .tc main_arg10)) (W (Proc.devRef .tc main_arg16)) (W (Proc.devRef .tc main_arg17))) (rowK (W (Proc.devRef .tc main_arg9))) (W (Proc.devRef .tc main_v6))) := by
  dsimp only [hostOps0, hostOps1, hostOps1_1, hostOps2, hostOps3, hostOps3_1, hostOps4]
  after_results_simp
  try (simp only [varK, hxK, edgeK, rowK, meanK, normK, trK])
  try rfl

set_option maxHeartbeats 4000000 in
/-- Between the third and fourth regions: the column variance of the pre-activation. -/
theorem seg3_v115 (W : Valuation τ sig (Elt F)) :
    after hostOps3_1 (after hostOps3 (W)) (Proc.devRef .tc main_v115) = varK (hxK (edgeK (W (Proc.devRef .tc main_v65_0)) (W (Proc.devRef .tc main_v65_1)) (W (Proc.devRef .tc main_v65_2)) (W (Proc.devRef .tc main_arg10)) (W (Proc.devRef .tc main_arg16)) (W (Proc.devRef .tc main_arg17))) (rowK (W (Proc.devRef .tc main_arg9))) (W (Proc.devRef .tc main_v6))) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg3_v6 (W : Valuation τ sig (Elt F)) :
    after hostOps3_1 (after hostOps3 (W)) (Proc.devRef .tc main_v6) = (W (Proc.devRef .tc main_v6)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg3_arg0 (W : Valuation τ sig (Elt F)) :
    after hostOps3_1 (after hostOps3 (W)) (Proc.devRef .tc main_arg0) = (W (Proc.devRef .tc main_arg0)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg3_arg15 (W : Valuation τ sig (Elt F)) :
    after hostOps3_1 (after hostOps3 (W)) (Proc.devRef .tc main_arg15) = (W (Proc.devRef .tc main_arg15)) := by
  dsimp only [hostOps0, hostOps1, hostOps1_1, hostOps2, hostOps3, hostOps3_1, hostOps4]
  after_results_simp
  try (simp only [varK, hxK, edgeK, rowK, meanK, normK, trK])
  try rfl

/-- Before the last region: the residual weight transposed. -/
theorem seg4_v117 (W : Valuation τ sig (Elt F)) :
    after hostOps4 (W) (Proc.devRef .tc main_v117) = trK (W (Proc.devRef .tc main_arg15)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg4_v116 (W : Valuation τ sig (Elt F)) :
    after hostOps4 (W) (Proc.devRef .tc main_v116) = (W (Proc.devRef .tc main_v116)) := by
  dsimp only [hostOps0, hostOps1, hostOps1_1, hostOps2, hostOps3, hostOps3_1, hostOps4]
  after_results_simp
  try (simp only [varK, hxK, edgeK, rowK, meanK, normK, trK])
  try rfl

/-- A buffer the stretch does not write. -/
theorem seg4_arg0 (W : Valuation τ sig (Elt F)) :
    after hostOps4 (W) (Proc.devRef .tc main_arg0) = (W (Proc.devRef .tc main_arg0)) := by
  dsimp only [hostOps0, hostOps1, hostOps1_1, hostOps2, hostOps3, hostOps3_1, hostOps4]
  after_results_simp
  try (simp only [varK, hxK, edgeK, rowK, meanK, normK, trK])
  try rfl

end Cert.KernelIdeal.HostVal

end
-- ==== Proof.RefOps.lean ====
/-
  The idealized reference's host program as a list of its operations, stage by stage in the order the
  program runs them: the in-degree normaliser; per layer the three projections, the edge gate and its
  scatter-sum, the division by the normaliser, the column mean and variance, the batch-norm affine map;
  and the residual sum with its leaky rectifier. The functions jax outlined (the variance, the two
  selects) appear at their call sites over the buffers of that call. The program is this straight line,
  so every weakly fair execution ends with each buffer at the fold of these operations over the launch
  contents.
-/
import proofs.«112986_j26706106647093_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The in-degree normaliser: ones scattered onto the end nodes, clipped below by one, as a column. -/
abbrev opsNorm : List (HloOp τ sig (Elt F)) :=
  [ StableHlo.nullary main_cst (constant S_ .f32 0x3F800000#32),
    StableHlo.unary main_cst main_v0 (broadcastInDim S600000 ![] bcast_S_S600000 : (⟨S_, .f32⟩ : BufTy).Contents (Elt F) → (⟨S600000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg17 main_v2 (broadcastInDim S600000x1 ![0] bcast_S600000_S600000x1_0 : (⟨S600000, .i32⟩ : BufTy).Contents (Elt F) → (⟨S600000x1, .i32⟩ : BufTy).Contents (Elt F)),
    StableHlo.ternary main_v1 main_v2 main_v0 main_v3 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (maximumf : (⟨S50000, .f32⟩ : BufTy).Contents (Elt F) → (⟨S50000, .f32⟩ : BufTy).Contents (Elt F) → (⟨S50000, .f32⟩ : BufTy).Contents (Elt F)),
    StableHlo.unary main_v5 main_v6 (broadcastInDim S50000x1 ![0] bcast_S50000_S50000x1_0 : (⟨S50000, .f32⟩ : BufTy).Contents (Elt F) → (⟨S50000x1, .f32⟩ : BufTy).Contents (Elt F)) ]

/-- Layer 1: the three projections of the node features. -/
abbrev opsProj1 : List (HloOp τ sig (Elt F)) :=
  [ StableHlo.unary main_arg1 main_v7 ((transpose S128x128 [1, 0] · transposes_S128x128_S128x128_1_0) : (⟨S128x128, .f32⟩ : BufTy).Contents (Elt F) → (⟨S128x128, .f32⟩ : BufTy).Contents (Elt F)),
    StableHlo.binary main_arg0 main_v7 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v9 ((transpose S128x128 [1, 0] · transposes_S128x128_S128x128_1_0) : (⟨S128x128, .f32⟩ : BufTy).Contents (Elt F) → (⟨S128x128, .f32⟩ : BufTy).Contents (Elt F)),
    StableHlo.binary main_arg0 main_v9 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v11 ((transpose S128x128 [1, 0] · transposes_S128x128_S128x128_1_0) : (⟨S128x128, .f32⟩ : BufTy).Contents (Elt F) → (⟨S128x128, .f32⟩ : BufTy).Contents (Elt F)),
    StableHlo.binary main_arg0 main_v11 main_v12 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Layer 1: per edge, the gate of the two gathered projections and the bias, times the third gathered projection, summed onto the end nodes. -/
abbrev opsEdge1 : List (HloOp τ sig (Elt F)) :=
  [ StableHlo.nullary main_c (constantI S_ 32 0#32),
    StableHlo.unary main_c main_v13 (broadcastInDim S600000 ![] bcast_S_S600000 : (⟨S_, .i32⟩ : BufTy).Contents (Elt F) → (⟨S600000, .i32⟩ : BufTy).Contents (Elt F)),
    StableHlo.binary main_arg17 main_v13 main_v14 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v15 (broadcastInDim S600000 ![] bcast_S_S600000 : (⟨S_, .i32⟩ : BufTy).Contents (Elt F) → (⟨S600000, .i32⟩ : BufTy).Contents (Elt F)),
    StableHlo.binary main_arg17 main_v15 main_v16 (addi : (⟨S600000, .i32⟩ : BufTy).Contents (Elt F) → (⟨S600000, .i32⟩ : BufTy).Contents (Elt F) → (⟨S600000, .i32⟩ : BufTy).Contents (Elt F)),
    StableHlo.ternary main_v14 main_v16 main_arg17 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v17 main_v18 (broadcastInDim S600000x1 ![0] bcast_S600000_S600000x1_0 : (⟨S600000, .i32⟩ : BufTy).Contents (Elt F) → (⟨S600000x1, .i32⟩ : BufTy).Contents (Elt F)),
    StableHlo.binary main_v10 main_v18 main_v19 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_3 (constantI S_ 32 0#32),
    StableHlo.unary main_c_3 main_v20 (broadcastInDim S600000 ![] bcast_S_S600000 : (⟨S_, .i32⟩ : BufTy).Contents (Elt F) → (⟨S600000, .i32⟩ : BufTy).Contents (Elt F)),
    StableHlo.binary main_arg16 main_v20 main_v21 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 50000#32),
    StableHlo.unary main_c_4 main_v22 (broadcastInDim S600000 ![] bcast_S_S600000 : (⟨S_, .i32⟩ : BufTy).Contents (Elt F) → (⟨S600000, .i32⟩ : BufTy).Contents (Elt F)),
    StableHlo.binary main_arg16 main_v22 main_v23 (addi : (⟨S600000, .i32⟩ : BufTy).Contents (Elt F) → (⟨S600000, .i32⟩ : BufTy).Contents (Elt F) → (⟨S600000, .i32⟩ : BufTy).Contents (Elt F)),
    StableHlo.ternary main_v21 main_v23 main_arg16 main_v24 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v24 main_v25 (broadcastInDim S600000x1 ![0] bcast_S600000_S600000x1_0 : (⟨S600000, .i32⟩ : BufTy).Contents (Elt F) → (⟨S600000x1, .i32⟩ : BufTy).Contents (Elt F)),
    StableHlo.binary main_v12 main_v25 main_v26 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v19 main_v26 main_v27 (addf : (⟨S600000x128, .f32⟩ : BufTy).Contents (Elt F) → (⟨S600000x128, .f32⟩ : BufTy).Contents (Elt F) → (⟨S600000x128, .f32⟩ : BufTy).Contents (Elt F)),
    StableHlo.unary main_arg5 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S600000x128 ![0, 1] bcast_S1x128_S600000x128_0_1 : (⟨S1x128, .f32⟩ : BufTy).Contents (Elt F) → (⟨S600000x128, .f32⟩ : BufTy).Contents (Elt F)),
    StableHlo.binary main_v27 main_v29 main_v30 (addf : (⟨S600000x128, .f32⟩ : BufTy).Contents (Elt F) → (⟨S600000x128, .f32⟩ : BufTy).Contents (Elt F) → (⟨S600000x128, .f32⟩ : BufTy).Contents (Elt F)),
    StableHlo.unary main_v30 main_v31 (Host.negf : (⟨S600000x128, .f32⟩ : BufTy).Contents (Elt F) → (⟨S600000x128, .f32⟩ : BufTy).Contents (Elt F)),
    StableHlo.unary main_v31 main_v32 (Host.exp : (⟨S600000x128, .f32⟩ : BufTy).Contents (Elt F) → (⟨S600000x128, .f32⟩ : BufTy).Contents (Elt F)),
    StableHlo.nullary main_cst_5 (constant S_ .f32 0x3F800000#32),
    StableHlo.unary main_cst_5 main_v33 (broadcastInDim S600000x128 ![] bcast_S_S600000x128 : (⟨S_, .f32⟩ : BufTy).Contents (Elt F) → (⟨S600000x128, .f32⟩ : BufTy).Contents (Elt F)),
    StableHlo.binary main_v33 main_v32 main_v34 (addf : (⟨S600000x128, .f32⟩ : BufTy).Contents (Elt F) → (⟨S600000x128, .f32⟩ : BufTy).Contents (Elt F) → (⟨S600000x128, .f32⟩ : BufTy).Contents (Elt F)),
    StableHlo.nullary main_cst_6 (constant S_ .f32 0x3F800000#32),
    StableHlo.unary main_cst_6 main_v35 (broadcastInDim S600000x128 ![] bcast_S_S600000x128 : (⟨S_, .f32⟩ : BufTy).Contents (Elt F) → (⟨S600000x128, .f32⟩ : BufTy).Contents (Elt F)),
    StableHlo.binary main_v35 main_v34 main_v36 (Host.divf : (⟨S600000x128, .f32⟩ : BufTy).Contents (Elt F) → (⟨S600000x128, .f32⟩ : BufTy).Contents (Elt F) → (⟨S600000x128, .f32⟩ : BufTy).Contents (Elt F)),
    StableHlo.nullary main_c_7 (constantI S_ 32 0#32),
    StableHlo.unary main_c_7 main_v37 (broadcastInDim S600000 ![] bcast_S_S600000 : (⟨S_, .i32⟩ : BufTy).Contents (Elt F) → (⟨S600000, .i32⟩ : BufTy).Contents (Elt F)),
    StableHlo.binary main_arg16 main_v37 main_v38 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 50000#32),
    StableHlo.unary main_c_8 main_v39 (broadcastInDim S600000 ![] bcast_S_S600000 : (⟨S_, .i32⟩ : BufTy).Contents (Elt F) → (⟨S600000, .i32⟩ : BufTy).Contents (Elt F)),
    StableHlo.binary main_arg16 main_v39 main_v40 (addi : (⟨S600000, .i32⟩ : BufTy).Contents (Elt F) → (⟨S600000, .i32⟩ : BufTy).Contents (Elt F) → (⟨S600000, .i32⟩ : BufTy).Contents (Elt F)),
    StableHlo.ternary main_v38 main_v40 main_arg16 main_v41 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v41 main_v42 (broadcastInDim S600000x1 ![0] bcast_S600000_S600000x1_0 : (⟨S600000, .i32⟩ : BufTy).Contents (Elt F) → (⟨S600000x1, .i32⟩ : BufTy).Contents (Elt F)),
    StableHlo.binary main_v8 main_v42 main_v43 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v36 main_v43 main_v44 (mulf : (⟨S600000x128, .f32⟩ : BufTy).Contents (Elt F) → (⟨S600000x128, .f32⟩ : BufTy).Contents (Elt F) → (⟨S600000x128, .f32⟩ : BufTy).Contents (Elt F)),
    StableHlo.nullary main_cst_9 (constant S_ .f32 0x00000000#32),
    StableHlo.unary main_cst_9 main_v45 (broadcastInDim S50000x128 ![] bcast_S_S50000x128 : (⟨S_, .f32⟩ : BufTy).Contents (Elt F) → (⟨S50000x128, .f32⟩ : BufTy).Contents (Elt F)),
    StableHlo.unary main_arg17 main_v46 (broadcastInDim S600000x1 ![0] bcast_S600000_S600000x1_0 : (⟨S600000, .i32⟩ : BufTy).Contents (Elt F) → (⟨S600000x1, .i32⟩ : BufTy).Contents (Elt F)),
    StableHlo.ternary main_v45 main_v46 main_v44 main_v47 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- Layer 1: the bias added and the rows divided by the normaliser. -/
abbrev opsPre1 : List (HloOp τ sig (Elt F)) :=
  [ StableHlo.unary main_arg4 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v49 main_v50 (addf : (⟨S50000x128, .f32⟩ : BufTy).Contents (Elt F) → (⟨S50000x128, .f32⟩ : BufTy).Contents (Elt F) → (⟨S50000x128, .f32⟩ : BufTy).Contents (Elt F)),
    StableHlo.unary main_v6 main_v51 (broadcastInDim S50000x128 ![0, 1] bcast_S50000x1_S50000x128_0_1 : (⟨S50000x1, .f32⟩ : BufTy).Contents (Elt F) → (⟨S50000x128, .f32⟩ : BufTy).Contents (Elt F)),
    StableHlo.binary main_v50 main_v51 main_v52 (Host.divf : (⟨S50000x128, .f32⟩ : BufTy).Contents (Elt F) → (⟨S50000x128, .f32⟩ : BufTy).Contents (Elt F) → (⟨S50000x128, .f32⟩ : BufTy).Contents (Elt F)) ]

/-- Layer 1: the column mean and the column variance. -/
abbrev opsStats1 : List (HloOp τ sig (Elt F)) :=
  [ StableHlo.nullary main_cst_10 (constant S_ .f32 0x00000000#32),
    StableHlo.binary main_v52 main_cst_10 main_v53 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v54 (broadcastInDim S128 ![] bcast_S_S128 : (⟨S_, .f32⟩ : BufTy).Contents (Elt F) → (⟨S128, .f32⟩ : BufTy).Contents (Elt F)),
    StableHlo.binary main_v53 main_v54 main_v55 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call0.cst (constant S_ .f32 0x00000000#32),
    StableHlo.TRef.binary (.of main_v52) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v52) main_call0.v4 main_call0.v5 subf,
    StableHlo.TRef.binary main_call0.v5 main_call0.v5 main_call0.v6 mulf,
    StableHlo.TRef.unary (.of main_c_12) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Layer 1: centred, scaled by the root of the variance plus epsilon, the affine map, the leaky rectifier. -/
abbrev opsBn1 : List (HloOp τ sig (Elt F)) :=
  [ StableHlo.unary main_v55 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v58 main_v59 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v60 (broadcastInDim S128 ![] bcast_S_S128 : (⟨S_, .f32⟩ : BufTy).Contents (Elt F) → (⟨S128, .f32⟩ : BufTy).Contents (Elt F)),
    StableHlo.binary main_v56 main_v60 main_v61 (addf : (⟨S128, .f32⟩ : BufTy).Contents (Elt F) → (⟨S128, .f32⟩ : BufTy).Contents (Elt F) → (⟨S128, .f32⟩ : BufTy).Contents (Elt F)),
    StableHlo.unary main_v61 main_v62 (Host.sqrt : (⟨S128, .f32⟩ : BufTy).Contents (Elt F) → (⟨S128, .f32⟩ : BufTy).Contents (Elt F)),
    StableHlo.unary main_v62 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v64 main_v65 (Host.divf : (⟨S50000x128, .f32⟩ : BufTy).Contents (Elt F) → (⟨S50000x128, .f32⟩ : BufTy).Contents (Elt F) → (⟨S50000x128, .f32⟩ : BufTy).Contents (Elt F)),
    StableHlo.unary main_arg11 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v67 main_v68 (mulf : (⟨S50000x128, .f32⟩ : BufTy).Contents (Elt F) → (⟨S50000x128, .f32⟩ : BufTy).Contents (Elt F) → (⟨S50000x128, .f32⟩ : BufTy).Contents (Elt F)),
    StableHlo.unary main_arg12 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.unary main_cst_14 main_v72 (broadcastInDim S50000x128 ![] bcast_S_S50000x128 : (⟨S_, .f32⟩ : BufTy).Contents (Elt F) → (⟨S50000x128, .f32⟩ : BufTy).Contents (Elt F)),
    StableHlo.binary main_v71 main_v72 main_v73 (cmpf .ogt : (⟨S50000x128, .f32⟩ : BufTy).Contents (Elt F) → (⟨S50000x128, .f32⟩ : BufTy).Contents (Elt F) → (⟨S50000x128, .i1⟩ : BufTy).Contents (Elt F)),
    StableHlo.nullary main_cst_15 (constant S_ .f32 0x3DCCCCCD#32),
    StableHlo.unary main_cst_15 main_v74 (broadcastInDim S50000x128 ![] bcast_S_S50000x128 : (⟨S_, .f32⟩ : BufTy).Contents (Elt F) → (⟨S50000x128, .f32⟩ : BufTy).Contents (Elt F)),
    StableHlo.binary main_v74 main_v71 main_v75 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v73) (.of main_v71) (.of main_v75) main_call1.v0 select ]

/-- Layer 2: the three projections. -/
abbrev opsProj2 : List (HloOp τ sig (Elt F)) :=
  [ StableHlo.unary main_arg6 main_v77 ((transpose S128x128 [1, 0] · transposes_S128x128_S128x128_1_0) : (⟨S128x128, .f32⟩ : BufTy).Contents (Elt F) → (⟨S128x128, .f32⟩ : BufTy).Contents (Elt F)),
    StableHlo.binary main_v76 main_v77 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v79 ((transpose S128x128 [1, 0] · transposes_S128x128_S128x128_1_0) : (⟨S128x128, .f32⟩ : BufTy).Contents (Elt F) → (⟨S128x128, .f32⟩ : BufTy).Contents (Elt F)),
    StableHlo.binary main_v76 main_v79 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v81 ((transpose S128x128 [1, 0] · transposes_S128x128_S128x128_1_0) : (⟨S128x128, .f32⟩ : BufTy).Contents (Elt F) → (⟨S128x128, .f32⟩ : BufTy).Contents (Elt F)),
    StableHlo.binary main_v76 main_v81 main_v82 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Layer 2: the two gathered projections of the gate, summed. -/
abbrev opsEdge2a : List (HloOp τ sig (Elt F)) :=
  [ StableHlo.nullary main_c_16 (constantI S_ 32 0#32),
    StableHlo.unary main_c_16 main_v83 (broadcastInDim S600000 ![] bcast_S_S600000 : (⟨S_, .i32⟩ : BufTy).Contents (Elt F) → (⟨S600000, .i32⟩ : BufTy).Contents (Elt F)),
    StableHlo.binary main_arg17 main_v83 main_v84 (cmpi .slt : (⟨S600000, .i32⟩ : BufTy).Contents (Elt F) → (⟨S600000, .i32⟩ : BufTy).Contents (Elt F) → (⟨S600000, .i1⟩ : BufTy).Contents (Elt F)),
    StableHlo.nullary main_c_17 (constantI S_ 32 50000#32),
    StableHlo.unary main_c_17 main_v85 (broadcastInDim S600000 ![] bcast_S_S600000 : (⟨S_, .i32⟩ : BufTy).Contents (Elt F) → (⟨S600000, .i32⟩ : BufTy).Contents (Elt F)),
    StableHlo.binary main_arg17 main_v85 main_v86 (addi : (⟨S600000, .i32⟩ : BufTy).Contents (Elt F) → (⟨S600000, .i32⟩ : BufTy).Contents (Elt F) → (⟨S600000, .i32⟩ : BufTy).Contents (Elt F)),
    StableHlo.ternary main_v84 main_v86 main_arg17 main_v87 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v87 main_v88 (broadcastInDim S600000x1 ![0] bcast_S600000_S600000x1_0 : (⟨S600000, .i32⟩ : BufTy).Contents (Elt F) → (⟨S600000x1, .i32⟩ : BufTy).Contents (Elt F)),
    StableHlo.binary main_v80 main_v88 main_v89 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_18 (constantI S_ 32 0#32),
    StableHlo.unary main_c_18 main_v90 (broadcastInDim S600000 ![] bcast_S_S600000 : (⟨S_, .i32⟩ : BufTy).Contents (Elt F) → (⟨S600000, .i32⟩ : BufTy).Contents (Elt F)),
    StableHlo.binary main_arg16 main_v90 main_v91 (cmpi .slt : (⟨S600000, .i32⟩ : BufTy).Contents (Elt F) → (⟨S600000, .i32⟩ : BufTy).Contents (Elt F) → (⟨S600000, .i1⟩ : BufTy).Contents (Elt F)),
    StableHlo.nullary main_c_19 (constantI S_ 32 50000#32),
    StableHlo.unary main_c_19 main_v92 (broadcastInDim S600000 ![] bcast_S_S600000 : (⟨S_, .i32⟩ : BufTy).Contents (Elt F) → (⟨S600000, .i32⟩ : BufTy).Contents (Elt F)),
    StableHlo.binary main_arg16 main_v92 main_v93 (addi : (⟨S600000, .i32⟩ : BufTy).Contents (Elt F) → (⟨S600000, .i32⟩ : BufTy).Contents (Elt F) → (⟨S600000, .i32⟩ : BufTy).Contents (Elt F)),
    StableHlo.ternary main_v91 main_v93 main_arg16 main_v94 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v94 main_v95 (broadcastInDim S600000x1 ![0] bcast_S600000_S600000x1_0 : (⟨S600000, .i32⟩ : BufTy).Contents (Elt F) → (⟨S600000x1, .i32⟩ : BufTy).Contents (Elt F)),
    StableHlo.binary main_v82 main_v95 main_v96 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v89 main_v96 main_v97 (addf : (⟨S600000x128, .f32⟩ : BufTy).Contents (Elt F) → (⟨S600000x128, .f32⟩ : BufTy).Contents (Elt F) → (⟨S600000x128, .f32⟩ : BufTy).Contents (Elt F)) ]

/-- Layer 2: the gate, the message and its scatter-sum. -/
abbrev opsEdge2b : List (HloOp τ sig (Elt F)) :=
  [ StableHlo.unary main_arg10 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S600000x128 ![0, 1] bcast_S1x128_S600000x128_0_1 : (⟨S1x128, .f32⟩ : BufTy).Contents (Elt F) → (⟨S600000x128, .f32⟩ : BufTy).Contents (Elt F)),
    StableHlo.binary main_v97 main_v99 main_v100 (addf : (⟨S600000x128, .f32⟩ : BufTy).Contents (Elt F) → (⟨S600000x128, .f32⟩ : BufTy).Contents (Elt F) → (⟨S600000x128, .f32⟩ : BufTy).Contents (Elt F)),
    StableHlo.unary main_v100 main_v101 (Host.negf : (⟨S600000x128, .f32⟩ : BufTy).Contents (Elt F) → (⟨S600000x128, .f32⟩ : BufTy).Contents (Elt F)),
    StableHlo.unary main_v101 main_v102 (Host.exp : (⟨S600000x128, .f32⟩ : BufTy).Contents (Elt F) → (⟨S600000x128, .f32⟩ : BufTy).Contents (Elt F)),
    StableHlo.nullary main_cst_20 (constant S_ .f32 0x3F800000#32),
    StableHlo.unary main_cst_20 main_v103 (broadcastInDim S600000x128 ![] bcast_S_S600000x128 : (⟨S_, .f32⟩ : BufTy).Contents (Elt F) → (⟨S600000x128, .f32⟩ : BufTy).Contents (Elt F)),
    StableHlo.binary main_v103 main_v102 main_v104 (addf : (⟨S600000x128, .f32⟩ : BufTy).Contents (Elt F) → (⟨S600000x128, .f32⟩ : BufTy).Contents (Elt F) → (⟨S600000x128, .f32⟩ : BufTy).Contents (Elt F)),
    StableHlo.nullary main_cst_21 (constant S_ .f32 0x3F800000#32),
    StableHlo.unary main_cst_21 main_v105 (broadcastInDim S600000x128 ![] bcast_S_S600000x128 : (⟨S_, .f32⟩ : BufTy).Contents (Elt F) → (⟨S600000x128, .f32⟩ : BufTy).Contents (Elt F)),
    StableHlo.binary main_v105 main_v104 main_v106 (Host.divf : (⟨S600000x128, .f32⟩ : BufTy).Contents (Elt F) → (⟨S600000x128, .f32⟩ : BufTy).Contents (Elt F) → (⟨S600000x128, .f32⟩ : BufTy).Contents (Elt F)),
    StableHlo.nullary main_c_22 (constantI S_ 32 0#32),
    StableHlo.unary main_c_22 main_v107 (broadcastInDim S600000 ![] bcast_S_S600000 : (⟨S_, .i32⟩ : BufTy).Contents (Elt F) → (⟨S600000, .i32⟩ : BufTy).Contents (Elt F)),
    StableHlo.binary main_arg16 main_v107 main_v108 (cmpi .slt : (⟨S600000, .i32⟩ : BufTy).Contents (Elt F) → (⟨S600000, .i32⟩ : BufTy).Contents (Elt F) → (⟨S600000, .i1⟩ : BufTy).Contents (Elt F)),
    StableHlo.nullary main_c_23 (constantI S_ 32 50000#32),
    StableHlo.unary main_c_23 main_v109 (broadcastInDim S600000 ![] bcast_S_S600000 : (⟨S_, .i32⟩ : BufTy).Contents (Elt F) → (⟨S600000, .i32⟩ : BufTy).Contents (Elt F)),
    StableHlo.binary main_arg16 main_v109 main_v110 (addi : (⟨S600000, .i32⟩ : BufTy).Contents (Elt F) → (⟨S600000, .i32⟩ : BufTy).Contents (Elt F) → (⟨S600000, .i32⟩ : BufTy).Contents (Elt F)),
    StableHlo.ternary main_v108 main_v110 main_arg16 main_v111 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v111 main_v112 (broadcastInDim S600000x1 ![0] bcast_S600000_S600000x1_0 : (⟨S600000, .i32⟩ : BufTy).Contents (Elt F) → (⟨S600000x1, .i32⟩ : BufTy).Contents (Elt F)),
    StableHlo.binary main_v78 main_v112 main_v113 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v106 main_v113 main_v114 (mulf : (⟨S600000x128, .f32⟩ : BufTy).Contents (Elt F) → (⟨S600000x128, .f32⟩ : BufTy).Contents (Elt F) → (⟨S600000x128, .f32⟩ : BufTy).Contents (Elt F)),
    StableHlo.nullary main_cst_24 (constant S_ .f32 0x00000000#32),
    StableHlo.unary main_cst_24 main_v115 (broadcastInDim S50000x128 ![] bcast_S_S50000x128 : (⟨S_, .f32⟩ : BufTy).Contents (Elt F) → (⟨S50000x128, .f32⟩ : BufTy).Contents (Elt F)),
    StableHlo.unary main_arg17 main_v116 (broadcastInDim S600000x1 ![0] bcast_S600000_S600000x1_0 : (⟨S600000, .i32⟩ : BufTy).Contents (Elt F) → (⟨S600000x1, .i32⟩ : BufTy).Contents (Elt F)),
    StableHlo.ternary main_v115 main_v116 main_v114 main_v117 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- Layer 2: the bias added and the rows divided by the normaliser. -/
abbrev opsPre2 : List (HloOp τ sig (Elt F)) :=
  [ StableHlo.unary main_arg9 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.unary main_v6 main_v121 (broadcastInDim S50000x128 ![0, 1] bcast_S50000x1_S50000x128_0_1 : (⟨S50000x1, .f32⟩ : BufTy).Contents (Elt F) → (⟨S50000x128, .f32⟩ : BufTy).Contents (Elt F)),
    StableHlo.binary main_v120 main_v121 main_v122 (Host.divf : (⟨S50000x128, .f32⟩ : BufTy).Contents (Elt F) → (⟨S50000x128, .f32⟩ : BufTy).Contents (Elt F) → (⟨S50000x128, .f32⟩ : BufTy).Contents (Elt F)) ]

/-- Layer 2: the column mean and the column variance. -/
abbrev opsStats2 : List (HloOp τ sig (Elt F)) :=
  [ StableHlo.nullary main_cst_25 (constant S_ .f32 0x00000000#32),
    StableHlo.binary main_v122 main_cst_25 main_v123 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_26 (constant S_ .f32 0x47435000#32),
    StableHlo.unary main_cst_26 main_v124 (broadcastInDim S128 ![] bcast_S_S128 : (⟨S_, .f32⟩ : BufTy).Contents (Elt F) → (⟨S128, .f32⟩ : BufTy).Contents (Elt F)),
    StableHlo.binary main_v123 main_v124 main_v125 (Host.divf : (⟨S128, .f32⟩ : BufTy).Contents (Elt F) → (⟨S128, .f32⟩ : BufTy).Contents (Elt F) → (⟨S128, .f32⟩ : BufTy).Contents (Elt F)),
    StableHlo.nullary main_c_27 (constantI S_ 32 0#32),
    StableHlo.TRef.nullary main_call2.cst (constant S_ .f32 0x00000000#32),
    StableHlo.TRef.binary (.of main_v122) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v122) main_call2.v4 main_call2.v5 subf,
    StableHlo.TRef.binary main_call2.v5 main_call2.v5 main_call2.v6 mulf,
    StableHlo.TRef.unary (.of main_c_27) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Layer 2: the batch-norm affine map. -/
abbrev opsBn2 : List (HloOp τ sig (Elt F)) :=
  [ StableHlo.unary main_v125 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v122 main_v128 main_v129 (subf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x3727C5AC#32),
    StableHlo.unary main_cst_28 main_v130 (broadcastInDim S128 ![] bcast_S_S128 : (⟨S_, .f32⟩ : BufTy).Contents (Elt F) → (⟨S128, .f32⟩ : BufTy).Contents (Elt F)),
    StableHlo.binary main_v126 main_v130 main_v131 (addf : (⟨S128, .f32⟩ : BufTy).Contents (Elt F) → (⟨S128, .f32⟩ : BufTy).Contents (Elt F) → (⟨S128, .f32⟩ : BufTy).Contents (Elt F)),
    StableHlo.unary main_v131 main_v132 (Host.sqrt : (⟨S128, .f32⟩ : BufTy).Contents (Elt F) → (⟨S128, .f32⟩ : BufTy).Contents (Elt F)),
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v134 main_v135 (Host.divf : (⟨S50000x128, .f32⟩ : BufTy).Contents (Elt F) → (⟨S50000x128, .f32⟩ : BufTy).Contents (Elt F) → (⟨S50000x128, .f32⟩ : BufTy).Contents (Elt F)),
    StableHlo.unary main_arg13 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v137 main_v138 (mulf : (⟨S50000x128, .f32⟩ : BufTy).Contents (Elt F) → (⟨S50000x128, .f32⟩ : BufTy).Contents (Elt F) → (⟨S50000x128, .f32⟩ : BufTy).Contents (Elt F)),
    StableHlo.unary main_arg14 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v140 main_v141 (addf : (⟨S50000x128, .f32⟩ : BufTy).Contents (Elt F) → (⟨S50000x128, .f32⟩ : BufTy).Contents (Elt F) → (⟨S50000x128, .f32⟩ : BufTy).Contents (Elt F)) ]

/-- The residual projection of the input added; the comparison against zero. -/
abbrev opsOutA : List (HloOp τ sig (Elt F)) :=
  [ StableHlo.unary main_arg15 main_v142 ((transpose S128x128 [1, 0] · transposes_S128x128_S128x128_1_0) : (⟨S128x128, .f32⟩ : BufTy).Contents (Elt F) → (⟨S128x128, .f32⟩ : BufTy).Contents (Elt F)),
    StableHlo.binary main_arg0 main_v142 main_v143 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v141 main_v143 main_v144 (addf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x00000000#32),
    StableHlo.unary main_cst_29 main_v145 (broadcastInDim S50000x128 ![] bcast_S_S50000x128 : (⟨S_, .f32⟩ : BufTy).Contents (Elt F) → (⟨S50000x128, .f32⟩ : BufTy).Contents (Elt F)),
    StableHlo.binary main_v144 main_v145 main_v146 (cmpf .ogt : (⟨S50000x128, .f32⟩ : BufTy).Contents (Elt F) → (⟨S50000x128, .f32⟩ : BufTy).Contents (Elt F) → (⟨S50000x128, .i1⟩ : BufTy).Contents (Elt F)),
    StableHlo.nullary main_cst_30 (constant S_ .f32 0x3DCCCCCD#32) ]

/-- The scaled copy and the select of the leaky rectifier. -/
abbrev opsOutB : List (HloOp τ sig (Elt F)) :=
  [ StableHlo.unary main_cst_30 main_v147 (broadcastInDim S50000x128 ![] bcast_S_S50000x128 : (⟨S_, .f32⟩ : BufTy).Contents (Elt F) → (⟨S50000x128, .f32⟩ : BufTy).Contents (Elt F)),
    StableHlo.binary main_v147 main_v144 main_v148 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v146) (.of main_v144) (.of main_v148) main_call3.v0 select ]

theorem opsNorm_sub : (opsNorm : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub ..⟩
theorem opsNorm_fresh : (opsNorm : List (HloOp τ sig (Elt F))).Forall fun op => op.fresh = ∅ := by
  simp only [List.Forall]; repeat' constructor

theorem opsProj1_sub : (opsProj1 : List (HloOp τ sig (Elt F))).Forall fun op => op.bufs ⊆ tcRefs τ sig :=
  ⟨unary_bufs_sub .., binary_bufs_sub .., unary_bufs_sub .., binary_bufs_sub .., unary_bufs_sub .., binary_bufs_sub ..⟩
theorem opsProj1_fresh : (opsProj1 : List (HloOp τ sig (Elt F))).Forall fun op => op.fresh = ∅ := by
  simp only [List.Forall]; repeat' constructor

theorem opsEdge1_sub : (opsEdge1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub ..⟩
theorem opsEdge1_fresh : (opsEdge1 : List (HloOp τ sig (Elt F))).Forall fun op => op.fresh = ∅ := by
  simp only [List.Forall]; repeat' constructor

theorem opsPre1_sub : (opsPre1 : List (HloOp τ sig (Elt F))).Forall fun op => op.bufs ⊆ tcRefs τ sig :=
  ⟨unary_bufs_sub .., unary_bufs_sub .., binary_bufs_sub .., unary_bufs_sub .., binary_bufs_sub ..⟩
theorem opsPre1_fresh : (opsPre1 : List (HloOp τ sig (Elt F))).Forall fun op => op.fresh = ∅ := by
  simp only [List.Forall]; repeat' constructor

theorem opsStats1_sub : (opsStats1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsStats1_fresh : (opsStats1 : List (HloOp τ sig (Elt F))).Forall fun op => op.fresh = ∅ := by
  simp only [List.Forall]; repeat' constructor

theorem opsBn1_sub : (opsBn1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
theorem opsBn1_fresh : (opsBn1 : List (HloOp τ sig (Elt F))).Forall fun op => op.fresh = ∅ := by
  simp only [List.Forall]; repeat' constructor

theorem opsProj2_sub : (opsProj2 : List (HloOp τ sig (Elt F))).Forall fun op => op.bufs ⊆ tcRefs τ sig :=
  ⟨unary_bufs_sub .., binary_bufs_sub .., unary_bufs_sub .., binary_bufs_sub .., unary_bufs_sub .., binary_bufs_sub ..⟩
theorem opsProj2_fresh : (opsProj2 : List (HloOp τ sig (Elt F))).Forall fun op => op.fresh = ∅ := by
  simp only [List.Forall]; repeat' constructor

theorem opsEdge2a_sub : (opsEdge2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsEdge2a_fresh : (opsEdge2a : List (HloOp τ sig (Elt F))).Forall fun op => op.fresh = ∅ := by
  simp only [List.Forall]; repeat' constructor

theorem opsEdge2b_sub : (opsEdge2b : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub ..⟩
theorem opsEdge2b_fresh : (opsEdge2b : List (HloOp τ sig (Elt F))).Forall fun op => op.fresh = ∅ := by
  simp only [List.Forall]; repeat' constructor

theorem opsPre2_sub : (opsPre2 : List (HloOp τ sig (Elt F))).Forall fun op => op.bufs ⊆ tcRefs τ sig :=
  ⟨unary_bufs_sub .., unary_bufs_sub .., binary_bufs_sub .., unary_bufs_sub .., binary_bufs_sub ..⟩
theorem opsPre2_fresh : (opsPre2 : List (HloOp τ sig (Elt F))).Forall fun op => op.fresh = ∅ := by
  simp only [List.Forall]; repeat' constructor

theorem opsStats2_sub : (opsStats2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsStats2_fresh : (opsStats2 : List (HloOp τ sig (Elt F))).Forall fun op => op.fresh = ∅ := by
  simp only [List.Forall]; repeat' constructor

theorem opsBn2_sub : (opsBn2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsBn2_fresh : (opsBn2 : List (HloOp τ sig (Elt F))).Forall fun op => op.fresh = ∅ := by
  simp only [List.Forall]; repeat' constructor

theorem opsOutA_sub : (opsOutA : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub ..⟩
theorem opsOutA_fresh : (opsOutA : List (HloOp τ sig (Elt F))).Forall fun op => op.fresh = ∅ := by
  simp only [List.Forall]; repeat' constructor

theorem opsOutB_sub : (opsOutB : List (HloOp τ sig (Elt F))).Forall fun op => op.bufs ⊆ tcRefs τ sig :=
  ⟨unary_bufs_sub .., binary_bufs_sub .., ternary_bufs_sub ..⟩
theorem opsOutB_fresh : (opsOutB : List (HloOp τ sig (Elt F))).Forall fun op => op.fresh = ∅ := by
  simp only [List.Forall]; repeat' constructor

/-- The whole program's operations, in order. -/
abbrev ops : List (HloOp τ sig (Elt F)) :=
  opsNorm ++ (opsProj1 ++ (opsEdge1 ++ (opsPre1 ++ (opsStats1 ++ (opsBn1 ++ (opsProj2 ++ (opsEdge2a ++ (opsEdge2b ++ (opsPre2 ++ (opsStats2 ++ (opsBn2 ++ (opsOutA ++ (opsOutB)))))))))))))

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem after_append (l₁ l₂ : List (HloOp τ sig (Elt F))) (V : Valuation τ sig (Elt F)) : after (l₁ ++ l₂) V = after l₂ (after l₁ V) := by
  induction l₁ generalizing V with
  | nil => rfl
  | cons op l ih => exact ih _

/-- The operations of the program's first printed window. -/
abbrev part0Ops : List (HloOp τ sig (Elt F)) := opsNorm ++ (opsProj1 ++ (opsEdge1))
/-- The operations of the program's second printed window. -/
abbrev part1Ops : List (HloOp τ sig (Elt F)) := opsPre1 ++ (opsStats1 ++ (opsBn1 ++ (opsProj2 ++ (opsEdge2a))))
/-- The operations of the program's third printed window. -/
abbrev part2Ops : List (HloOp τ sig (Elt F)) := opsEdge2b ++ (opsPre2 ++ (opsStats2 ++ (opsBn2 ++ (opsOutA))))
/-- The operations of the program's fourth printed window. -/
abbrev part3Ops : List (HloOp τ sig (Elt F)) := opsOutB

set_option maxRecDepth 65536 in
theorem part0_eq (c : Dev nD) : main_part0 (F := F) c = seq part0Ops := rfl

set_option maxRecDepth 65536 in
theorem part1_eq (c : Dev nD) : main_part1 (F := F) c = seq part1Ops := rfl

set_option maxRecDepth 65536 in
theorem part2_eq (c : Dev nD) : main_part2 (F := F) c = seq part2Ops := rfl

set_option maxRecDepth 65536 in
theorem part3_eq (c : Dev nD) : main_part3 (F := F) c = seq part3Ops := rfl

theorem main_eq (c : Dev nD) : main (F := F) c = seq ops := by
  have e : (ops : List (HloOp τ sig (Elt F))) = part0Ops ++ (part1Ops ++ (part2Ops ++ part3Ops)) := by
    simp only [ops, part0Ops, part1Ops, part2Ops, part3Ops, List.append_assoc]
  rw [e, seq_append part0Ops, seq_append part1Ops, seq_append part2Ops, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append opsNorm_sub (forall_append opsProj1_sub (forall_append opsEdge1_sub (forall_append opsPre1_sub (forall_append opsStats1_sub (forall_append opsBn1_sub (forall_append opsProj2_sub (forall_append opsEdge2a_sub (forall_append opsEdge2b_sub (forall_append opsPre2_sub (forall_append opsStats2_sub (forall_append opsBn2_sub (forall_append opsOutA_sub (opsOutB_sub)))))))))))))

theorem ops_fresh : (ops : List (HloOp τ sig (Elt F))).Forall fun op => op.fresh = ∅ :=
  forall_append opsNorm_fresh (forall_append opsProj1_fresh (forall_append opsEdge1_fresh (forall_append opsPre1_fresh (forall_append opsStats1_fresh (forall_append opsBn1_fresh (forall_append opsProj2_fresh (forall_append opsEdge2a_fresh (forall_append opsEdge2b_fresh (forall_append opsPre2_fresh (forall_append opsStats2_fresh (forall_append opsBn2_fresh (forall_append opsOutA_fresh (opsOutB_fresh)))))))))))))

/-- From any memory with zero counters every weakly fair execution of the reference terminates, and each buffer ends
    at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.HostRun

end
-- ==== Proof.RefValue.lean ====
/-
  What the idealized reference computes, as one function of its argument arrays, composed of its stages:
  the in-degree normaliser n = max(deg, 1); a layer's aggregate  agg = Σ_{edges into a node} σ(Vi·h[end] + Vj·h[start] + bv) ⊙ U·h[start];
  the pre-activation (agg + bu) / n; its column mean and variance; the batch-norm affine map; the leaky
  rectifier; and the residual sum. The fold of the program's operations at the result buffer is this function
  of the launch contents of the arguments.
-/
import proofs.«112986_j26706106647093_2_alg».proof.Proof.RefOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The normaliser column: the number of edges ending at each node, at least one. -/
def normR (ee : (⟨S600000, .i32⟩ : BufTy).Contents (Elt F)) : (⟨S50000x1, .f32⟩ : BufTy).Contents (Elt F) :=
  ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant (F := F) S_ .f32 0x00000000#32))) ((broadcastInDim S600000x1 ![0] bcast_S600000_S600000x1_0 : (⟨S600000, .i32⟩ : BufTy).Contents (Elt F) → (⟨S600000x1, .i32⟩ : BufTy).Contents (Elt F)) ee) ((broadcastInDim S600000 ![] bcast_S_S600000 : (⟨S_, .f32⟩ : BufTy).Contents (Elt F) → (⟨S600000, .f32⟩ : BufTy).Contents (Elt F)) ((constant (F := F) S_ .f32 0x3F800000#32)))) ((broadcastInDim S50000 ![] bcast_S_S50000 : (⟨S_, .f32⟩ : BufTy).Contents (Elt F) → (⟨S50000, .f32⟩ : BufTy).Contents (Elt F)) ((constant (F := F) S_ .f32 0x3F800000#32)))))

/-- A projection: the rows of `h` times the transposed weight. -/
def projR (h : (⟨S50000x128, .f32⟩ : BufTy).Contents (Elt F)) (w : (⟨S128x128, .f32⟩ : BufTy).Contents (Elt F)) : (⟨S50000x128, .f32⟩ : BufTy).Contents (Elt F) :=
  (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) h (((transpose S128x128 [1, 0] · transposes_S128x128_S128x128_1_0) : (⟨S128x128, .f32⟩ : BufTy).Contents (Elt F) → (⟨S128x128, .f32⟩ : BufTy).Contents (Elt F)) w))

/-- The aggregate: per edge the logistic gate of `vi` at the end node plus `vj` at the start node plus the bias, times `u` at the start node, summed onto the end nodes. -/
def edgeR (u : (⟨S50000x128, .f32⟩ : BufTy).Contents (Elt F)) (vi : (⟨S50000x128, .f32⟩ : BufTy).Contents (Elt F)) (vj : (⟨S50000x128, .f32⟩ : BufTy).Contents (Elt F)) (bv : (⟨S128, .f32⟩ : BufTy).Contents (Elt F)) (es : (⟨S600000, .i32⟩ : BufTy).Contents (Elt F)) (ee : (⟨S600000, .i32⟩ : BufTy).Contents (Elt F)) : (⟨S50000x128, .f32⟩ : BufTy).Contents (Elt F) :=
  (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant (F := F) S_ .f32 0x00000000#32))) ((broadcastInDim S600000x1 ![0] bcast_S600000_S600000x1_0 : (⟨S600000, .i32⟩ : BufTy).Contents (Elt F) → (⟨S600000x1, .i32⟩ : BufTy).Contents (Elt F)) ee) ((mulf : (⟨S600000x128, .f32⟩ : BufTy).Contents (Elt F) → (⟨S600000x128, .f32⟩ : BufTy).Contents (Elt F) → (⟨S600000x128, .f32⟩ : BufTy).Contents (Elt F)) ((Host.divf : (⟨S600000x128, .f32⟩ : BufTy).Contents (Elt F) → (⟨S600000x128, .f32⟩ : BufTy).Contents (Elt F) → (⟨S600000x128, .f32⟩ : BufTy).Contents (Elt F)) ((broadcastInDim S600000x128 ![] bcast_S_S600000x128 : (⟨S_, .f32⟩ : BufTy).Contents (Elt F) → (⟨S600000x128, .f32⟩ : BufTy).Contents (Elt F)) ((constant (F := F) S_ .f32 0x3F800000#32))) ((addf : (⟨S600000x128, .f32⟩ : BufTy).Contents (Elt F) → (⟨S600000x128, .f32⟩ : BufTy).Contents (Elt F) → (⟨S600000x128, .f32⟩ : BufTy).Contents (Elt F)) ((broadcastInDim S600000x128 ![] bcast_S_S600000x128 : (⟨S_, .f32⟩ : BufTy).Contents (Elt F) → (⟨S600000x128, .f32⟩ : BufTy).Contents (Elt F)) ((constant (F := F) S_ .f32 0x3F800000#32))) ((Host.exp : (⟨S600000x128, .f32⟩ : BufTy).Contents (Elt F) → (⟨S600000x128, .f32⟩ : BufTy).Contents (Elt F)) ((Host.negf : (⟨S600000x128, .f32⟩ : BufTy).Contents (Elt F) → (⟨S600000x128, .f32⟩ : BufTy).Contents (Elt F)) ((addf : (⟨S600000x128, .f32⟩ : BufTy).Contents (Elt F) → (⟨S600000x128, .f32⟩ : BufTy).Contents (Elt F) → (⟨S600000x128, .f32⟩ : BufTy).Contents (Elt F)) ((addf : (⟨S600000x128, .f32⟩ : BufTy).Contents (Elt F) → (⟨S600000x128, .f32⟩ : BufTy).Contents (Elt F) → (⟨S600000x128, .f32⟩ : BufTy).Contents (Elt F)) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) vi ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) ee ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) ee ((broadcastInDim S600000 ![] bcast_S_S600000 : (⟨S_, .i32⟩ : BufTy).Contents (Elt F) → (⟨S600000, .i32⟩ : BufTy).Contents (Elt F)) ((constantI S_ 32 50000#32)))) ee))) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) vj ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) es ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) es ((broadcastInDim S600000 ![] bcast_S_S600000 : (⟨S_, .i32⟩ : BufTy).Contents (Elt F) → (⟨S600000, .i32⟩ : BufTy).Contents (Elt F)) ((constantI S_ 32 50000#32)))) es)))) ((broadcastInDim S600000x128 ![0, 1] bcast_S1x128_S600000x128_0_1 : (⟨S1x128, .f32⟩ : BufTy).Contents (Elt F) → (⟨S600000x128, .f32⟩ : BufTy).Contents (Elt F)) ((broadcastInDim S1x128 ![1] bcast_S128_S1x128_1 : (⟨S128, .f32⟩ : BufTy).Contents (Elt F) → (⟨S1x128, .f32⟩ : BufTy).Contents (Elt F)) bv))))))) (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) u ((broadcastInDim S600000x1 ![0] bcast_S600000_S600000x1_0 : (⟨S600000, .i32⟩ : BufTy).Contents (Elt F) → (⟨S600000x1, .i32⟩ : BufTy).Contents (Elt F)) ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ((cmpi .slt : (⟨S600000, .i32⟩ : BufTy).Contents (Elt F) → (⟨S600000, .i32⟩ : BufTy).Contents (Elt F) → (⟨S600000, .i1⟩ : BufTy).Contents (Elt F)) es ((broadcastInDim S600000 ![] bcast_S_S600000 : (⟨S_, .i32⟩ : BufTy).Contents (Elt F) → (⟨S600000, .i32⟩ : BufTy).Contents (Elt F)) ((constantI S_ 32 0#32)))) ((addi : (⟨S600000, .i32⟩ : BufTy).Contents (Elt F) → (⟨S600000, .i32⟩ : BufTy).Contents (Elt F) → (⟨S600000, .i32⟩ : BufTy).Contents (Elt F)) es ((broadcastInDim S600000 ![] bcast_S_S600000 : (⟨S_, .i32⟩ : BufTy).Contents (Elt F) → (⟨S600000, .i32⟩ : BufTy).Contents (Elt F)) ((constantI S_ 32 50000#32)))) es)))))

/-- The pre-activation: the bias added, each row divided by the node's normaliser. -/
def preR (g : (⟨S50000x128, .f32⟩ : BufTy).Contents (Elt F)) (bu : (⟨S128, .f32⟩ : BufTy).Contents (Elt F)) (n : (⟨S50000x1, .f32⟩ : BufTy).Contents (Elt F)) : (⟨S50000x128, .f32⟩ : BufTy).Contents (Elt F) :=
  ((Host.divf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) g ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) bu))) ((broadcastInDim S50000x128 ![0, 1] bcast_S50000x1_S50000x128_0_1 : (⟨S50000x1, .f32⟩ : BufTy).Contents (Elt F) → (⟨S50000x128, .f32⟩ : BufTy).Contents (Elt F)) n))

/-- The column mean. -/
def meanR (h : (⟨S50000x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) h ((constant (F := F) S_ .f32 0x00000000#32))) ((broadcastInDim S128 ![] bcast_S_S128 : (⟨S_, .f32⟩ : BufTy).Contents (Elt F) → (⟨S128, .f32⟩ : BufTy).Contents (Elt F)) ((constant (F := F) S_ .f32 0x47435000#32))))

/-- The column variance (the mean of the squared deviations from the column mean). -/
def varR (h : (⟨S50000x128, .f32⟩ : BufTy).Contents (Elt F)) : (⟨S128, .f32⟩ : BufTy).Contents (Elt F) :=
  ((fun p a b => select (broadcastInDim S128 ![] bcast_S_S128 p) a b) ((cmpf .ogt) (subf ((constant (F := F) S_ .f32 0x47435000#32)) ((sitofp .f32) ((constantI S_ 32 0#32)))) ((constant (F := F) S_ .f32 0x00000000#32))) (Host.divf ((fun x v => Host.reduceAdd x v reducesTo_S50000x128_S128_d0 h_S_) (mulf (subf h ((broadcastInDim S50000x128 ![0, 1] bcast_S1x128_S50000x128_0_1) (Host.divf ((broadcastInDim S1x128 ![1] bcast_S128_S1x128_1) ((fun x v => Host.reduceAdd x v reducesTo_S50000x128_S128_d0 h_S_) h ((constant (F := F) S_ .f32 0x00000000#32)))) ((broadcastInDim S1x128 ![] bcast_S_S1x128) ((constant (F := F) S_ .f32 0x47435000#32)))))) (subf h ((broadcastInDim S50000x128 ![0, 1] bcast_S1x128_S50000x128_0_1) (Host.divf ((broadcastInDim S1x128 ![1] bcast_S128_S1x128_1) ((fun x v => Host.reduceAdd x v reducesTo_S50000x128_S128_d0 h_S_) h ((constant (F := F) S_ .f32 0x00000000#32)))) ((broadcastInDim S1x128 ![] bcast_S_S1x128) ((constant (F := F) S_ .f32 0x47435000#32))))))) ((constant (F := F) S_ .f32 0x00000000#32))) ((broadcastInDim S128 ![] bcast_S_S128) (subf ((constant (F := F) S_ .f32 0x47435000#32)) ((sitofp .f32) ((constantI S_ 32 0#32)))))) ((broadcastInDim S128 ![] bcast_S_S128) (id ((constant (F := F) S_ .f32 0x7FC00000#32)))))

/-- The batch-norm affine map: centred, divided by the root of the variance plus epsilon, scaled and shifted. -/
def bnR (h : (⟨S50000x128, .f32⟩ : BufTy).Contents (Elt F)) (mu : (⟨S128, .f32⟩ : BufTy).Contents (Elt F)) (va : (⟨S128, .f32⟩ : BufTy).Contents (Elt F)) (ga : (⟨S128, .f32⟩ : BufTy).Contents (Elt F)) (be : (⟨S128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((Host.divf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) h ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) mu))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.sqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) va ((broadcastInDim S128 ![] bcast_S_S128 : (⟨S_, .f32⟩ : BufTy).Contents (Elt F) → (⟨S128, .f32⟩ : BufTy).Contents (Elt F)) ((constant (F := F) S_ .f32 0x3727C5AC#32)))))))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ga))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) be)))

/-- The leaky rectifier: `x` where positive, a tenth of it elsewhere. -/
def leakyR (x : (⟨S50000x128, .f32⟩ : BufTy).Contents (Elt F)) : (⟨S50000x128, .f32⟩ : BufTy).Contents (Elt F) :=
  (select ((cmpf .ogt : (⟨S50000x128, .f32⟩ : BufTy).Contents (Elt F) → (⟨S50000x128, .f32⟩ : BufTy).Contents (Elt F) → (⟨S50000x128, .i1⟩ : BufTy).Contents (Elt F)) x ((broadcastInDim S50000x128 ![] bcast_S_S50000x128 : (⟨S_, .f32⟩ : BufTy).Contents (Elt F) → (⟨S50000x128, .f32⟩ : BufTy).Contents (Elt F)) ((constant (F := F) S_ .f32 0x00000000#32)))) x ((mulf : (⟨S50000x128, .f32⟩ : BufTy).Contents (Elt F) → (⟨S50000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant (F := F) S_ .f32 0x3DCCCCCD#32))) x))

/-- A layer before its rectifier: the batch-norm of the pre-activation of the aggregate of the three projections. -/
def layerR (h : (⟨S50000x128, .f32⟩ : BufTy).Contents (Elt F)) (u vi vj : (⟨S128x128, .f32⟩ : BufTy).Contents (Elt F)) (bu bv ga be : (⟨S128, .f32⟩ : BufTy).Contents (Elt F)) (es ee : (⟨S600000, .i32⟩ : BufTy).Contents (Elt F)) : (⟨S50000x128, .f32⟩ : BufTy).Contents (Elt F) :=
  bnR (preR (edgeR (projR h u) (projR h vi) (projR h vj) bv es ee) bu (normR ee))
    (meanR (preR (edgeR (projR h u) (projR h vi) (projR h vj) bv es ee) bu (normR ee)))
    (varR (preR (edgeR (projR h u) (projR h vi) (projR h vj) bv es ee) bu (normR ee))) ga be

/-- The whole reference: two layers, the first rectified, then the residual projection of the input added and rectified. -/
def refOut (x : (⟨S50000x128, .f32⟩ : BufTy).Contents (Elt F)) (u1 vi1 vj1 : (⟨S128x128, .f32⟩ : BufTy).Contents (Elt F)) (bu1 bv1 : (⟨S128, .f32⟩ : BufTy).Contents (Elt F)) (u2 vi2 vj2 : (⟨S128x128, .f32⟩ : BufTy).Contents (Elt F)) (bu2 bv2 ga1 be1 ga2 be2 : (⟨S128, .f32⟩ : BufTy).Contents (Elt F)) (r : (⟨S128x128, .f32⟩ : BufTy).Contents (Elt F)) (es ee : (⟨S600000, .i32⟩ : BufTy).Contents (Elt F)) : (⟨S50000x128, .f32⟩ : BufTy).Contents (Elt F) :=
  leakyR (addf (layerR (leakyR (layerR x u1 vi1 vj1 bu1 bv1 ga1 be1 es ee)) u2 vi2 vj2 bu2 bv2 ga2 be2 es ee) (projR x r))

set_option maxRecDepth 65536 in
set_option maxHeartbeats 4000000 in
/-- The fold of the program's operations, read at the result buffer, is that function of the arguments' contents. -/
theorem result_eq (V : Valuation τ sig (Elt F)) :
    after ops V (Proc.devRef .tc main_v149) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  simp only [ops, after_append]
  dsimp only [opsNorm, opsProj1, opsEdge1, opsPre1, opsStats1, opsBn1, opsProj2, opsEdge2a, opsEdge2b, opsPre2, opsStats2, opsBn2, opsOutA, opsOutB]
  after_results_simp
  rfl

end Cert.ReferenceIdeal.HostRun

end
-- ==== Proof.RefPoint.lean ====
/-
  The reference's stages read at one index, at the ideal values: a projection's entry is the sum over the
  feature index of the row's entries times the weight row's; the pre-activation's entry is the aggregate's plus the
  bias, divided by the node's normaliser; the batch-norm's entry is the centred entry over the root of the variance
  plus epsilon, times the scale, plus the shift; the rectifier's entry is the entry where positive and a tenth of it
  elsewhere. Also the layout facts these readings use: a row laid down the rows, a column laid along the columns,
  a vector as the one row of a one-row array.
-/
import proofs.«112986_j26706106647093_2_alg».proof.Proof.RefValue
import Idealize.ShloMosaic.Lib.ValueIdx
import Idealize.ShloMosaic.Lib.Pipeline.Value
import Idealize.ShloMosaic.Lib.IdealHost
import Idealize.ShloMosaic.Lib.KernelVsHost
import Idealize.ShloMosaic.Lib.StackMember

noncomputable section

namespace Cert.Layout

open Idealize.ShloMosaic Idealize.ShloMosaic.ValueIdx

variable {α : Type}

/-- A vector laid as the one row of a one-row array, read at (0, t), is the vector's entry t. -/
theorem bcast_vec_row {n : Nat} (h : (⟨1, ![n]⟩ : Shape).BroadcastsInDim ⟨2, ![1, n]⟩ ![1])
    (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) ?_
  intro a
  fin_cases a
  show t.val = if n = 1 then 0 else t.val
  split_ifs with hn
  · have := t.isLt; omega
  · rfl

/-- A column laid along the columns, read at (r, t), is the column's entry r. -/
theorem bcast_col {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  fin_cases a
  · show r.val = if m = 1 then 0 else r.val
    split_ifs with hm
    · have := r.isLt; omega
    · rfl
  · show (0 : ℕ) = if (1 : ℕ) = 1 then 0 else _
    simp

/-- A square matrix transposed, read at (a, b), is the matrix at (b, a). -/
theorem transpose_sq {n : Nat} (h : (⟨2, ![n, n]⟩ : Shape).Transposes [1, 0] ⟨2, ![n, n]⟩)
    (x : (⟨2, ![n, n]⟩ : Shape).Idx → α) (a b : Fin n) :
    transpose ⟨2, ![n, n]⟩ [1, 0] x h (ix2 a b) = x (ix2 b a) := by
  refine transpose_apply [1, 0] x h (ix2 a b) (ix2 b a) ?_
  intro c
  fin_cases c <;> rfl

end Cert.Layout

namespace Cert.ReferenceIdeal.HostRun

open Cert.ReferenceIdeal Idealize.ShloMosaic Idealize.ShloMosaic.ValueIdx Cert.Layout

/-- A projection's entry: the sum over the feature index of the row's entries times the weight row's. -/
theorem projR_apply (h : (⟨S50000x128, .f32⟩ : BufTy).Contents (Elt Ideal)) (w : (⟨S128x128, .f32⟩ : BufTy).Contents (Elt Ideal)) (i : Fin 50000) (j : Fin 128) :
    projR (F := Ideal) h w (ix2 i j) = ∑ k : Fin 128, h (ix2 i k) * w (ix2 j k) := by
  unfold projR
  refine (StackMember.dotGeneral_plain_apply (m := 50000) (n := 128) (k := 128) none h _ i j).trans ?_
  refine Finset.sum_congr rfl fun k _ => ?_
  exact congrArg (h (ix2 i k) * ·) (transpose_sq _ w k j)

/-- The pre-activation's entry: the aggregate's plus the bias, over the node's normaliser. -/
theorem preR_apply (g : (⟨S50000x128, .f32⟩ : BufTy).Contents (Elt Ideal)) (bu : (⟨S128, .f32⟩ : BufTy).Contents (Elt Ideal)) (n : (⟨S50000x1, .f32⟩ : BufTy).Contents (Elt Ideal)) (i : Fin 50000) (j : Fin 128) :
    preR (F := Ideal) g bu n (ix2 i j) = Ideal.div (g (ix2 i j) + bu (ix1 j)) (n (ix2 i (0 : Fin 1))) := by
  unfold preR
  show Ideal.div (g (ix2 i j) + broadcastInDim S50000x128 ![0, 1] _ (broadcastInDim S1x128 ![1] _ bu) (ix2 i j))
      (broadcastInDim S50000x128 ![0, 1] _ n (ix2 i j)) = _
  rw [broadcastInDim_oneRow_apply, bcast_vec_row, bcast_col]

/-- The batch-norm's entry: centred, over the root of the variance plus epsilon, scaled and shifted. -/
theorem bnR_apply (h : (⟨S50000x128, .f32⟩ : BufTy).Contents (Elt Ideal)) (mu va ga be : (⟨S128, .f32⟩ : BufTy).Contents (Elt Ideal)) (i : Fin 50000) (j : Fin 128) :
    bnR (F := Ideal) h mu va ga be (ix2 i j)
      = Ideal.div (h (ix2 i j) - mu (ix1 j)) (Ideal.sqrt (va (ix1 j) + Ideal.ofBits .f32 0x3727C5AC#32)) * ga (ix1 j) + be (ix1 j) := by
  unfold bnR
  show Ideal.div (h (ix2 i j) - broadcastInDim S50000x128 ![0, 1] _ (broadcastInDim S1x128 ![1] _ mu) (ix2 i j))
        (broadcastInDim S50000x128 ![0, 1] _ (broadcastInDim S1x128 ![1] _
          (Host.sqrt (addf va (broadcastInDim S128 ![] _ (constant (F := Ideal) S_ .f32 0x3727C5AC#32))))) (ix2 i j))
      * broadcastInDim S50000x128 ![0, 1] _ (broadcastInDim S1x128 ![1] _ ga) (ix2 i j)
      + broadcastInDim S50000x128 ![0, 1] _ (broadcastInDim S1x128 ![1] _ be) (ix2 i j) = _
  rw [broadcastInDim_oneRow_apply, bcast_vec_row, broadcastInDim_oneRow_apply, bcast_vec_row,
    broadcastInDim_oneRow_apply, bcast_vec_row, broadcastInDim_oneRow_apply, bcast_vec_row]
  show Ideal.div _ (Ideal.sqrt (va (ix1 j) + broadcastInDim S128 ![] _ (constant (F := Ideal) S_ .f32 0x3727C5AC#32) (ix1 j))) * _ + _ = _
  rw [broadcastInDim_scalar_apply]
  rfl

/-- The rectifier's entry: the entry where it is positive, a tenth of it elsewhere. -/
theorem leakyR_apply (x : (⟨S50000x128, .f32⟩ : BufTy).Contents (Elt Ideal)) (i : S50000x128.Idx) :
    leakyR (F := Ideal) x i
      = Scalar.select (FloatOps.cmpf .ogt (x i) (Ideal.ofBits .f32 0x00000000#32)) (x i) (Ideal.ofBits .f32 0x3DCCCCCD#32 * x i) := by
  unfold leakyR
  show Scalar.select (FloatOps.cmpf .ogt (x i) (broadcastInDim S50000x128 ![] _ (constant (F := Ideal) S_ .f32 0x00000000#32) i)) (x i)
      (broadcastInDim S50000x128 ![] _ (constant (F := Ideal) S_ .f32 0x3DCCCCCD#32) i * x i) = _
  rw [broadcastInDim_scalar_apply, broadcastInDim_scalar_apply]
  rfl

end Cert.ReferenceIdeal.HostRun

end
-- ==== Proof.Cross.lean ====
/-
  The kernel program's host stages against the reference's, at the ideal values, for the same arrays: the
  normaliser columns are one function; the aggregates are one function (widening a stored array changes no value);
  the kernel's one-row bias laid down the rows is the reference's vector laid along them, so the two
  pre-activations are one array; and the kernel's one-row mean and variance hold, at column t, the reference's
  mean and variance at t (both are the same sums over the same column, divided by the same counts).
-/
import proofs.«112986_j26706106647093_2_alg».proof.Proof.KerStages
import proofs.«112986_j26706106647093_2_alg».proof.Proof.RefPoint

noncomputable section

namespace Cert.Cross

open Idealize.ShloMosaic Idealize.ShloMosaic.ValueIdx Cert.Layout
open Cert.KernelIdeal.HostVal Cert.ReferenceIdeal.HostRun

/-- The normaliser column is computed by the same operations on both sides. -/
theorem normK_eq (ee : (⟨Cert.KernelIdeal.S600000, .i32⟩ : BufTy).Contents (Elt Ideal)) : normK (F := Ideal) ee = normR (F := Ideal) ee := rfl

/-- A transposed weight read at (a, b) is the weight at (b, a). -/
theorem trK_apply (w : (⟨Cert.KernelIdeal.S128x128, .f32⟩ : BufTy).Contents (Elt Ideal)) (a b : Fin 128) : trK (F := Ideal) w (ix2 a b) = w (ix2 b a) := by
  unfold trK
  exact transpose_sq _ w a b

/-- A vector as a one-row array, read at (0, t), is the vector's entry t. -/
theorem rowK_apply (v : (⟨Cert.KernelIdeal.S128, .f32⟩ : BufTy).Contents (Elt Ideal)) (t : Fin 128) : rowK (F := Ideal) v (ix2 (0 : Fin 1) t) = v (ix1 t) := by
  unfold rowK
  exact shapeCast_apply v _ (ix2 (0 : Fin 1) t) (ix1 t) (by
    rw [Shape.rowMajor_val_two, Shape.rowMajor_val_one]; show t.val = 0 * 128 + t.val; omega)

set_option maxHeartbeats 1000000 in
/-- The aggregates are one function of the three projected arrays, the bias and the edge lists: the kernel's program
    only widens the stored arrays first, which changes no value. -/
theorem edgeK_eq (u vi vj : (⟨Cert.KernelIdeal.S50000x128, .bf16⟩ : BufTy).Contents (Elt Ideal)) (bv : (⟨Cert.KernelIdeal.S128, .f32⟩ : BufTy).Contents (Elt Ideal)) (es ee : (⟨Cert.KernelIdeal.S600000, .i32⟩ : BufTy).Contents (Elt Ideal)) :
    edgeK (F := Ideal) u vi vj bv es ee = edgeR (F := Ideal) u vi vj bv es ee := rfl

/-- The pre-activations are one array: the one-row bias laid down the rows is the vector laid along them. -/
theorem hxK_eq (g : (⟨Cert.KernelIdeal.S50000x128, .f32⟩ : BufTy).Contents (Elt Ideal)) (bu : (⟨Cert.KernelIdeal.S128, .f32⟩ : BufTy).Contents (Elt Ideal)) (n : (⟨Cert.KernelIdeal.S50000x1, .f32⟩ : BufTy).Contents (Elt Ideal)) :
    hxK (F := Ideal) g (rowK (F := Ideal) bu) n = preR (F := Ideal) g bu n := by
  funext idx
  obtain ⟨i, j, rfl⟩ : ∃ (i : Fin 50000) (j : Fin 128), idx = ix2 i j := ⟨idx 0, idx 1, eq_ix2 idx⟩
  rw [preR_apply]
  unfold hxK
  show Ideal.div (g (ix2 i j) + broadcastInDim Cert.KernelIdeal.S50000x128 ![0, 1] _ (rowK (F := Ideal) bu) (ix2 i j))
      (broadcastInDim Cert.KernelIdeal.S50000x128 ![0, 1] _ n (ix2 i j)) = _
  rw [broadcastInDim_oneRow_apply, rowK_apply, bcast_col]

/-- A vector laid as one row over a scalar laid as one row, at column t: the vector's entry over the scalar. -/
theorem row_quot (h1 : Cert.KernelIdeal.S128.BroadcastsInDim Cert.KernelIdeal.S1x128 ![1]) (h2 : Cert.KernelIdeal.S_.BroadcastsInDim Cert.KernelIdeal.S1x128 ![])
    (r : FVec Ideal Cert.KernelIdeal.S128 .f32) (s : FVec Ideal Cert.KernelIdeal.S_ .f32) (t : Fin 128) :
    Host.divf (F := Ideal) (broadcastInDim Cert.KernelIdeal.S1x128 ![1] h1 r) (broadcastInDim Cert.KernelIdeal.S1x128 ![] h2 s) (ix2 (0 : Fin 1) t)
      = Ideal.div (r (ix1 t)) (s ix0) := by
  show Ideal.div (broadcastInDim Cert.KernelIdeal.S1x128 ![1] h1 r (ix2 (0 : Fin 1) t)) (broadcastInDim Cert.KernelIdeal.S1x128 ![] h2 s (ix2 (0 : Fin 1) t)) = _
  rw [bcast_vec_row, broadcastInDim_scalar_apply]

/-- A vector over a scalar laid along it, at entry t: the vector's entry over the scalar. -/
theorem vec_quot (h2 : Cert.ReferenceIdeal.S_.BroadcastsInDim Cert.ReferenceIdeal.S128 ![])
    (r : FVec Ideal Cert.ReferenceIdeal.S128 .f32) (s : FVec Ideal Cert.ReferenceIdeal.S_ .f32) (t : Fin 128) :
    Host.divf (F := Ideal) r (broadcastInDim Cert.ReferenceIdeal.S128 ![] h2 s) (ix1 t) = Ideal.div (r (ix1 t)) (s ix0) := by
  show Ideal.div (r (ix1 t)) (broadcastInDim Cert.ReferenceIdeal.S128 ![] h2 s (ix1 t)) = _
  rw [broadcastInDim_scalar_apply]

/-- The kernel's one-row mean at column t is the reference's mean at t. -/
theorem meanK_apply (h : (⟨Cert.KernelIdeal.S50000x128, .f32⟩ : BufTy).Contents (Elt Ideal)) (t : Fin 128) :
    meanK (F := Ideal) h (ix2 (0 : Fin 1) t) = meanR (F := Ideal) h (ix1 t) := by
  unfold meanK meanR
  exact (row_quot _ _ _ _ t).trans (vec_quot _ _ _ t).symm

/-- A select between one-row arrays under a scalar condition laid as one row, at column t. -/
theorem row_select (hp : Cert.KernelIdeal.S_.BroadcastsInDim Cert.KernelIdeal.S1x128 ![])
    (p : IVec Cert.KernelIdeal.S_ 1) (a b : FVec Ideal Cert.KernelIdeal.S1x128 .f32) (t : Fin 128) :
    select (broadcastInDim Cert.KernelIdeal.S1x128 ![] hp p) a b (ix2 (0 : Fin 1) t)
      = Scalar.select (p ix0) (a (ix2 (0 : Fin 1) t)) (b (ix2 (0 : Fin 1) t)) := by
  show Scalar.select (broadcastInDim Cert.KernelIdeal.S1x128 ![] hp p (ix2 (0 : Fin 1) t)) _ _ = _
  rw [broadcastInDim_scalar_apply]

/-- A select between vectors under a scalar condition laid along them, at entry t. -/
theorem vec_select (hp : Cert.ReferenceIdeal.S_.BroadcastsInDim Cert.ReferenceIdeal.S128 ![])
    (p : IVec Cert.ReferenceIdeal.S_ 1) (a b : FVec Ideal Cert.ReferenceIdeal.S128 .f32) (t : Fin 128) :
    select (broadcastInDim Cert.ReferenceIdeal.S128 ![] hp p) a b (ix1 t)
      = Scalar.select (p ix0) (a (ix1 t)) (b (ix1 t)) := by
  show Scalar.select (broadcastInDim Cert.ReferenceIdeal.S128 ![] hp p (ix1 t)) _ _ = _
  rw [broadcastInDim_scalar_apply]

/-- The kernel's one-row variance at column t is the reference's variance at t. -/
theorem varK_apply (h : (⟨Cert.KernelIdeal.S50000x128, .f32⟩ : BufTy).Contents (Elt Ideal)) (t : Fin 128) :
    varK (F := Ideal) h (ix2 (0 : Fin 1) t) = varR (F := Ideal) h (ix1 t) := by
  unfold varK varR
  refine (row_select _ _ _ _ t).trans ((vec_select _ _ _ _ t).trans ?_).symm
  rw [row_quot, vec_quot, broadcastInDim_scalar_apply, broadcastInDim_scalar_apply]

end Cert.Cross

end
-- ==== Proof.KerRun.lean ====
/-
  The idealized kernel's program runs to the end with its result array at what the last region's
  write-backs leave: the program is twelve segments (seven stretches of host operations, five regions),
  the buffer contents at each boundary are a fold from the launch memory, and the last boundary's
  contents are read against the final state — for the result array as for the argument arrays.
-/
import proofs.«112986_j26706106647093_2_alg».proof.Proof.Gen.KernelIdeal.Frame

noncomputable section

namespace Cert.KernelIdeal.HostRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the argument arrays as launched. -/
theorem run : θ_run defs (onTc (τ := τ) (main (F := F))) ⟨m, fun _ => 0, ρ⟩ (fun r => ∀ c : Dev nD,
      r.2.mem ((c.tc : Thread nD τ).loc main_v118) = Gen.W12 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) Gen.adm (Gen.pdats m ρ) () cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W12 m ρ c) s')
      isplitl [Hh] <;> iassumption)
    (hQ := fun s h c =>
      ⟨h c _ (Gen.mem_uc main_v118 (by decide)),
       (h c _ (Gen.mem_uc main_arg0 (by decide))).trans (Gen.W12_main_arg0 m ρ c),
       (h c _ (Gen.mem_uc main_arg1 (by decide))).trans (Gen.W12_main_arg1 m ρ c),
       (h c _ (Gen.mem_uc main_arg2 (by decide))).trans (Gen.W12_main_arg2 m ρ c),
       (h c _ (Gen.mem_uc main_arg3 (by decide))).trans (Gen.W12_main_arg3 m ρ c),
       (h c _ (Gen.mem_uc main_arg4 (by decide))).trans (Gen.W12_main_arg4 m ρ c),
       (h c _ (Gen.mem_uc main_arg5 (by decide))).trans (Gen.W12_main_arg5 m ρ c),
       (h c _ (Gen.mem_uc main_arg6 (by decide))).trans (Gen.W12_main_arg6 m ρ c),
       (h c _ (Gen.mem_uc main_arg7 (by decide))).trans (Gen.W12_main_arg7 m ρ c),
       (h c _ (Gen.mem_uc main_arg8 (by decide))).trans (Gen.W12_main_arg8 m ρ c),
       (h c _ (Gen.mem_uc main_arg9 (by decide))).trans (Gen.W12_main_arg9 m ρ c),
       (h c _ (Gen.mem_uc main_arg10 (by decide))).trans (Gen.W12_main_arg10 m ρ c),
       (h c _ (Gen.mem_uc main_arg11 (by decide))).trans (Gen.W12_main_arg11 m ρ c),
       (h c _ (Gen.mem_uc main_arg12 (by decide))).trans (Gen.W12_main_arg12 m ρ c),
       (h c _ (Gen.mem_uc main_arg13 (by decide))).trans (Gen.W12_main_arg13 m ρ c),
       (h c _ (Gen.mem_uc main_arg14 (by decide))).trans (Gen.W12_main_arg14 m ρ c),
       (h c _ (Gen.mem_uc main_arg15 (by decide))).trans (Gen.W12_main_arg15 m ρ c),
       (h c _ (Gen.mem_uc main_arg16 (by decide))).trans (Gen.W12_main_arg16 m ρ c),
       (h c _ (Gen.mem_uc main_arg17 (by decide))).trans (Gen.W12_main_arg17 m ρ c)⟩)

end Cert.KernelIdeal.HostRun

end
-- ==== Proof.ProjRegion.lean ====
import proofs.«112986_j26706106647093_2_alg».proof.Proof.Gen.KernelIdeal.Frame
import Idealize.ShloMosaic.Lib.Pipeline.Value
import Idealize.ShloMosaic.Lib.ValueIdx
import Idealize.ShloMosaic.PureOps.Ideal.Laws

/-!
# The two projection regions, as arrays

Regions 0 and 2 each multiply one 50000×128 array, a block of 5000 rows per grid point, by three 128×128 weight
arrays held whole, and write the three products back block by block. At the ideal values every format change in
the body is the identity, so each output array, after the region, is the matrix product of the region's input
array by the corresponding weight array: entry (i, j) is the sum over k of input (i, k) times weight (k, j).

The steps: the contraction read at an index; the body's payload at an index of the block; each input block as
rows of its array; what a point writes back as the point's block of the product array; every row lies in the
block of the point numbered by the row over 5000; so the array after the region is the product array.
-/

noncomputable section

open scoped BigOperators
open Idealize.ShloMosaic Idealize.ShloMosaic.TcCoe Idealize.SL.Sem
open Idealize.ShloMosaic.Pipeline (Dat)
open Idealize.ShloMosaic.ValueIdx

namespace Cert.KernelIdeal.ProjRegion

open Cert.KernelIdeal Cert.KernelIdeal.Gen

/-! ## The product, at an index -/

theorem hz : (![0, 0] : Fin 2 → Nat) = fun _ => 0 := funext fun a => by fin_cases a <;> rfl

/-- The contraction of a 5000×128 by a 128×128 matrix over the shared axis, accumulated into zero, at an index:
    the sum over the shared coordinate of the products of the entries. -/
theorem matmul_zero_apply (A : FVec Ideal S5000x128 .bf16) (B : FVec Ideal S128x128 .bf16) (p : Fin 5000) (q : Fin 128) :
    FloatOps.matmul dot_S5000x128_S128x128_S5000x128_1_0_0_1_n_n none A B (constant (F := Ideal) S5000x128 .f32 0x00000000#32) (ix2 p q)
      = ∑ k : Fin 128, A (ix2 p k) * B (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have hr : dot_S5000x128_S128x128_S5000x128_1_0_0_1_n_n.rhsIdx (ix2 p q)
      ((contrEquiv1 dot_S5000x128_S128x128_S5000x128_1_0_0_1_n_n 128 rfl rfl).symm k) = ix2 k q := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [hl, hr]

/-- The product of a 50000×128 array by a 128×128 array, index by index. -/
def projArr (a : S50000x128.Idx → EReal) (w : S128x128.Idx → EReal) : S50000x128.Idx → EReal :=
  fun i => ∑ k : Fin 128, a (ix2 (n0 := 50000) (i 0) k) * w (ix2 (n1 := 128) k (i 1))

theorem projArr_ix2 (a : S50000x128.Idx → EReal) (w : S128x128.Idx → EReal) (i : Fin 50000) (j : Fin 128) :
    projArr a w (ix2 i j) = ∑ k : Fin 128, a (ix2 i k) * w (ix2 k j) := rfl

variable (V : (c : Dev nD) → (b : Ref sig .tc) → Buf (Elt Ideal) ((c : Thread nD τ).loc b))

/-! ## Region 0 -/

/-- The seven windows of region 0 and the arrays they stage. -/
theorem arr0 : Pipeline.arrRef spec0 0 = main_arg0
    ∧ Pipeline.arrRef spec0 1 = main_v7
    ∧ Pipeline.arrRef spec0 2 = main_v8
    ∧ Pipeline.arrRef spec0 3 = main_v9
    ∧ Pipeline.arrRef spec0 4 = main_v10_0
    ∧ Pipeline.arrRef spec0 5 = main_v10_1
    ∧ Pipeline.arrRef spec0 6 = main_v10_2 :=
  ⟨rfl, rfl, rfl, rfl, rfl, rfl, rfl⟩

/-- Payload 2 of region 0's body at an index of the block: row p of the row block against column q of the weight block. -/
theorem pay0_2_apply (x : Vec Ideal S5000x128 .f32) (w : Vec Ideal S128x128 .f32) (p : Fin 5000) (q : Fin 128) :
    k0_pay2 (F := Ideal) x w (ix2 p q) = ∑ k : Fin 128, x (ix2 p k) * w (ix2 k q) := by
  unfold k0_pay2 k0_pay1
  dsimp only
  rw [truncf_apply]
  refine (matmul_zero_apply _ _ p q).trans ?_
  refine Finset.sum_congr rfl fun k _ => ?_
  rw [truncf_apply, truncf_apply, shapeCast_self]

theorem pay0_2_at (x : Vec Ideal S5000x128 .f32) (w : Vec Ideal S128x128 .f32) (y : S5000x128.Idx) :
    k0_pay2 (F := Ideal) x w y = ∑ k : Fin 128, x (ix2 (n0 := 5000) (y 0) k) * w (ix2 (n1 := 128) k (y 1)) := by
  obtain ⟨p, q, rfl⟩ : ∃ (p : Fin 5000) (q : Fin 128), y = ix2 p q := ⟨y 0, y 1, eq_ix2 y⟩
  exact pay0_2_apply x w p q

/-- When the row block's row is row r of an array and the weight block is a weight array, the payload there is the
    product array's entry at row r. -/
theorem pay0_2_block (x : Vec Ideal S5000x128 .f32) (w : Vec Ideal S128x128 .f32)
    (A : S50000x128.Idx → EReal) (W : S128x128.Idx → EReal) (y : S5000x128.Idx) (r : Fin 50000) (q : Fin 128)
    (hx : ∀ k : Fin 128, x (ix2 (n0 := 5000) (y 0) k) = A (ix2 r k))
    (hw : ∀ k : Fin 128, w (ix2 (n1 := 128) k (y 1)) = W (ix2 k q)) :
    k0_pay2 (F := Ideal) x w y = projArr A W (ix2 r q) := by
  rw [pay0_2_at, projArr_ix2]
  exact Finset.sum_congr rfl fun k _ => by rw [hx k, hw k]

/-- Payload 3 of region 0's body at an index of the block: row p of the row block against column q of the weight block. -/
theorem pay0_3_apply (x : Vec Ideal S5000x128 .f32) (w : Vec Ideal S128x128 .f32) (p : Fin 5000) (q : Fin 128) :
    k0_pay3 (F := Ideal) x w (ix2 p q) = ∑ k : Fin 128, x (ix2 p k) * w (ix2 k q) := by
  unfold k0_pay3 k0_pay1
  dsimp only
  rw [truncf_apply]
  refine (matmul_zero_apply _ _ p q).trans ?_
  refine Finset.sum_congr rfl fun k _ => ?_
  rw [truncf_apply, truncf_apply, shapeCast_self]

theorem pay0_3_at (x : Vec Ideal S5000x128 .f32) (w : Vec Ideal S128x128 .f32) (y : S5000x128.Idx) :
    k0_pay3 (F := Ideal) x w y = ∑ k : Fin 128, x (ix2 (n0 := 5000) (y 0) k) * w (ix2 (n1 := 128) k (y 1)) := by
  obtain ⟨p, q, rfl⟩ : ∃ (p : Fin 5000) (q : Fin 128), y = ix2 p q := ⟨y 0, y 1, eq_ix2 y⟩
  exact pay0_3_apply x w p q

/-- When the row block's row is row r of an array and the weight block is a weight array, the payload there is the
    product array's entry at row r. -/
theorem pay0_3_block (x : Vec Ideal S5000x128 .f32) (w : Vec Ideal S128x128 .f32)
    (A : S50000x128.Idx → EReal) (W : S128x128.Idx → EReal) (y : S5000x128.Idx) (r : Fin 50000) (q : Fin 128)
    (hx : ∀ k : Fin 128, x (ix2 (n0 := 5000) (y 0) k) = A (ix2 r k))
    (hw : ∀ k : Fin 128, w (ix2 (n1 := 128) k (y 1)) = W (ix2 k q)) :
    k0_pay3 (F := Ideal) x w y = projArr A W (ix2 r q) := by
  rw [pay0_3_at, projArr_ix2]
  exact Finset.sum_congr rfl fun k _ => by rw [hx k, hw k]

/-- Payload 4 of region 0's body at an index of the block: row p of the row block against column q of the weight block. -/
theorem pay0_4_apply (x : Vec Ideal S5000x128 .f32) (w : Vec Ideal S128x128 .f32) (p : Fin 5000) (q : Fin 128) :
    k0_pay4 (F := Ideal) x w (ix2 p q) = ∑ k : Fin 128, x (ix2 p k) * w (ix2 k q) := by
  unfold k0_pay4 k0_pay1
  dsimp only
  rw [truncf_apply]
  refine (matmul_zero_apply _ _ p q).trans ?_
  refine Finset.sum_congr rfl fun k _ => ?_
  rw [truncf_apply, truncf_apply, shapeCast_self]

theorem pay0_4_at (x : Vec Ideal S5000x128 .f32) (w : Vec Ideal S128x128 .f32) (y : S5000x128.Idx) :
    k0_pay4 (F := Ideal) x w y = ∑ k : Fin 128, x (ix2 (n0 := 5000) (y 0) k) * w (ix2 (n1 := 128) k (y 1)) := by
  obtain ⟨p, q, rfl⟩ : ∃ (p : Fin 5000) (q : Fin 128), y = ix2 p q := ⟨y 0, y 1, eq_ix2 y⟩
  exact pay0_4_apply x w p q

/-- When the row block's row is row r of an array and the weight block is a weight array, the payload there is the
    product array's entry at row r. -/
theorem pay0_4_block (x : Vec Ideal S5000x128 .f32) (w : Vec Ideal S128x128 .f32)
    (A : S50000x128.Idx → EReal) (W : S128x128.Idx → EReal) (y : S5000x128.Idx) (r : Fin 50000) (q : Fin 128)
    (hx : ∀ k : Fin 128, x (ix2 (n0 := 5000) (y 0) k) = A (ix2 r k))
    (hw : ∀ k : Fin 128, w (ix2 (n1 := 128) k (y 1)) = W (ix2 k q)) :
    k0_pay4 (F := Ideal) x w y = projArr A W (ix2 r q) := by
  rw [pay0_4_at, projArr_ix2]
  exact Finset.sum_congr rfl fun k _ => by rw [hx k, hw k]

/-- The block index maps of region 0 over the grid: a row window's block at point t is block (t, 0), a weight
    window's is block (0, 0). -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)

/-- The row block of the input array at point t: its row p is row 5000 t + p of the array. -/
theorem iblk0_0_apply (c : Dev nD) (t : Fin cfg0.N) (p : Fin 5000) (k : Fin 128) (r : Fin 50000)
    (hr : r.val = t.val * 5000 + p.val) :
    (iblk0 V c 0 t : Vec Ideal S5000x128 .f32) (ix2 p k) = (V c (Pipeline.arrRef spec0 0) : S50000x128.Idx → EReal) (ix2 r k) := by
  obtain ⟨e0, e1⟩ := idx0_0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Weight window 1's block at any point is its whole array. -/
theorem iblk0_1_apply (c : Dev nD) (t : Fin cfg0.N) (k : Fin 128) (q : Fin 128) :
    (iblk0 V c 1 t : Vec Ideal S128x128 .f32) (ix2 k q) = (V c (Pipeline.arrRef spec0 1) : S128x128.Idx → EReal) (ix2 k q) := by
  obtain ⟨e0, e1⟩ := idx0_1 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Weight window 2's block at any point is its whole array. -/
theorem iblk0_2_apply (c : Dev nD) (t : Fin cfg0.N) (k : Fin 128) (q : Fin 128) :
    (iblk0 V c 2 t : Vec Ideal S128x128 .f32) (ix2 k q) = (V c (Pipeline.arrRef spec0 2) : S128x128.Idx → EReal) (ix2 k q) := by
  obtain ⟨e0, e1⟩ := idx0_2 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Weight window 3's block at any point is its whole array. -/
theorem iblk0_3_apply (c : Dev nD) (t : Fin cfg0.N) (k : Fin 128) (q : Fin 128) :
    (iblk0 V c 3 t : Vec Ideal S128x128 .f32) (ix2 k q) = (V c (Pipeline.arrRef spec0 3) : S128x128.Idx → EReal) (ix2 k q) := by
  obtain ⟨e0, e1⟩ := idx0_3 t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- What point t writes back to output window 4 is the point's block of the product of the input array by weight array 1. -/
theorem flushed0_4_eq (c : Dev nD) (t : Fin cfg0.N) :
    (dat0 V c).flushed 4 t = ((cfg0.win 4).blk t).view.read (Elt Ideal)
      (projArr (V c (Pipeline.arrRef spec0 0)) (V c (Pipeline.arrRef spec0 1))) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  obtain ⟨e0, e1⟩ := idx0_4 t
  funext y
  have hy0 : (y 0).val < 5000 := (y 0).isLt
  have hy1 : (y 1).val < 128 := (y 1).isLt
  have ht : t.val < 10 := lt_of_lt_of_eq t.isLt N_0
  refine (pay0_2_block (iblk0 V c 0 t) (iblk0 V c 1 t) (V c (Pipeline.arrRef spec0 0)) (V c (Pipeline.arrRef spec0 1))
    ((cfg0.win 4).xinj (grid0.coords t) y) ⟨t.val * 5000 + (y 0).val, by omega⟩ ⟨(y 1).val, hy1⟩
    (fun k => iblk0_0_apply V c t ⟨(y 0).val, hy0⟩ k _ rfl) (fun k => iblk0_1_apply V c t k ⟨(y 1).val, hy1⟩)).trans ?_
  have hemb : ((cfg0.win 4).blk t).view.emb y
      = (ix2 (⟨t.val * 5000 + (y 0).val, by omega⟩ : Fin 50000) (⟨(y 1).val, hy1⟩ : Fin 128) : S50000x128.Idx) := by
    funext a
    apply Fin.ext
    match a with
    | ⟨0, _⟩ => show win0_4.index t (0 : Fin 2) * 5000 + 1 * (y 0).val = t.val * 5000 + (y 0).val; rw [e0]; omega
    | ⟨1, _⟩ => show win0_4.index t (1 : Fin 2) * 128 + 1 * (y 1).val = (y 1).val; rw [e1]; omega
  rw [View.read_apply]
  show _ = projArr (V c (Pipeline.arrRef spec0 0)) (V c (Pipeline.arrRef spec0 1)) (((cfg0.win 4).blk t).view.emb y)
  rw [hemb]

/-- After region 0 the array of output window 4 is the product of the input array by weight array 1: row r lies in
    the block of point r / 5000. -/
theorem final0_4 (c : Dev nD) : (dat0 V c).arrAt 4 cfg0.N
    = projArr (V c (Pipeline.arrRef spec0 0)) (V c (Pipeline.arrRef spec0 1)) :=
  (dat0 V c).arrAt_eq_of_cover 4 _ (fun t _ => flushed0_4_eq V c t) fun i => by
    have hi0 : (i 0).val < 50000 := (i 0).isLt
    have hi1 : (i 1).val < 128 := (i 1).isLt
    obtain ⟨t, ht⟩ : ∃ t : Fin cfg0.N, t.val = (i 0).val / 5000 :=
      ⟨⟨(i 0).val / 5000, lt_of_lt_of_eq (by omega : (i 0).val / 5000 < 10) N_0.symm⟩, rfl⟩
    obtain ⟨e0, e1⟩ := idx0_4 t
    refine ⟨t, flush0_4 t, ?_⟩
    show i ∈ ((View.whole main_v10_0).slice (win0_4.rect t)).set
    rw [View.set_slice_whole, Rect.mem_set_unit]
    intro a
    match a with
    | ⟨0, _⟩ =>
      show win0_4.index t (0 : Fin 2) * 5000 ≤ (i 0).val ∧ (i 0).val < win0_4.index t (0 : Fin 2) * 5000 + 5000
      rw [e0, ht]; omega
    | ⟨1, _⟩ =>
      show win0_4.index t (1 : Fin 2) * 128 ≤ (i 1).val ∧ (i 1).val < win0_4.index t (1 : Fin 2) * 128 + 128
      rw [e1]; omega

/-- Entry (i, j) of output window 4's array after region 0: the sum over k of input (i, k) times weight 1 (k, j). -/
theorem region0_out4 (c : Dev nD) (i : Fin 50000) (j : Fin 128) :
    (dat0 V c).arrAt 4 cfg0.N (ix2 i j)
      = ∑ k : Fin 128, @HMul.hMul EReal EReal EReal _ (V c (Pipeline.arrRef spec0 0) (ix2 i k)) (V c (Pipeline.arrRef spec0 1) (ix2 k j)) :=
  (congrFun (final0_4 V c) (ix2 i j)).trans (projArr_ix2 _ _ i j)

/-- What point t writes back to output window 5 is the point's block of the product of the input array by weight array 2. -/
theorem flushed0_5_eq (c : Dev nD) (t : Fin cfg0.N) :
    (dat0 V c).flushed 5 t = ((cfg0.win 5).blk t).view.read (Elt Ideal)
      (projArr (V c (Pipeline.arrRef spec0 0)) (V c (Pipeline.arrRef spec0 2))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz]
  obtain ⟨e0, e1⟩ := idx0_5 t
  funext y
  have hy0 : (y 0).val < 5000 := (y 0).isLt
  have hy1 : (y 1).val < 128 := (y 1).isLt
  have ht : t.val < 10 := lt_of_lt_of_eq t.isLt N_0
  refine (pay0_3_block (iblk0 V c 0 t) (iblk0 V c 2 t) (V c (Pipeline.arrRef spec0 0)) (V c (Pipeline.arrRef spec0 2))
    ((cfg0.win 5).xinj (grid0.coords t) y) ⟨t.val * 5000 + (y 0).val, by omega⟩ ⟨(y 1).val, hy1⟩
    (fun k => iblk0_0_apply V c t ⟨(y 0).val, hy0⟩ k _ rfl) (fun k => iblk0_2_apply V c t k ⟨(y 1).val, hy1⟩)).trans ?_
  have hemb : ((cfg0.win 5).blk t).view.emb y
      = (ix2 (⟨t.val * 5000 + (y 0).val, by omega⟩ : Fin 50000) (⟨(y 1).val, hy1⟩ : Fin 128) : S50000x128.Idx) := by
    funext a
    apply Fin.ext
    match a with
    | ⟨0, _⟩ => show win0_5.index t (0 : Fin 2) * 5000 + 1 * (y 0).val = t.val * 5000 + (y 0).val; rw [e0]; omega
    | ⟨1, _⟩ => show win0_5.index t (1 : Fin 2) * 128 + 1 * (y 1).val = (y 1).val; rw [e1]; omega
  rw [View.read_apply]
  show _ = projArr (V c (Pipeline.arrRef spec0 0)) (V c (Pipeline.arrRef spec0 2)) (((cfg0.win 5).blk t).view.emb y)
  rw [hemb]

/-- After region 0 the array of output window 5 is the product of the input array by weight array 2: row r lies in
    the block of point r / 5000. -/
theorem final0_5 (c : Dev nD) : (dat0 V c).arrAt 5 cfg0.N
    = projArr (V c (Pipeline.arrRef spec0 0)) (V c (Pipeline.arrRef spec0 2)) :=
  (dat0 V c).arrAt_eq_of_cover 5 _ (fun t _ => flushed0_5_eq V c t) fun i => by
    have hi0 : (i 0).val < 50000 := (i 0).isLt
    have hi1 : (i 1).val < 128 := (i 1).isLt
    obtain ⟨t, ht⟩ : ∃ t : Fin cfg0.N, t.val = (i 0).val / 5000 :=
      ⟨⟨(i 0).val / 5000, lt_of_lt_of_eq (by omega : (i 0).val / 5000 < 10) N_0.symm⟩, rfl⟩
    obtain ⟨e0, e1⟩ := idx0_5 t
    refine ⟨t, flush0_5 t, ?_⟩
    show i ∈ ((View.whole main_v10_1).slice (win0_5.rect t)).set
    rw [View.set_slice_whole, Rect.mem_set_unit]
    intro a
    match a with
    | ⟨0, _⟩ =>
      show win0_5.index t (0 : Fin 2) * 5000 ≤ (i 0).val ∧ (i 0).val < win0_5.index t (0 : Fin 2) * 5000 + 5000
      rw [e0, ht]; omega
    | ⟨1, _⟩ =>
      show win0_5.index t (1 : Fin 2) * 128 ≤ (i 1).val ∧ (i 1).val < win0_5.index t (1 : Fin 2) * 128 + 128
      rw [e1]; omega

/-- Entry (i, j) of output window 5's array after region 0: the sum over k of input (i, k) times weight 2 (k, j). -/
theorem region0_out5 (c : Dev nD) (i : Fin 50000) (j : Fin 128) :
    (dat0 V c).arrAt 5 cfg0.N (ix2 i j)
      = ∑ k : Fin 128, @HMul.hMul EReal EReal EReal _ (V c (Pipeline.arrRef spec0 0) (ix2 i k)) (V c (Pipeline.arrRef spec0 2) (ix2 k j)) :=
  (congrFun (final0_5 V c) (ix2 i j)).trans (projArr_ix2 _ _ i j)

/-- What point t writes back to output window 6 is the point's block of the product of the input array by weight array 3. -/
theorem flushed0_6_eq (c : Dev nD) (t : Fin cfg0.N) :
    (dat0 V c).flushed 6 t = ((cfg0.win 6).blk t).view.read (Elt Ideal)
      (projArr (V c (Pipeline.arrRef spec0 0)) (V c (Pipeline.arrRef spec0 3))) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz]
  obtain ⟨e0, e1⟩ := idx0_6 t
  funext y
  have hy0 : (y 0).val < 5000 := (y 0).isLt
  have hy1 : (y 1).val < 128 := (y 1).isLt
  have ht : t.val < 10 := lt_of_lt_of_eq t.isLt N_0
  refine (pay0_4_block (iblk0 V c 0 t) (iblk0 V c 3 t) (V c (Pipeline.arrRef spec0 0)) (V c (Pipeline.arrRef spec0 3))
    ((cfg0.win 6).xinj (grid0.coords t) y) ⟨t.val * 5000 + (y 0).val, by omega⟩ ⟨(y 1).val, hy1⟩
    (fun k => iblk0_0_apply V c t ⟨(y 0).val, hy0⟩ k _ rfl) (fun k => iblk0_3_apply V c t k ⟨(y 1).val, hy1⟩)).trans ?_
  have hemb : ((cfg0.win 6).blk t).view.emb y
      = (ix2 (⟨t.val * 5000 + (y 0).val, by omega⟩ : Fin 50000) (⟨(y 1).val, hy1⟩ : Fin 128) : S50000x128.Idx) := by
    funext a
    apply Fin.ext
    match a with
    | ⟨0, _⟩ => show win0_6.index t (0 : Fin 2) * 5000 + 1 * (y 0).val = t.val * 5000 + (y 0).val; rw [e0]; omega
    | ⟨1, _⟩ => show win0_6.index t (1 : Fin 2) * 128 + 1 * (y 1).val = (y 1).val; rw [e1]; omega
  rw [View.read_apply]
  show _ = projArr (V c (Pipeline.arrRef spec0 0)) (V c (Pipeline.arrRef spec0 3)) (((cfg0.win 6).blk t).view.emb y)
  rw [hemb]

/-- After region 0 the array of output window 6 is the product of the input array by weight array 3: row r lies in
    the block of point r / 5000. -/
theorem final0_6 (c : Dev nD) : (dat0 V c).arrAt 6 cfg0.N
    = projArr (V c (Pipeline.arrRef spec0 0)) (V c (Pipeline.arrRef spec0 3)) :=
  (dat0 V c).arrAt_eq_of_cover 6 _ (fun t _ => flushed0_6_eq V c t) fun i => by
    have hi0 : (i 0).val < 50000 := (i 0).isLt
    have hi1 : (i 1).val < 128 := (i 1).isLt
    obtain ⟨t, ht⟩ : ∃ t : Fin cfg0.N, t.val = (i 0).val / 5000 :=
      ⟨⟨(i 0).val / 5000, lt_of_lt_of_eq (by omega : (i 0).val / 5000 < 10) N_0.symm⟩, rfl⟩
    obtain ⟨e0, e1⟩ := idx0_6 t
    refine ⟨t, flush0_6 t, ?_⟩
    show i ∈ ((View.whole main_v10_2).slice (win0_6.rect t)).set
    rw [View.set_slice_whole, Rect.mem_set_unit]
    intro a
    match a with
    | ⟨0, _⟩ =>
      show win0_6.index t (0 : Fin 2) * 5000 ≤ (i 0).val ∧ (i 0).val < win0_6.index t (0 : Fin 2) * 5000 + 5000
      rw [e0, ht]; omega
    | ⟨1, _⟩ =>
      show win0_6.index t (1 : Fin 2) * 128 ≤ (i 1).val ∧ (i 1).val < win0_6.index t (1 : Fin 2) * 128 + 128
      rw [e1]; omega

/-- Entry (i, j) of output window 6's array after region 0: the sum over k of input (i, k) times weight 3 (k, j). -/
theorem region0_out6 (c : Dev nD) (i : Fin 50000) (j : Fin 128) :
    (dat0 V c).arrAt 6 cfg0.N (ix2 i j)
      = ∑ k : Fin 128, @HMul.hMul EReal EReal EReal _ (V c (Pipeline.arrRef spec0 0) (ix2 i k)) (V c (Pipeline.arrRef spec0 3) (ix2 k j)) :=
  (congrFun (final0_6 V c) (ix2 i j)).trans (projArr_ix2 _ _ i j)

/-! ## Region 2 -/

/-- The seven windows of region 2 and the arrays they stage. -/
theorem arr2 : Pipeline.arrRef spec2 0 = main_v61
    ∧ Pipeline.arrRef spec2 1 = main_v62
    ∧ Pipeline.arrRef spec2 2 = main_v63
    ∧ Pipeline.arrRef spec2 3 = main_v64
    ∧ Pipeline.arrRef spec2 4 = main_v65_0
    ∧ Pipeline.arrRef spec2 5 = main_v65_1
    ∧ Pipeline.arrRef spec2 6 = main_v65_2 :=
  ⟨rfl, rfl, rfl, rfl, rfl, rfl, rfl⟩

/-- Payload 2 of region 2's body at an index of the block: row p of the row block against column q of the weight block. -/
theorem pay2_2_apply (x : Vec Ideal S5000x128 .f32) (w : Vec Ideal S128x128 .f32) (p : Fin 5000) (q : Fin 128) :
    k2_pay2 (F := Ideal) x w (ix2 p q) = ∑ k : Fin 128, x (ix2 p k) * w (ix2 k q) := by
  unfold k2_pay2 k2_pay1
  dsimp only
  rw [truncf_apply]
  refine (matmul_zero_apply _ _ p q).trans ?_
  refine Finset.sum_congr rfl fun k _ => ?_
  rw [truncf_apply, truncf_apply, shapeCast_self, shapeCast_self]

theorem pay2_2_at (x : Vec Ideal S5000x128 .f32) (w : Vec Ideal S128x128 .f32) (y : S5000x128.Idx) :
    k2_pay2 (F := Ideal) x w y = ∑ k : Fin 128, x (ix2 (n0 := 5000) (y 0) k) * w (ix2 (n1 := 128) k (y 1)) := by
  obtain ⟨p, q, rfl⟩ : ∃ (p : Fin 5000) (q : Fin 128), y = ix2 p q := ⟨y 0, y 1, eq_ix2 y⟩
  exact pay2_2_apply x w p q

/-- When the row block's row is row r of an array and the weight block is a weight array, the payload there is the
    product array's entry at row r. -/
theorem pay2_2_block (x : Vec Ideal S5000x128 .f32) (w : Vec Ideal S128x128 .f32)
    (A : S50000x128.Idx → EReal) (W : S128x128.Idx → EReal) (y : S5000x128.Idx) (r : Fin 50000) (q : Fin 128)
    (hx : ∀ k : Fin 128, x (ix2 (n0 := 5000) (y 0) k) = A (ix2 r k))
    (hw : ∀ k : Fin 128, w (ix2 (n1 := 128) k (y 1)) = W (ix2 k q)) :
    k2_pay2 (F := Ideal) x w y = projArr A W (ix2 r q) := by
  rw [pay2_2_at, projArr_ix2]
  exact Finset.sum_congr rfl fun k _ => by rw [hx k, hw k]

/-- Payload 3 of region 2's body at an index of the block: row p of the row block against column q of the weight block. -/
theorem pay2_3_apply (x : Vec Ideal S5000x128 .f32) (w : Vec Ideal S128x128 .f32) (p : Fin 5000) (q : Fin 128) :
    k2_pay3 (F := Ideal) x w (ix2 p q) = ∑ k : Fin 128, x (ix2 p k) * w (ix2 k q) := by
  unfold k2_pay3 k2_pay1
  dsimp only
  rw [truncf_apply]
  refine (matmul_zero_apply _ _ p q).trans ?_
  refine Finset.sum_congr rfl fun k _ => ?_
  rw [truncf_apply, truncf_apply, shapeCast_self, shapeCast_self]

theorem pay2_3_at (x : Vec Ideal S5000x128 .f32) (w : Vec Ideal S128x128 .f32) (y : S5000x128.Idx) :
    k2_pay3 (F := Ideal) x w y = ∑ k : Fin 128, x (ix2 (n0 := 5000) (y 0) k) * w (ix2 (n1 := 128) k (y 1)) := by
  obtain ⟨p, q, rfl⟩ : ∃ (p : Fin 5000) (q : Fin 128), y = ix2 p q := ⟨y 0, y 1, eq_ix2 y⟩
  exact pay2_3_apply x w p q

/-- When the row block's row is row r of an array and the weight block is a weight array, the payload there is the
    product array's entry at row r. -/
theorem pay2_3_block (x : Vec Ideal S5000x128 .f32) (w : Vec Ideal S128x128 .f32)
    (A : S50000x128.Idx → EReal) (W : S128x128.Idx → EReal) (y : S5000x128.Idx) (r : Fin 50000) (q : Fin 128)
    (hx : ∀ k : Fin 128, x (ix2 (n0 := 5000) (y 0) k) = A (ix2 r k))
    (hw : ∀ k : Fin 128, w (ix2 (n1 := 128) k (y 1)) = W (ix2 k q)) :
    k2_pay3 (F := Ideal) x w y = projArr A W (ix2 r q) := by
  rw [pay2_3_at, projArr_ix2]
  exact Finset.sum_congr rfl fun k _ => by rw [hx k, hw k]

/-- Payload 4 of region 2's body at an index of the block: row p of the row block against column q of the weight block. -/
theorem pay2_4_apply (x : Vec Ideal S5000x128 .f32) (w : Vec Ideal S128x128 .f32) (p : Fin 5000) (q : Fin 128) :
    k2_pay4 (F := Ideal) x w (ix2 p q) = ∑ k : Fin 128, x (ix2 p k) * w (ix2 k q) := by
  unfold k2_pay4 k2_pay1
  dsimp only
  rw [truncf_apply]
  refine (matmul_zero_apply _ _ p q).trans ?_
  refine Finset.sum_congr rfl fun k _ => ?_
  rw [truncf_apply, truncf_apply, shapeCast_self, shapeCast_self]

theorem pay2_4_at (x : Vec Ideal S5000x128 .f32) (w : Vec Ideal S128x128 .f32) (y : S5000x128.Idx) :
    k2_pay4 (F := Ideal) x w y = ∑ k : Fin 128, x (ix2 (n0 := 5000) (y 0) k) * w (ix2 (n1 := 128) k (y 1)) := by
  obtain ⟨p, q, rfl⟩ : ∃ (p : Fin 5000) (q : Fin 128), y = ix2 p q := ⟨y 0, y 1, eq_ix2 y⟩
  exact pay2_4_apply x w p q

/-- When the row block's row is row r of an array and the weight block is a weight array, the payload there is the
    product array's entry at row r. -/
theorem pay2_4_block (x : Vec Ideal S5000x128 .f32) (w : Vec Ideal S128x128 .f32)
    (A : S50000x128.Idx → EReal) (W : S128x128.Idx → EReal) (y : S5000x128.Idx) (r : Fin 50000) (q : Fin 128)
    (hx : ∀ k : Fin 128, x (ix2 (n0 := 5000) (y 0) k) = A (ix2 r k))
    (hw : ∀ k : Fin 128, w (ix2 (n1 := 128) k (y 1)) = W (ix2 k q)) :
    k2_pay4 (F := Ideal) x w y = projArr A W (ix2 r q) := by
  rw [pay2_4_at, projArr_ix2]
  exact Finset.sum_congr rfl fun k _ => by rw [hx k, hw k]

/-- The block index maps of region 2 over the grid: a row window's block at point t is block (t, 0), a weight
    window's is block (0, 0). -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)

/-- The row block of the input array at point t: its row p is row 5000 t + p of the array. -/
theorem iblk2_0_apply (c : Dev nD) (t : Fin cfg2.N) (p : Fin 5000) (k : Fin 128) (r : Fin 50000)
    (hr : r.val = t.val * 5000 + p.val) :
    (iblk2 V c 0 t : Vec Ideal S5000x128 .f32) (ix2 p k) = (V c (Pipeline.arrRef spec2 0) : S50000x128.Idx → EReal) (ix2 r k) := by
  obtain ⟨e0, e1⟩ := idx2_0 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Weight window 1's block at any point is its whole array. -/
theorem iblk2_1_apply (c : Dev nD) (t : Fin cfg2.N) (k : Fin 128) (q : Fin 128) :
    (iblk2 V c 1 t : Vec Ideal S128x128 .f32) (ix2 k q) = (V c (Pipeline.arrRef spec2 1) : S128x128.Idx → EReal) (ix2 k q) := by
  obtain ⟨e0, e1⟩ := idx2_1 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * k.val = k.val; rw [e0]; omega
  | ⟨1, _⟩ => show win2_1.index t (1 : Fin 2) * 128 + 1 * q.val = q.val; rw [e1]; omega

/-- Weight window 2's block at any point is its whole array. -/
theorem iblk2_2_apply (c : Dev nD) (t : Fin cfg2.N) (k : Fin 128) (q : Fin 128) :
    (iblk2 V c 2 t : Vec Ideal S128x128 .f32) (ix2 k q) = (V c (Pipeline.arrRef spec2 2) : S128x128.Idx → EReal) (ix2 k q) := by
  obtain ⟨e0, e1⟩ := idx2_2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- Weight window 3's block at any point is its whole array. -/
theorem iblk2_3_apply (c : Dev nD) (t : Fin cfg2.N) (k : Fin 128) (q : Fin 128) :
    (iblk2 V c 3 t : Vec Ideal S128x128 .f32) (ix2 k q) = (V c (Pipeline.arrRef spec2 3) : S128x128.Idx → EReal) (ix2 k q) := by
  obtain ⟨e0, e1⟩ := idx2_3 t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

set_option maxHeartbeats 1000000 in
/-- What point t writes back to output window 4 is the point's block of the product of the input array by weight array 1. -/
theorem flushed2_4_eq (c : Dev nD) (t : Fin cfg2.N) :
    (dat2 V c).flushed 4 t = ((cfg2.win 4).blk t).view.read (Elt Ideal)
      (projArr (V c (Pipeline.arrRef spec2 0)) (V c (Pipeline.arrRef spec2 1))) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz]
  obtain ⟨e0, e1⟩ := idx2_4 t
  funext y
  have hy0 : (y 0).val < 5000 := (y 0).isLt
  have hy1 : (y 1).val < 128 := (y 1).isLt
  have ht : t.val < 10 := lt_of_lt_of_eq t.isLt N_2
  refine (pay2_2_block (iblk2 V c 0 t) (iblk2 V c 1 t) (V c (Pipeline.arrRef spec2 0)) (V c (Pipeline.arrRef spec2 1))
    ((cfg2.win 4).xinj (grid2.coords t) y) ⟨t.val * 5000 + (y 0).val, by omega⟩ ⟨(y 1).val, hy1⟩
    (fun k => iblk2_0_apply V c t ⟨(y 0).val, hy0⟩ k _ rfl) (fun k => iblk2_1_apply V c t k ⟨(y 1).val, hy1⟩)).trans ?_
  have hemb : ((cfg2.win 4).blk t).view.emb y
      = (ix2 (⟨t.val * 5000 + (y 0).val, by omega⟩ : Fin 50000) (⟨(y 1).val, hy1⟩ : Fin 128) : S50000x128.Idx) := by
    funext a
    apply Fin.ext
    match a with
    | ⟨0, _⟩ => show win2_4.index t (0 : Fin 2) * 5000 + 1 * (y 0).val = t.val * 5000 + (y 0).val; rw [e0]; omega
    | ⟨1, _⟩ => show win2_4.index t (1 : Fin 2) * 128 + 1 * (y 1).val = (y 1).val; rw [e1]; omega
  rw [View.read_apply]
  show _ = projArr (V c (Pipeline.arrRef spec2 0)) (V c (Pipeline.arrRef spec2 1)) (((cfg2.win 4).blk t).view.emb y)
  rw [hemb]

/-- After region 2 the array of output window 4 is the product of the input array by weight array 1: row r lies in
    the block of point r / 5000. -/
theorem final2_4 (c : Dev nD) : (dat2 V c).arrAt 4 cfg2.N
    = projArr (V c (Pipeline.arrRef spec2 0)) (V c (Pipeline.arrRef spec2 1)) :=
  (dat2 V c).arrAt_eq_of_cover 4 _ (fun t _ => flushed2_4_eq V c t) fun i => by
    have hi0 : (i 0).val < 50000 := (i 0).isLt
    have hi1 : (i 1).val < 128 := (i 1).isLt
    obtain ⟨t, ht⟩ : ∃ t : Fin cfg2.N, t.val = (i 0).val / 5000 :=
      ⟨⟨(i 0).val / 5000, lt_of_lt_of_eq (by omega : (i 0).val / 5000 < 10) N_2.symm⟩, rfl⟩
    obtain ⟨e0, e1⟩ := idx2_4 t
    refine ⟨t, flush2_4 t, ?_⟩
    show i ∈ ((View.whole main_v65_0).slice (win2_4.rect t)).set
    rw [View.set_slice_whole, Rect.mem_set_unit]
    intro a
    match a with
    | ⟨0, _⟩ =>
      show win2_4.index t (0 : Fin 2) * 5000 ≤ (i 0).val ∧ (i 0).val < win2_4.index t (0 : Fin 2) * 5000 + 5000
      rw [e0, ht]; omega
    | ⟨1, _⟩ =>
      show win2_4.index t (1 : Fin 2) * 128 ≤ (i 1).val ∧ (i 1).val < win2_4.index t (1 : Fin 2) * 128 + 128
      rw [e1]; omega

/-- Entry (i, j) of output window 4's array after region 2: the sum over k of input (i, k) times weight 1 (k, j). -/
theorem region2_out4 (c : Dev nD) (i : Fin 50000) (j : Fin 128) :
    (dat2 V c).arrAt 4 cfg2.N (ix2 i j)
      = ∑ k : Fin 128, @HMul.hMul EReal EReal EReal _ (V c (Pipeline.arrRef spec2 0) (ix2 i k)) (V c (Pipeline.arrRef spec2 1) (ix2 k j)) :=
  (congrFun (final2_4 V c) (ix2 i j)).trans (projArr_ix2 _ _ i j)

set_option maxHeartbeats 1000000 in
/-- What point t writes back to output window 5 is the point's block of the product of the input array by weight array 2. -/
theorem flushed2_5_eq (c : Dev nD) (t : Fin cfg2.N) :
    (dat2 V c).flushed 5 t = ((cfg2.win 5).blk t).view.read (Elt Ideal)
      (projArr (V c (Pipeline.arrRef spec2 0)) (V c (Pipeline.arrRef spec2 2))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz]
  obtain ⟨e0, e1⟩ := idx2_5 t
  funext y
  have hy0 : (y 0).val < 5000 := (y 0).isLt
  have hy1 : (y 1).val < 128 := (y 1).isLt
  have ht : t.val < 10 := lt_of_lt_of_eq t.isLt N_2
  refine (pay2_3_block (iblk2 V c 0 t) (iblk2 V c 2 t) (V c (Pipeline.arrRef spec2 0)) (V c (Pipeline.arrRef spec2 2))
    ((cfg2.win 5).xinj (grid2.coords t) y) ⟨t.val * 5000 + (y 0).val, by omega⟩ ⟨(y 1).val, hy1⟩
    (fun k => iblk2_0_apply V c t ⟨(y 0).val, hy0⟩ k _ rfl) (fun k => iblk2_2_apply V c t k ⟨(y 1).val, hy1⟩)).trans ?_
  have hemb : ((cfg2.win 5).blk t).view.emb y
      = (ix2 (⟨t.val * 5000 + (y 0).val, by omega⟩ : Fin 50000) (⟨(y 1).val, hy1⟩ : Fin 128) : S50000x128.Idx) := by
    funext a
    apply Fin.ext
    match a with
    | ⟨0, _⟩ => show win2_5.index t (0 : Fin 2) * 5000 + 1 * (y 0).val = t.val * 5000 + (y 0).val; rw [e0]; omega
    | ⟨1, _⟩ => show win2_5.index t (1 : Fin 2) * 128 + 1 * (y 1).val = (y 1).val; rw [e1]; omega
  rw [View.read_apply]
  show _ = projArr (V c (Pipeline.arrRef spec2 0)) (V c (Pipeline.arrRef spec2 2)) (((cfg2.win 5).blk t).view.emb y)
  rw [hemb]

/-- After region 2 the array of output window 5 is the product of the input array by weight array 2: row r lies in
    the block of point r / 5000. -/
theorem final2_5 (c : Dev nD) : (dat2 V c).arrAt 5 cfg2.N
    = projArr (V c (Pipeline.arrRef spec2 0)) (V c (Pipeline.arrRef spec2 2)) :=
  (dat2 V c).arrAt_eq_of_cover 5 _ (fun t _ => flushed2_5_eq V c t) fun i => by
    have hi0 : (i 0).val < 50000 := (i 0).isLt
    have hi1 : (i 1).val < 128 := (i 1).isLt
    obtain ⟨t, ht⟩ : ∃ t : Fin cfg2.N, t.val = (i 0).val / 5000 :=
      ⟨⟨(i 0).val / 5000, lt_of_lt_of_eq (by omega : (i 0).val / 5000 < 10) N_2.symm⟩, rfl⟩
    obtain ⟨e0, e1⟩ := idx2_5 t
    refine ⟨t, flush2_5 t, ?_⟩
    show i ∈ ((View.whole main_v65_1).slice (win2_5.rect t)).set
    rw [View.set_slice_whole, Rect.mem_set_unit]
    intro a
    match a with
    | ⟨0, _⟩ =>
      show win2_5.index t (0 : Fin 2) * 5000 ≤ (i 0).val ∧ (i 0).val < win2_5.index t (0 : Fin 2) * 5000 + 5000
      rw [e0, ht]; omega
    | ⟨1, _⟩ =>
      show win2_5.index t (1 : Fin 2) * 128 ≤ (i 1).val ∧ (i 1).val < win2_5.index t (1 : Fin 2) * 128 + 128
      rw [e1]; omega

/-- Entry (i, j) of output window 5's array after region 2: the sum over k of input (i, k) times weight 2 (k, j). -/
theorem region2_out5 (c : Dev nD) (i : Fin 50000) (j : Fin 128) :
    (dat2 V c).arrAt 5 cfg2.N (ix2 i j)
      = ∑ k : Fin 128, @HMul.hMul EReal EReal EReal _ (V c (Pipeline.arrRef spec2 0) (ix2 i k)) (V c (Pipeline.arrRef spec2 2) (ix2 k j)) :=
  (congrFun (final2_5 V c) (ix2 i j)).trans (projArr_ix2 _ _ i j)

set_option maxHeartbeats 1000000 in
/-- What point t writes back to output window 6 is the point's block of the product of the input array by weight array 3. -/
theorem flushed2_6_eq (c : Dev nD) (t : Fin cfg2.N) :
    (dat2 V c).flushed 6 t = ((cfg2.win 6).blk t).view.read (Elt Ideal)
      (projArr (V c (Pipeline.arrRef spec2 0)) (V c (Pipeline.arrRef spec2 3))) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz]
  obtain ⟨e0, e1⟩ := idx2_6 t
  funext y
  have hy0 : (y 0).val < 5000 := (y 0).isLt
  have hy1 : (y 1).val < 128 := (y 1).isLt
  have ht : t.val < 10 := lt_of_lt_of_eq t.isLt N_2
  refine (pay2_4_block (iblk2 V c 0 t) (iblk2 V c 3 t) (V c (Pipeline.arrRef spec2 0)) (V c (Pipeline.arrRef spec2 3))
    ((cfg2.win 6).xinj (grid2.coords t) y) ⟨t.val * 5000 + (y 0).val, by omega⟩ ⟨(y 1).val, hy1⟩
    (fun k => iblk2_0_apply V c t ⟨(y 0).val, hy0⟩ k _ rfl) (fun k => iblk2_3_apply V c t k ⟨(y 1).val, hy1⟩)).trans ?_
  have hemb : ((cfg2.win 6).blk t).view.emb y
      = (ix2 (⟨t.val * 5000 + (y 0).val, by omega⟩ : Fin 50000) (⟨(y 1).val, hy1⟩ : Fin 128) : S50000x128.Idx) := by
    funext a
    apply Fin.ext
    match a with
    | ⟨0, _⟩ => show win2_6.index t (0 : Fin 2) * 5000 + 1 * (y 0).val = t.val * 5000 + (y 0).val; rw [e0]; omega
    | ⟨1, _⟩ => show win2_6.index t (1 : Fin 2) * 128 + 1 * (y 1).val = (y 1).val; rw [e1]; omega
  rw [View.read_apply]
  show _ = projArr (V c (Pipeline.arrRef spec2 0)) (V c (Pipeline.arrRef spec2 3)) (((cfg2.win 6).blk t).view.emb y)
  rw [hemb]

/-- After region 2 the array of output window 6 is the product of the input array by weight array 3: row r lies in
    the block of point r / 5000. -/
theorem final2_6 (c : Dev nD) : (dat2 V c).arrAt 6 cfg2.N
    = projArr (V c (Pipeline.arrRef spec2 0)) (V c (Pipeline.arrRef spec2 3)) :=
  (dat2 V c).arrAt_eq_of_cover 6 _ (fun t _ => flushed2_6_eq V c t) fun i => by
    have hi0 : (i 0).val < 50000 := (i 0).isLt
    have hi1 : (i 1).val < 128 := (i 1).isLt
    obtain ⟨t, ht⟩ : ∃ t : Fin cfg2.N, t.val = (i 0).val / 5000 :=
      ⟨⟨(i 0).val / 5000, lt_of_lt_of_eq (by omega : (i 0).val / 5000 < 10) N_2.symm⟩, rfl⟩
    obtain ⟨e0, e1⟩ := idx2_6 t
    refine ⟨t, flush2_6 t, ?_⟩
    show i ∈ ((View.whole main_v65_2).slice (win2_6.rect t)).set
    rw [View.set_slice_whole, Rect.mem_set_unit]
    intro a
    match a with
    | ⟨0, _⟩ =>
      show win2_6.index t (0 : Fin 2) * 5000 ≤ (i 0).val ∧ (i 0).val < win2_6.index t (0 : Fin 2) * 5000 + 5000
      rw [e0, ht]; omega
    | ⟨1, _⟩ =>
      show win2_6.index t (1 : Fin 2) * 128 ≤ (i 1).val ∧ (i 1).val < win2_6.index t (1 : Fin 2) * 128 + 128
      rw [e1]; omega

/-- Entry (i, j) of output window 6's array after region 2: the sum over k of input (i, k) times weight 3 (k, j). -/
theorem region2_out6 (c : Dev nD) (i : Fin 50000) (j : Fin 128) :
    (dat2 V c).arrAt 6 cfg2.N (ix2 i j)
      = ∑ k : Fin 128, @HMul.hMul EReal EReal EReal _ (V c (Pipeline.arrRef spec2 0) (ix2 i k)) (V c (Pipeline.arrRef spec2 3) (ix2 k j)) :=
  (congrFun (final2_6 V c) (ix2 i j)).trans (projArr_ix2 _ _ i j)

end Cert.KernelIdeal.ProjRegion

end
-- ==== Proof.BnRegion.lean ====
/- Batch-norm and residual regions of the kernel, read index by index at the ideal values: each region's
   output array after the region is one explicit function of the region's input arrays. The scalar functions the
   kernels compute at one element are defined first, over the extended reals, with no program in their statements. -/
import proofs.«112986_j26706106647093_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PointFns

open Idealize.ShloMosaic

/-- The batch-norm affine map at one element: the aggregated value plus its bias, divided by the row's norm, centred by
    the mean, divided by the square root of the variance plus the stabilising constant, scaled and shifted. -/
def bnPt (a b n mu v g be : EReal) : EReal :=
  Ideal.div (Ideal.div (a + b) n - mu) (Ideal.sqrt (v + Ideal.ofBits .f32 0x3727C5AC#32)) * g + be

/-- The leaky rectifier at one element: the element where it is above zero, a tenth of it elsewhere. -/
def leakyPt (x : EReal) : EReal :=
  Scalar.select (Ideal.cmp .ogt x (Ideal.ofBits .f32 0x00000000#32)) x (Ideal.ofBits .f32 0x3DCCCCCD#32 * x)

end Cert.PointFns

namespace Cert.KernelIdeal.BnRegion

open Cert.KernelIdeal Cert.PointFns
open Idealize.ShloMosaic Idealize.ShloMosaic.TcCoe Idealize.SL.Sem Idealize.ShloMosaic.ValueIdx
open Idealize.ShloMosaic.Pipeline (Dat)

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The first batch-norm kernel's stored value at `(p, q)`: the leaky rectifier of the affine map of the seven loaded
    blocks there, the row vectors read at column `q` and the norm column at row `p`. -/
theorem pay1_apply (x0 : Vec Ideal S5000x128 .f32) (x1 : Vec Ideal S1x128 .f32) (x2 : Vec Ideal S5000x1 .f32)
    (x3 x4 x5 x6 : Vec Ideal S1x128 .f32) (p : Fin 5000) (q : Fin 128) :
    Gen.k1_pay1 x0 x1 x2 x3 x4 x5 x6 (ix2 p q)
      = leakyPt (bnPt (x0 (ix2 p q)) (x1 (ix2 (0 : Fin 1) q)) (x2 (ix2 p (0 : Fin 1))) (x3 (ix2 (0 : Fin 1) q))
          (x4 (ix2 (0 : Fin 1) q)) (x5 (ix2 (0 : Fin 1) q)) (x6 (ix2 (0 : Fin 1) q))) := by
  unfold Gen.k1_pay1
  simp only [shapeCast_self]
  simp only [select_apply, cmpf_apply, mulf_apply, addf_apply, subf_apply, divf_apply, broadcast_apply,
    broadcastTo_1b_ab_apply, broadcastTo_a1_ab_apply]
  rfl

/-- The second batch-norm kernel's stored value at `(p, q)`: the affine map alone. -/
theorem pay3_apply (x0 : Vec Ideal S5000x128 .f32) (x1 : Vec Ideal S1x128 .f32) (x2 : Vec Ideal S5000x1 .f32)
    (x3 x4 x5 x6 : Vec Ideal S1x128 .f32) (p : Fin 5000) (q : Fin 128) :
    Gen.k3_pay1 x0 x1 x2 x3 x4 x5 x6 (ix2 p q)
      = bnPt (x0 (ix2 p q)) (x1 (ix2 (0 : Fin 1) q)) (x2 (ix2 p (0 : Fin 1))) (x3 (ix2 (0 : Fin 1) q))
          (x4 (ix2 (0 : Fin 1) q)) (x5 (ix2 (0 : Fin 1) q)) (x6 (ix2 (0 : Fin 1) q)) := by
  unfold Gen.k3_pay1
  simp only [shapeCast_self]
  simp only [mulf_apply, addf_apply, subf_apply, divf_apply, broadcast_apply,
    broadcastTo_1b_ab_apply, broadcastTo_a1_ab_apply]
  rfl

/-- The matrix product of a `[5000, 128]` block with a `[128, 128]` matrix into the zero accumulator, read at `(p, q)`:
    the sum over the contracted coordinate of the products of the entries. -/
theorem matmul_at (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  show FloatOps.matmul dot_S5000x128_S128x128_S5000x128_1_0_0_1_n_n none x w (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : dot_S5000x128_S128x128_S5000x128_1_0_0_1_n_n.lhsIdx (ix2 p q) ((contrEquiv1 _ 128 rfl rfl).symm k) = ix2 p k := by
    funext ax; apply Fin.ext
    match ax with
    | ⟨0, _⟩ => rfl
    | ⟨1, _⟩ => exact (DotDims.lhsIdx_val_of_single _ rfl _ _).trans c2
  have r2 : dot_S5000x128_S128x128_S5000x128_1_0_0_1_n_n.rhsIdx (ix2 p q) ((contrEquiv1 _ 128 rfl rfl).symm k) = ix2 k q := by
    funext ax; apply Fin.ext
    match ax with
    | ⟨0, _⟩ => exact (DotDims.rhsIdx_val_of_single _ rfl _ _).trans c2
    | ⟨1, _⟩ => rfl
  rw [l2, r2]

/-- The residual kernel's stored value at `(p, q)`: the leaky rectifier of the addend there plus row `p` of the first
    block times column `q` of the weight (the narrowing of both operands is the identity at the ideal values). -/
theorem pay4_apply (x0 : Vec Ideal S5000x128 .f32) (x1 : Vec Ideal S128x128 .f32) (x2 : Vec Ideal S5000x128 .f32)
    (p : Fin 5000) (q : Fin 128) :
    Gen.k4_pay1 x0 x1 x2 (ix2 p q) = leakyPt (x2 (ix2 p q) + ∑ k : Fin 128, x0 (ix2 p k) * x1 (ix2 k q)) := by
  unfold Gen.k4_pay1
  simp only [shapeCast_self]
  simp only [select_apply, cmpf_apply, mulf_apply, addf_apply, broadcast_apply]
  rw [matmul_at]
  rfl

/-! ## The whole-array functions -/

/-- The batch-norm affine map over whole arrays: at `(r, j)` the `[50000, 128]` operand at `(r, j)`, each row vector at
    column `j`, the norm column at row `r`. -/
def bnArr (A0 : S50000x128.Idx → EReal) (A1 : S1x128.Idx → EReal) (A2 : S50000x1.Idx → EReal)
    (A3 A4 A5 A6 : S1x128.Idx → EReal) : S50000x128.Idx → EReal := fun i =>
  bnPt (A0 i) (A1 (ix2 (0 : Fin 1) ⟨(i 1).val, idx2_lt1 i⟩)) (A2 (ix2 ⟨(i 0).val, idx2_lt0 i⟩ (0 : Fin 1)))
    (A3 (ix2 (0 : Fin 1) ⟨(i 1).val, idx2_lt1 i⟩)) (A4 (ix2 (0 : Fin 1) ⟨(i 1).val, idx2_lt1 i⟩))
    (A5 (ix2 (0 : Fin 1) ⟨(i 1).val, idx2_lt1 i⟩)) (A6 (ix2 (0 : Fin 1) ⟨(i 1).val, idx2_lt1 i⟩))

/-- The residual map over whole arrays: at `(r, j)` the leaky rectifier of the addend there plus row `r` of the first
    operand times column `j` of the weight. -/
def residArr (A0 : S50000x128.Idx → EReal) (A1 : S128x128.Idx → EReal) (A2 : S50000x128.Idx → EReal) :
    S50000x128.Idx → EReal := fun i =>
  leakyPt (A2 i + ∑ k : Fin 128, A0 (ix2 ⟨(i 0).val, idx2_lt0 i⟩ k) * A1 (ix2 k ⟨(i 1).val, idx2_lt1 i⟩))

/-- The two whole-array maps read at `(i, j)`. -/
theorem bnArr_apply (A0 : S50000x128.Idx → EReal) (A1 : S1x128.Idx → EReal) (A2 : S50000x1.Idx → EReal)
    (A3 A4 A5 A6 : S1x128.Idx → EReal) (i : Fin 50000) (j : Fin 128) :
    bnArr A0 A1 A2 A3 A4 A5 A6 (ix2 i j) = bnPt (A0 (ix2 i j)) (A1 (ix2 (0 : Fin 1) j)) (A2 (ix2 i (0 : Fin 1)))
      (A3 (ix2 (0 : Fin 1) j)) (A4 (ix2 (0 : Fin 1) j)) (A5 (ix2 (0 : Fin 1) j)) (A6 (ix2 (0 : Fin 1) j)) := rfl
theorem residArr_apply (A0 : S50000x128.Idx → EReal) (A1 : S128x128.Idx → EReal) (A2 : S50000x128.Idx → EReal)
    (i : Fin 50000) (j : Fin 128) :
    residArr A0 A1 A2 (ix2 i j) = leakyPt (A2 (ix2 i j) + ∑ k : Fin 128, A0 (ix2 i k) * A1 (ix2 k j)) := rfl

/-- Equal arguments, equal values. -/
theorem bnPt_congr {a b n mu v g be a' b' n' mu' v' g' be' : EReal} (h0 : a = a') (h1 : b = b') (h2 : n = n')
    (h3 : mu = mu') (h4 : v = v') (h5 : g = g') (h6 : be = be') : bnPt a b n mu v g be = bnPt a' b' n' mu' v' g' be' := by
  subst h0 h1 h2 h3 h4 h5 h6; rfl

theorem hz : (![0, 0] : Fin 2 → Nat) = fun _ => 0 := funext fun a => by fin_cases a <;> rfl

section Regions

variable (V : (c : Dev nD) → (b : Ref sig .tc) → Buf (Elt Ideal) ((c : Thread nD τ).loc b))

/-! ## Region 1: the first batch-norm kernel, with the leaky rectifier -/

/-- The index maps of region 1, decided over its grid: a row-block window sits at block `(t, 0)`, a whole-array window
    at block `(0, 0)`. -/
theorem idx1_0_0 : ∀ t : Fin cfg1.N, win1_0.index t (0 : Fin 2) = t.val := (by decide +kernel : ∀ t : Fin grid1.N, _)
theorem idx1_0_1 : ∀ t : Fin cfg1.N, win1_0.index t (1 : Fin 2) = 0 := (by decide +kernel : ∀ t : Fin grid1.N, _)
theorem idx1_1_0 : ∀ t : Fin cfg1.N, win1_1.index t (0 : Fin 2) = 0 := (by decide +kernel : ∀ t : Fin grid1.N, _)
theorem idx1_1_1 : ∀ t : Fin cfg1.N, win1_1.index t (1 : Fin 2) = 0 := (by decide +kernel : ∀ t : Fin grid1.N, _)
theorem idx1_2_0 : ∀ t : Fin cfg1.N, win1_2.index t (0 : Fin 2) = t.val := (by decide +kernel : ∀ t : Fin grid1.N, _)
theorem idx1_2_1 : ∀ t : Fin cfg1.N, win1_2.index t (1 : Fin 2) = 0 := (by decide +kernel : ∀ t : Fin grid1.N, _)
theorem idx1_3_0 : ∀ t : Fin cfg1.N, win1_3.index t (0 : Fin 2) = 0 := (by decide +kernel : ∀ t : Fin grid1.N, _)
theorem idx1_3_1 : ∀ t : Fin cfg1.N, win1_3.index t (1 : Fin 2) = 0 := (by decide +kernel : ∀ t : Fin grid1.N, _)
theorem idx1_4_0 : ∀ t : Fin cfg1.N, win1_4.index t (0 : Fin 2) = 0 := (by decide +kernel : ∀ t : Fin grid1.N, _)
theorem idx1_4_1 : ∀ t : Fin cfg1.N, win1_4.index t (1 : Fin 2) = 0 := (by decide +kernel : ∀ t : Fin grid1.N, _)
theorem idx1_5_0 : ∀ t : Fin cfg1.N, win1_5.index t (0 : Fin 2) = 0 := (by decide +kernel : ∀ t : Fin grid1.N, _)
theorem idx1_5_1 : ∀ t : Fin cfg1.N, win1_5.index t (1 : Fin 2) = 0 := (by decide +kernel : ∀ t : Fin grid1.N, _)
theorem idx1_6_0 : ∀ t : Fin cfg1.N, win1_6.index t (0 : Fin 2) = 0 := (by decide +kernel : ∀ t : Fin grid1.N, _)
theorem idx1_6_1 : ∀ t : Fin cfg1.N, win1_6.index t (1 : Fin 2) = 0 := (by decide +kernel : ∀ t : Fin grid1.N, _)
theorem idx1_7_0 : ∀ t : Fin cfg1.N, win1_7.index t (0 : Fin 2) = t.val := (by decide +kernel : ∀ t : Fin grid1.N, _)
theorem idx1_7_1 : ∀ t : Fin cfg1.N, win1_7.index t (1 : Fin 2) = 0 := (by decide +kernel : ∀ t : Fin grid1.N, _)

/-- Row `p` of block `t` is a row of the array. -/
theorem rowblk_lt1 (t : Fin cfg1.N) (p : Fin 5000) : t.val * 5000 + p.val < 50000 := by
  have h : t.val < 10 := Nat.lt_of_lt_of_eq t.isLt Gen.N_1
  have hp := p.isLt
  omega

/-- Where an element of each window's block at point `t` sits in the window's array: on each axis at the block index
    times the block's size plus its own coordinate. -/

theorem emb1_0 (t : Fin cfg1.N) (p : Fin 5000) (q : Fin 128) :
    ((cfg1.win 0).blk t).view.emb (ix2 p q) = (ix2 ⟨t.val * 5000 + p.val, rowblk_lt1 t p⟩ q : S50000x128.Idx) := by
  have e0 := idx1_0_0 t
  have e1 := idx1_0_1 t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

theorem emb1_1 (t : Fin cfg1.N) (u : Fin 1) (q : Fin 128) :
    ((cfg1.win 1).blk t).view.emb (ix2 u q) = (ix2 u q : S1x128.Idx) := by
  have e0 := idx1_1_0 t
  have e1 := idx1_1_1 t
  funext a; apply Fin.ext
  match a with
  | ⟨0, _⟩ => show win1_1.index t (0 : Fin 2) * 1 + 1 * u.val = u.val; rw [e0]; omega
  | ⟨1, _⟩ => show win1_1.index t (1 : Fin 2) * 128 + 1 * q.val = q.val; rw [e1]; omega

theorem emb1_2 (t : Fin cfg1.N) (p : Fin 5000) (u : Fin 1) :
    ((cfg1.win 2).blk t).view.emb (ix2 p u) = (ix2 ⟨t.val * 5000 + p.val, rowblk_lt1 t p⟩ u : S50000x1.Idx) := by
  have e0 := idx1_2_0 t
  have e1 := idx1_2_1 t
  funext a; apply Fin.ext
  match a with
  | ⟨0, _⟩ => show win1_2.index t (0 : Fin 2) * 5000 + 1 * p.val = t.val * 5000 + p.val; rw [e0]; omega
  | ⟨1, _⟩ => show win1_2.index t (1 : Fin 2) * 1 + 1 * u.val = u.val; rw [e1]; omega

theorem emb1_3 (t : Fin cfg1.N) (u : Fin 1) (q : Fin 128) :
    ((cfg1.win 3).blk t).view.emb (ix2 u q) = (ix2 u q : S1x128.Idx) := by
  have e0 := idx1_3_0 t
  have e1 := idx1_3_1 t
  funext a; apply Fin.ext
  match a with
  | ⟨0, _⟩ => show win1_3.index t (0 : Fin 2) * 1 + 1 * u.val = u.val; rw [e0]; omega
  | ⟨1, _⟩ => show win1_3.index t (1 : Fin 2) * 128 + 1 * q.val = q.val; rw [e1]; omega

theorem emb1_4 (t : Fin cfg1.N) (u : Fin 1) (q : Fin 128) :
    ((cfg1.win 4).blk t).view.emb (ix2 u q) = (ix2 u q : S1x128.Idx) := by
  have e0 := idx1_4_0 t
  have e1 := idx1_4_1 t
  funext a; apply Fin.ext
  match a with
  | ⟨0, _⟩ => show win1_4.index t (0 : Fin 2) * 1 + 1 * u.val = u.val; rw [e0]; omega
  | ⟨1, _⟩ => show win1_4.index t (1 : Fin 2) * 128 + 1 * q.val = q.val; rw [e1]; omega

theorem emb1_5 (t : Fin cfg1.N) (u : Fin 1) (q : Fin 128) :
    ((cfg1.win 5).blk t).view.emb (ix2 u q) = (ix2 u q : S1x128.Idx) := by
  have e0 := idx1_5_0 t
  have e1 := idx1_5_1 t
  funext a; apply Fin.ext
  match a with
  | ⟨0, _⟩ => show win1_5.index t (0 : Fin 2) * 1 + 1 * u.val = u.val; rw [e0]; omega
  | ⟨1, _⟩ => show win1_5.index t (1 : Fin 2) * 128 + 1 * q.val = q.val; rw [e1]; omega

theorem emb1_6 (t : Fin cfg1.N) (u : Fin 1) (q : Fin 128) :
    ((cfg1.win 6).blk t).view.emb (ix2 u q) = (ix2 u q : S1x128.Idx) := by
  have e0 := idx1_6_0 t
  have e1 := idx1_6_1 t
  funext a; apply Fin.ext
  match a with
  | ⟨0, _⟩ => show win1_6.index t (0 : Fin 2) * 1 + 1 * u.val = u.val; rw [e0]; omega
  | ⟨1, _⟩ => show win1_6.index t (1 : Fin 2) * 128 + 1 * q.val = q.val; rw [e1]; omega

theorem emb1_7 (t : Fin cfg1.N) (p : Fin 5000) (q : Fin 128) :
    ((cfg1.win 7).blk t).view.emb (ix2 p q) = (ix2 ⟨t.val * 5000 + p.val, rowblk_lt1 t p⟩ q : S50000x128.Idx) := by
  have e0 := idx1_7_0 t
  have e1 := idx1_7_1 t
  funext a; apply Fin.ext
  match a with
  | ⟨0, _⟩ => show win1_7.index t (0 : Fin 2) * 5000 + 1 * p.val = t.val * 5000 + p.val; rw [e0]; omega
  | ⟨1, _⟩ => show win1_7.index t (1 : Fin 2) * 128 + 1 * q.val = q.val; rw [e1]; omega

/-- Each input window's block at point `t`, read at an element, is the window's array at the element's place in it. -/
theorem iblk1_0_at (c : Dev nD) (t : Fin cfg1.N) (p : Fin 5000) (q : Fin 128) :
    Gen.iblk1 V c 0 t (ix2 p q) = V c (Pipeline.arrRef spec1 0) (ix2 ⟨t.val * 5000 + p.val, rowblk_lt1 t p⟩ q : S50000x128.Idx) := by
  show V c (Pipeline.arrRef spec1 0) (((cfg1.win 0).blk t).view.emb (ix2 p q)) = _
  rw [emb1_0 t p q]

theorem iblk1_1_at (c : Dev nD) (t : Fin cfg1.N) (u : Fin 1) (q : Fin 128) :
    Gen.iblk1 V c 1 t (ix2 u q) = V c (Pipeline.arrRef spec1 1) (ix2 u q : S1x128.Idx) := by
  show V c (Pipeline.arrRef spec1 1) (((cfg1.win 1).blk t).view.emb (ix2 u q)) = _
  rw [emb1_1 t u q]

theorem iblk1_2_at (c : Dev nD) (t : Fin cfg1.N) (p : Fin 5000) (u : Fin 1) :
    Gen.iblk1 V c 2 t (ix2 p u) = V c (Pipeline.arrRef spec1 2) (ix2 ⟨t.val * 5000 + p.val, rowblk_lt1 t p⟩ u : S50000x1.Idx) := by
  show V c (Pipeline.arrRef spec1 2) (((cfg1.win 2).blk t).view.emb (ix2 p u)) = _
  rw [emb1_2 t p u]

theorem iblk1_3_at (c : Dev nD) (t : Fin cfg1.N) (u : Fin 1) (q : Fin 128) :
    Gen.iblk1 V c 3 t (ix2 u q) = V c (Pipeline.arrRef spec1 3) (ix2 u q : S1x128.Idx) := by
  show V c (Pipeline.arrRef spec1 3) (((cfg1.win 3).blk t).view.emb (ix2 u q)) = _
  rw [emb1_3 t u q]

theorem iblk1_4_at (c : Dev nD) (t : Fin cfg1.N) (u : Fin 1) (q : Fin 128) :
    Gen.iblk1 V c 4 t (ix2 u q) = V c (Pipeline.arrRef spec1 4) (ix2 u q : S1x128.Idx) := by
  show V c (Pipeline.arrRef spec1 4) (((cfg1.win 4).blk t).view.emb (ix2 u q)) = _
  rw [emb1_4 t u q]

theorem iblk1_5_at (c : Dev nD) (t : Fin cfg1.N) (u : Fin 1) (q : Fin 128) :
    Gen.iblk1 V c 5 t (ix2 u q) = V c (Pipeline.arrRef spec1 5) (ix2 u q : S1x128.Idx) := by
  show V c (Pipeline.arrRef spec1 5) (((cfg1.win 5).blk t).view.emb (ix2 u q)) = _
  rw [emb1_5 t u q]

theorem iblk1_6_at (c : Dev nD) (t : Fin cfg1.N) (u : Fin 1) (q : Fin 128) :
    Gen.iblk1 V c 6 t (ix2 u q) = V c (Pipeline.arrRef spec1 6) (ix2 u q : S1x128.Idx) := by
  show V c (Pipeline.arrRef spec1 6) (((cfg1.win 6).blk t).view.emb (ix2 u q)) = _
  rw [emb1_6 t u q]

/-- The output window's block at point `t` of any whole-array contents, read at an element, is the contents at the
    element's place in the array. -/
theorem oblk1_at (G : S50000x128.Idx → EReal) (t : Fin cfg1.N) (p : Fin 5000) (q : Fin 128) :
    ((cfg1.win 7).blk t).view.read (Elt Ideal) G (ix2 p q) = G (ix2 ⟨t.val * 5000 + p.val, rowblk_lt1 t p⟩ q) := by
  show G (((cfg1.win 7).blk t).view.emb (ix2 p q)) = _
  rw [emb1_7 t p q]

/-- What point `t` writes back is block `t` of the leaky rectifier of the batch-norm map of the region's input arrays. -/
theorem flushed1_eq (c : Dev nD) (t : Fin cfg1.N) :
    (Gen.dat1 V c).flushed 7 t = ((cfg1.win 7).blk t).view.read (Elt Ideal)
      (fun i => leakyPt (bnArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) i)) := by
  show (cfg1.win 7).cut (grid1.coords t) ((Gen.dat1 V c).after 7 t) = _
  rw [Gen.after1_7]
  unfold Gen.out1_7
  rw [View.canon_unit_zero hz]
  simp only [View.ld_unit_zero (S := S5000x128) hz, View.ld_unit_zero (S := S1x128) hz, View.ld_unit_zero (S := S5000x1) hz]
  funext y
  obtain ⟨p, q, rfl⟩ : ∃ (p : Fin 5000) (q : Fin 128), y = ix2 p q := ⟨y 0, y 1, eq_ix2 y⟩
  refine (pay1_apply _ _ _ _ _ _ _ p q).trans ?_
  refine Eq.trans ?_ (oblk1_at _ t p q).symm
  exact congrArg leakyPt (bnPt_congr (iblk1_0_at V c t p q) (iblk1_1_at V c t 0 q) (iblk1_2_at V c t p 0) (iblk1_3_at V c t 0 q)
    (iblk1_4_at V c t 0 q) (iblk1_5_at V c t 0 q) (iblk1_6_at V c t 0 q))

/-- An index of the output array is in point `t`'s block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v61).slice (win1_7.rect t)).set ↔ _
  rw [View.set_slice_whole, Rect.mem_set_unit]
  exact Iff.rfl

/-- Every index of the output array is in some point's block: row `r` in the block of point `r / 5000`. -/
theorem cover1 (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, Nat.lt_of_lt_of_eq (by omega : (i 0).val / 5000 < 10) Gen.N_1.symm⟩, rfl⟩
  have e0 := idx1_7_0 t
  have e1 := idx1_7_1 t
  refine ⟨t, Gen.flush1_7 t, ?_⟩
  rw [mem_blk1]
  intro a
  match a with
  | ⟨0, _⟩ =>
    show win1_7.index t (0 : Fin 2) * 5000 ≤ (i 0).val ∧ (i 0).val < win1_7.index t (0 : Fin 2) * 5000 + 5000
    rw [e0]; omega
  | ⟨1, _⟩ =>
    show win1_7.index t (1 : Fin 2) * 128 ≤ (i 1).val ∧ (i 1).val < win1_7.index t (1 : Fin 2) * 128 + 128
    rw [e1]; omega

/-- The output array after region 1: the leaky rectifier of the batch-norm map of the region's input arrays. -/
theorem final1 (c : Dev nD) : (Gen.dat1 V c).arrAt 7 cfg1.N
      = (fun i => leakyPt (bnArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6)) i)) :=
  (Gen.dat1 V c).arrAt_eq_of_cover 7 _ (fun t _ => flushed1_eq V c t) cover1

/-- Region 1's output array at `(i, j)`, as a function of the region's input arrays. -/
theorem region1_out7 (c : Dev nD) (i : Fin 50000) (j : Fin 128) :
    (Gen.dat1 (F := Ideal) V c).arrAt 7 cfg1.N (ix2 i j)
      = leakyPt (bnPt (V c (Pipeline.arrRef spec1 0) (ix2 i j)) (V c (Pipeline.arrRef spec1 1) (ix2 (0 : Fin 1) j)) (V c (Pipeline.arrRef spec1 2) (ix2 i (0 : Fin 1)))
          (V c (Pipeline.arrRef spec1 3) (ix2 (0 : Fin 1) j)) (V c (Pipeline.arrRef spec1 4) (ix2 (0 : Fin 1) j)) (V c (Pipeline.arrRef spec1 5) (ix2 (0 : Fin 1) j))
          (V c (Pipeline.arrRef spec1 6) (ix2 (0 : Fin 1) j))) :=
  congrFun (final1 V c) (ix2 i j)

/-! ## Region 3: the second batch-norm kernel, without the rectifier -/

/-- The index maps of region 3, decided over its grid: a row-block window sits at block `(t, 0)`, a whole-array window
    at block `(0, 0)`. -/
theorem idx3_0_0 : ∀ t : Fin cfg3.N, win3_0.index t (0 : Fin 2) = t.val := (by decide +kernel : ∀ t : Fin grid3.N, _)
theorem idx3_0_1 : ∀ t : Fin cfg3.N, win3_0.index t (1 : Fin 2) = 0 := (by decide +kernel : ∀ t : Fin grid3.N, _)
theorem idx3_1_0 : ∀ t : Fin cfg3.N, win3_1.index t (0 : Fin 2) = 0 := (by decide +kernel : ∀ t : Fin grid3.N, _)
theorem idx3_1_1 : ∀ t : Fin cfg3.N, win3_1.index t (1 : Fin 2) = 0 := (by decide +kernel : ∀ t : Fin grid3.N, _)
theorem idx3_2_0 : ∀ t : Fin cfg3.N, win3_2.index t (0 : Fin 2) = t.val := (by decide +kernel : ∀ t : Fin grid3.N, _)
theorem idx3_2_1 : ∀ t : Fin cfg3.N, win3_2.index t (1 : Fin 2) = 0 := (by decide +kernel : ∀ t : Fin grid3.N, _)
theorem idx3_3_0 : ∀ t : Fin cfg3.N, win3_3.index t (0 : Fin 2) = 0 := (by decide +kernel : ∀ t : Fin grid3.N, _)
theorem idx3_3_1 : ∀ t : Fin cfg3.N, win3_3.index t (1 : Fin 2) = 0 := (by decide +kernel : ∀ t : Fin grid3.N, _)
theorem idx3_4_0 : ∀ t : Fin cfg3.N, win3_4.index t (0 : Fin 2) = 0 := (by decide +kernel : ∀ t : Fin grid3.N, _)
theorem idx3_4_1 : ∀ t : Fin cfg3.N, win3_4.index t (1 : Fin 2) = 0 := (by decide +kernel : ∀ t : Fin grid3.N, _)
theorem idx3_5_0 : ∀ t : Fin cfg3.N, win3_5.index t (0 : Fin 2) = 0 := (by decide +kernel : ∀ t : Fin grid3.N, _)
theorem idx3_5_1 : ∀ t : Fin cfg3.N, win3_5.index t (1 : Fin 2) = 0 := (by decide +kernel : ∀ t : Fin grid3.N, _)
theorem idx3_6_0 : ∀ t : Fin cfg3.N, win3_6.index t (0 : Fin 2) = 0 := (by decide +kernel : ∀ t : Fin grid3.N, _)
theorem idx3_6_1 : ∀ t : Fin cfg3.N, win3_6.index t (1 : Fin 2) = 0 := (by decide +kernel : ∀ t : Fin grid3.N, _)
theorem idx3_7_0 : ∀ t : Fin cfg3.N, win3_7.index t (0 : Fin 2) = t.val := (by decide +kernel : ∀ t : Fin grid3.N, _)
theorem idx3_7_1 : ∀ t : Fin cfg3.N, win3_7.index t (1 : Fin 2) = 0 := (by decide +kernel : ∀ t : Fin grid3.N, _)

/-- Row `p` of block `t` is a row of the array. -/
theorem rowblk_lt3 (t : Fin cfg3.N) (p : Fin 5000) : t.val * 5000 + p.val < 50000 := by
  have h : t.val < 10 := Nat.lt_of_lt_of_eq t.isLt Gen.N_3
  have hp := p.isLt
  omega

/-- Where an element of each window's block at point `t` sits in the window's array: on each axis at the block index
    times the block's size plus its own coordinate. -/

theorem emb3_0 (t : Fin cfg3.N) (p : Fin 5000) (q : Fin 128) :
    ((cfg3.win 0).blk t).view.emb (ix2 p q) = (ix2 ⟨t.val * 5000 + p.val, rowblk_lt3 t p⟩ q : S50000x128.Idx) := by
  have e0 := idx3_0_0 t
  have e1 := idx3_0_1 t
  funext a; apply Fin.ext
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

theorem emb3_1 (t : Fin cfg3.N) (u : Fin 1) (q : Fin 128) :
    ((cfg3.win 1).blk t).view.emb (ix2 u q) = (ix2 u q : S1x128.Idx) := by
  have e0 := idx3_1_0 t
  have e1 := idx3_1_1 t
  funext a; apply Fin.ext
  match a with
  | ⟨0, _⟩ => show win3_1.index t (0 : Fin 2) * 1 + 1 * u.val = u.val; rw [e0]; omega
  | ⟨1, _⟩ => show win3_1.index t (1 : Fin 2) * 128 + 1 * q.val = q.val; rw [e1]; omega

theorem emb3_2 (t : Fin cfg3.N) (p : Fin 5000) (u : Fin 1) :
    ((cfg3.win 2).blk t).view.emb (ix2 p u) = (ix2 ⟨t.val * 5000 + p.val, rowblk_lt3 t p⟩ u : S50000x1.Idx) := by
  have e0 := idx3_2_0 t
  have e1 := idx3_2_1 t
  funext a; apply Fin.ext
  match a with
  | ⟨0, _⟩ => show win3_2.index t (0 : Fin 2) * 5000 + 1 * p.val = t.val * 5000 + p.val; rw [e0]; omega
  | ⟨1, _⟩ => show win3_2.index t (1 : Fin 2) * 1 + 1 * u.val = u.val; rw [e1]; omega

theorem emb3_3 (t : Fin cfg3.N) (u : Fin 1) (q : Fin 128) :
    ((cfg3.win 3).blk t).view.emb (ix2 u q) = (ix2 u q : S1x128.Idx) := by
  have e0 := idx3_3_0 t
  have e1 := idx3_3_1 t
  funext a; apply Fin.ext
  match a with
  | ⟨0, _⟩ => show win3_3.index t (0 : Fin 2) * 1 + 1 * u.val = u.val; rw [e0]; omega
  | ⟨1, _⟩ => show win3_3.index t (1 : Fin 2) * 128 + 1 * q.val = q.val; rw [e1]; omega

theorem emb3_4 (t : Fin cfg3.N) (u : Fin 1) (q : Fin 128) :
    ((cfg3.win 4).blk t).view.emb (ix2 u q) = (ix2 u q : S1x128.Idx) := by
  have e0 := idx3_4_0 t
  have e1 := idx3_4_1 t
  funext a; apply Fin.ext
  match a with
  | ⟨0, _⟩ => show win3_4.index t (0 : Fin 2) * 1 + 1 * u.val = u.val; rw [e0]; omega
  | ⟨1, _⟩ => show win3_4.index t (1 : Fin 2) * 128 + 1 * q.val = q.val; rw [e1]; omega

theorem emb3_5 (t : Fin cfg3.N) (u : Fin 1) (q : Fin 128) :
    ((cfg3.win 5).blk t).view.emb (ix2 u q) = (ix2 u q : S1x128.Idx) := by
  have e0 := idx3_5_0 t
  have e1 := idx3_5_1 t
  funext a; apply Fin.ext
  match a with
  | ⟨0, _⟩ => show win3_5.index t (0 : Fin 2) * 1 + 1 * u.val = u.val; rw [e0]; omega
  | ⟨1, _⟩ => show win3_5.index t (1 : Fin 2) * 128 + 1 * q.val = q.val; rw [e1]; omega

theorem emb3_6 (t : Fin cfg3.N) (u : Fin 1) (q : Fin 128) :
    ((cfg3.win 6).blk t).view.emb (ix2 u q) = (ix2 u q : S1x128.Idx) := by
  have e0 := idx3_6_0 t
  have e1 := idx3_6_1 t
  funext a; apply Fin.ext
  match a with
  | ⟨0, _⟩ => show win3_6.index t (0 : Fin 2) * 1 + 1 * u.val = u.val; rw [e0]; omega
  | ⟨1, _⟩ => show win3_6.index t (1 : Fin 2) * 128 + 1 * q.val = q.val; rw [e1]; omega

theorem emb3_7 (t : Fin cfg3.N) (p : Fin 5000) (q : Fin 128) :
    ((cfg3.win 7).blk t).view.emb (ix2 p q) = (ix2 ⟨t.val * 5000 + p.val, rowblk_lt3 t p⟩ q : S50000x128.Idx) := by
  have e0 := idx3_7_0 t
  have e1 := idx3_7_1 t
  funext a; apply Fin.ext
  match a with
  | ⟨0, _⟩ => show win3_7.index t (0 : Fin 2) * 5000 + 1 * p.val = t.val * 5000 + p.val; rw [e0]; omega
  | ⟨1, _⟩ => show win3_7.index t (1 : Fin 2) * 128 + 1 * q.val = q.val; rw [e1]; omega

/-- Each input window's block at point `t`, read at an element, is the window's array at the element's place in it. -/
theorem iblk3_0_at (c : Dev nD) (t : Fin cfg3.N) (p : Fin 5000) (q : Fin 128) :
    Gen.iblk3 V c 0 t (ix2 p q) = V c (Pipeline.arrRef spec3 0) (ix2 ⟨t.val * 5000 + p.val, rowblk_lt3 t p⟩ q : S50000x128.Idx) := by
  show V c (Pipeline.arrRef spec3 0) (((cfg3.win 0).blk t).view.emb (ix2 p q)) = _
  rw [emb3_0 t p q]

theorem iblk3_1_at (c : Dev nD) (t : Fin cfg3.N) (u : Fin 1) (q : Fin 128) :
    Gen.iblk3 V c 1 t (ix2 u q) = V c (Pipeline.arrRef spec3 1) (ix2 u q : S1x128.Idx) := by
  show V c (Pipeline.arrRef spec3 1) (((cfg3.win 1).blk t).view.emb (ix2 u q)) = _
  rw [emb3_1 t u q]

theorem iblk3_2_at (c : Dev nD) (t : Fin cfg3.N) (p : Fin 5000) (u : Fin 1) :
    Gen.iblk3 V c 2 t (ix2 p u) = V c (Pipeline.arrRef spec3 2) (ix2 ⟨t.val * 5000 + p.val, rowblk_lt3 t p⟩ u : S50000x1.Idx) := by
  show V c (Pipeline.arrRef spec3 2) (((cfg3.win 2).blk t).view.emb (ix2 p u)) = _
  rw [emb3_2 t p u]

theorem iblk3_3_at (c : Dev nD) (t : Fin cfg3.N) (u : Fin 1) (q : Fin 128) :
    Gen.iblk3 V c 3 t (ix2 u q) = V c (Pipeline.arrRef spec3 3) (ix2 u q : S1x128.Idx) := by
  show V c (Pipeline.arrRef spec3 3) (((cfg3.win 3).blk t).view.emb (ix2 u q)) = _
  rw [emb3_3 t u q]

theorem iblk3_4_at (c : Dev nD) (t : Fin cfg3.N) (u : Fin 1) (q : Fin 128) :
    Gen.iblk3 V c 4 t (ix2 u q) = V c (Pipeline.arrRef spec3 4) (ix2 u q : S1x128.Idx) := by
  show V c (Pipeline.arrRef spec3 4) (((cfg3.win 4).blk t).view.emb (ix2 u q)) = _
  rw [emb3_4 t u q]

theorem iblk3_5_at (c : Dev nD) (t : Fin cfg3.N) (u : Fin 1) (q : Fin 128) :
    Gen.iblk3 V c 5 t (ix2 u q) = V c (Pipeline.arrRef spec3 5) (ix2 u q : S1x128.Idx) := by
  show V c (Pipeline.arrRef spec3 5) (((cfg3.win 5).blk t).view.emb (ix2 u q)) = _
  rw [emb3_5 t u q]

theorem iblk3_6_at (c : Dev nD) (t : Fin cfg3.N) (u : Fin 1) (q : Fin 128) :
    Gen.iblk3 V c 6 t (ix2 u q) = V c (Pipeline.arrRef spec3 6) (ix2 u q : S1x128.Idx) := by
  show V c (Pipeline.arrRef spec3 6) (((cfg3.win 6).blk t).view.emb (ix2 u q)) = _
  rw [emb3_6 t u q]

/-- The output window's block at point `t` of any whole-array contents, read at an element, is the contents at the
    element's place in the array. -/
theorem oblk3_at (G : S50000x128.Idx → EReal) (t : Fin cfg3.N) (p : Fin 5000) (q : Fin 128) :
    ((cfg3.win 7).blk t).view.read (Elt Ideal) G (ix2 p q) = G (ix2 ⟨t.val * 5000 + p.val, rowblk_lt3 t p⟩ q) := by
  show G (((cfg3.win 7).blk t).view.emb (ix2 p q)) = _
  rw [emb3_7 t p q]

/-- What point `t` writes back is block `t` of the batch-norm map of the region's input arrays. -/
theorem flushed3_eq (c : Dev nD) (t : Fin cfg3.N) :
    (Gen.dat3 V c).flushed 7 t = ((cfg3.win 7).blk t).view.read (Elt Ideal)
      (fun i => bnArr (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) i) := by
  show (cfg3.win 7).cut (grid3.coords t) ((Gen.dat3 V c).after 7 t) = _
  rw [Gen.after3_7]
  unfold Gen.out3_7
  rw [View.canon_unit_zero hz]
  simp only [View.ld_unit_zero (S := S5000x128) hz, View.ld_unit_zero (S := S1x128) hz, View.ld_unit_zero (S := S5000x1) hz]
  funext y
  obtain ⟨p, q, rfl⟩ : ∃ (p : Fin 5000) (q : Fin 128), y = ix2 p q := ⟨y 0, y 1, eq_ix2 y⟩
  refine (pay3_apply _ _ _ _ _ _ _ p q).trans ?_
  refine Eq.trans ?_ (oblk3_at _ t p q).symm
  exact bnPt_congr (iblk3_0_at V c t p q) (iblk3_1_at V c t 0 q) (iblk3_2_at V c t p 0) (iblk3_3_at V c t 0 q)
    (iblk3_4_at V c t 0 q) (iblk3_5_at V c t 0 q) (iblk3_6_at V c t 0 q)

/-- An index of the output array is in point `t`'s block iff each coordinate is in the block's range on its axis. -/
theorem mem_blk3 (t : Fin cfg3.N) (i : S50000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v116).slice (win3_7.rect t)).set ↔ _
  rw [View.set_slice_whole, Rect.mem_set_unit]
  exact Iff.rfl

/-- Every index of the output array is in some point's block: row `r` in the block of point `r / 5000`. -/
theorem cover3 (i : S50000x128.Idx) :
    ∃ t : Fin cfg3.N, (cfg3.win 7).flush t = true ∧ i ∈ ((cfg3.win 7).blk t).view.set := by
  have hi0 : (i 0).val < 50000 := idx2_lt0 i
  have hi1 : (i 1).val < 128 := idx2_lt1 i
  obtain ⟨t, ht⟩ : ∃ t : Fin cfg3.N, t.val = (i 0).val / 5000 :=
    ⟨⟨(i 0).val / 5000, Nat.lt_of_lt_of_eq (by omega : (i 0).val / 5000 < 10) Gen.N_3.symm⟩, rfl⟩
  have e0 := idx3_7_0 t
  have e1 := idx3_7_1 t
  refine ⟨t, Gen.flush3_7 t, ?_⟩
  rw [mem_blk3]
  intro a
  match a with
  | ⟨0, _⟩ =>
    show win3_7.index t (0 : Fin 2) * 5000 ≤ (i 0).val ∧ (i 0).val < win3_7.index t (0 : Fin 2) * 5000 + 5000
    rw [e0]; omega
  | ⟨1, _⟩ =>
    show win3_7.index t (1 : Fin 2) * 128 ≤ (i 1).val ∧ (i 1).val < win3_7.index t (1 : Fin 2) * 128 + 128
    rw [e1]; omega

/-- The output array after region 3: the batch-norm map of the region's input arrays. -/
theorem final3 (c : Dev nD) : (Gen.dat3 V c).arrAt 7 cfg3.N
      = (fun i => bnArr (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (V c (Pipeline.arrRef spec3 6)) i) :=
  (Gen.dat3 V c).arrAt_eq_of_cover 7 _ (fun t _ => flushed3_eq V c t) cover3

/-- Region 3's output array at `(i, j)`, as a function of the region's input arrays. -/
theorem region3_out7 (c : Dev nD) (i : Fin 50000) (j : Fin 128) :
    (Gen.dat3 (F := Ideal) V c).arrAt 7 cfg3.N (ix2 i j)
      = bnPt (V c (Pipeline.arrRef spec3 0) (ix2 i j)) (V c (Pipeline.arrRef spec3 1) (ix2 (0 : Fin 1) j)) (V c (Pipeline.arrRef spec3 2) (ix2 i (0 : Fin 1)))
          (V c (Pipeline.arrRef spec3 3) (ix2 (0 : Fin 1) j)) (V c (Pipeline.arrRef spec3 4) (ix2 (0 : Fin 1) j)) (V c (Pipeline.arrRef spec3 5) (ix2 (0 : Fin 1) j))
          (V c (Pipeline.arrRef spec3 6) (ix2 (0 : Fin 1) j)) :=
  congrFun (final3 V c) (ix2 i j)

/-! ## Region 4: the residual kernel: a matrix product, an addend, the leaky rectifier -/

/-- The index maps of region 4, decided over its grid: a row-block window sits at block `(t, 0)`, a whole-array window
    at block `(0, 0)`. -/
theorem idx4_0_0 : ∀ t : Fin cfg4.N, win4_0.index t (0 : Fin 2) = t.val := (by decide +kernel : ∀ t : Fin grid4.N, _)
theorem idx4_0_1 : ∀ t : Fin cfg4.N, win4_0.index t (1 : Fin 2) = 0 := (by decide +kernel : ∀ t : Fin grid4.N, _)
theorem idx4_1_0 : ∀ t : Fin cfg4.N, win4_1.index t (0 : Fin 2) = 0 := (by decide +kernel : ∀ t : Fin grid4.N, _)
theorem idx4_1_1 : ∀ t : Fin cfg4.N, win4_1.index t (1 : Fin 2) = 0 := (by decide +kernel : ∀ t : Fin grid4.N, _)
theorem idx4_2_0 : ∀ t : Fin cfg4.N, win4_2.index t (0 : Fin 2) = t.val := (by decide +kernel : ∀ t : Fin grid4.N, _)
theorem idx4_2_1 : ∀ t : Fin cfg4.N, win4_2.index t (1 : Fin 2) = 0 := (by decide +kernel : ∀ t : Fin grid4.N, _)
theorem idx4_3_0 : ∀ t : Fin cfg4.N, win4_3.index t (0 : Fin 2) = t.val := (by decide +kernel : ∀ t : Fin grid4.N, _)
theorem idx4_3_1 : ∀ t : Fin cfg4.N, win4_3.index t (1 : Fin 2) = 0 := (by decide +kernel : ∀ t : Fin grid4.N, _)

/-- Row `p` of block `t` is a row of the array. -/
theorem rowblk_lt4 (t : Fin cfg4.N) (p : Fin 5000) : t.val * 5000 + p.val < 50000 := by
  have h : t.val < 10 := Nat.lt_of_lt_of_eq t.isLt Gen.N_4
  have hp := p.isLt
  omega

/-- Where an element of each window's block at point `t` sits in the window's array: on each axis at the block index
    times the block's size plus its own coordinate. -/

theorem emb4_0 (t : Fin cfg4.N) (p : Fin 5000) (q : Fin 128) :
    ((cfg4.win 0).blk t).view.emb (ix2 p q) = (ix2 ⟨t.val * 5000 + p.val, rowblk_lt4 t p⟩ q : S50000x128.Idx) := by
  have e0 := idx4_0_0 t
  have e1 := idx4_0_1 t
  funext a; apply Fin.ext
  match a with
  | ⟨0, _⟩ => show win4_0.index t (0 : Fin 2) * 5000 + 1 * p.val = t.val * 5000 + p.val; rw [e0]; omega
  | ⟨1, _⟩ => show win4_0.index t (1 : Fin 2) * 128 + 1 * q.val = q.val; rw [e1]; omega

theorem emb4_1 (t : Fin cfg4.N) (k : Fin 128) (q : Fin 128) :
    ((cfg4.win 1).blk t).view.emb (ix2 k q) = (ix2 k q : S128x128.Idx) := by
  have e0 := idx4_1_0 t
  have e1 := idx4_1_1 t
  funext a; apply Fin.ext
  match a with
  | ⟨0, _⟩ => show win4_1.index t (0 : Fin 2) * 128 + 1 * k.val = k.val; rw [e0]; omega
  | ⟨1, _⟩ => show win4_1.index t (1 : Fin 2) * 128 + 1 * q.val = q.val; rw [e1]; omega

theorem emb4_2 (t : Fin cfg4.N) (p : Fin 5000) (q : Fin 128) :
    ((cfg4.win 2).blk t).view.emb (ix2 p q) = (ix2 ⟨t.val * 5000 + p.val, rowblk_lt4 t p⟩ q : S50000x128.Idx) := by
  have e0 := idx4_2_0 t
  have e1 := idx4_2_1 t
  funext a; apply Fin.ext
  match a with
  | ⟨0, _⟩ => show win4_2.index t (0 : Fin 2) * 5000 + 1 * p.val = t.val * 5000 + p.val; rw [e0]; omega
  | ⟨1, _⟩ => show win4_2.index t (1 : Fin 2) * 128 + 1 * q.val = q.val; rw [e1]; omega

theorem emb4_3 (t : Fin cfg4.N) (p : Fin 5000) (q : Fin 128) :
    ((cfg4.win 3).blk t).view.emb (ix2 p q) = (ix2 ⟨t.val * 5000 + p.val, rowblk_lt4 t p⟩ q : S50000x128.Idx) := by
  have e0 := idx4_3_0 t
  have e1 := idx4_3_1 t
  funext a; apply Fin.ext
  match a with
  | ⟨0, _⟩ => show win4_3.index t (0 : Fin 2) * 5000 + 1 * p.val = t.val * 5000 + p.val; rw [e0]; omega
  | ⟨1, _⟩ => show win4_3.index t (1 : Fin 2) * 128 + 1 * q.val = q.val; rw [e1]; omega

/-- Each input window's block at point `t`, read at an element, is the window's array at the element's place in it. -/
theorem iblk4_0_at (c : Dev nD) (t : Fin cfg4.N) (p : Fin 5000) (q : Fin 128) :
    Gen.iblk4 V c 0 t (ix2 p q) = V c (Pipeline.arrRef spec4 0) (ix2 ⟨t.val * 5000 + p.val, rowblk_lt4 t p⟩ q : S50000x128.Idx) := by
  show V c (Pipeline.arrRef spec4 0) (((cfg4.win 0).blk t).view.emb (ix2 p q)) = _
  rw [emb4_0 t p q]

theorem iblk4_1_at (c : Dev nD) (t : Fin cfg4.N) (k : Fin 128) (q : Fin 128) :
    Gen.iblk4 V c 1 t (ix2 k q) = V c (Pipeline.arrRef spec4 1) (ix2 k q : S128x128.Idx) := by
  show V c (Pipeline.arrRef spec4 1) (((cfg4.win 1).blk t).view.emb (ix2 k q)) = _
  rw [emb4_1 t k q]

theorem iblk4_2_at (c : Dev nD) (t : Fin cfg4.N) (p : Fin 5000) (q : Fin 128) :
    Gen.iblk4 V c 2 t (ix2 p q) = V c (Pipeline.arrRef spec4 2) (ix2 ⟨t.val * 5000 + p.val, rowblk_lt4 t p⟩ q : S50000x128.Idx) := by
  show V c (Pipeline.arrRef spec4 2) (((cfg4.win 2).blk t).view.emb (ix2 p q)) = _
  rw [emb4_2 t p q]

/-- The output window's block at point `t` of any whole-array contents, read at an element, is the contents at the
    element's place in the array. -/
theorem oblk4_at (G : S50000x128.Idx → EReal) (t : Fin cfg4.N) (p : Fin 5000) (q : Fin 128) :
    ((cfg4.win 3).blk t).view.read (Elt Ideal) G (ix2 p q) = G (ix2 ⟨t.val * 5000 + p.val, rowblk_lt4 t p⟩ q) := by
  show G (((cfg4.win 3).blk t).view.emb (ix2 p q)) = _
  rw [emb4_3 t p q]

/-- What point `t` writes back is block `t` of the residual map of the region's input arrays. -/
theorem flushed4_eq (c : Dev nD) (t : Fin cfg4.N) :
    (Gen.dat4 V c).flushed 3 t = ((cfg4.win 3).blk t).view.read (Elt Ideal)
      (residArr (V c (Pipeline.arrRef spec4 0)) (V c (Pipeline.arrRef spec4 1)) (V c (Pipeline.arrRef spec4 2))) := by
  show (cfg4.win 3).cut (grid4.coords t) ((Gen.dat4 V c).after 3 t) = _
  rw [Gen.after4_3]
  unfold Gen.out4_3
  rw [View.canon_unit_zero hz]
  simp only [View.ld_unit_zero (S := S5000x128) hz, View.ld_unit_zero (S := S128x128) hz]
  funext y
  obtain ⟨p, q, rfl⟩ : ∃ (p : Fin 5000) (q : Fin 128), y = ix2 p q := ⟨y 0, y 1, eq_ix2 y⟩
  refine (pay4_apply _ _ _ p q).trans ?_
  refine Eq.trans ?_ (oblk4_at _ t p q).symm
  refine congrArg leakyPt ?_
  exact congrArg₂ (· + ·) (iblk4_2_at V c t p q)
    (Finset.sum_congr rfl fun k _ => congrArg₂ (· * ·) (iblk4_0_at V c t p k) (iblk4_1_at V c t k q))

/-- An index of the output array is in point `t`'s block iff each coordinate is in the block's range on its axis. -/
theorem mem_blk4 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v118).slice (win4_3.rect t)).set ↔ _
  rw [View.set_slice_whole, Rect.mem_set_unit]
  exact Iff.rfl

/-- Every index of the output array is in some point's block: row `r` in the block of point `r / 5000`. -/
theorem cover4 (i : S50000x128.Idx) :
    ∃ t : Fin cfg4.N, (cfg4.win 3).flush t = true ∧ i ∈ ((cfg4.win 3).blk t).view.set := by
  have hi0 : (i 0).val < 50000 := idx2_lt0 i
  have hi1 : (i 1).val < 128 := idx2_lt1 i
  obtain ⟨t, ht⟩ : ∃ t : Fin cfg4.N, t.val = (i 0).val / 5000 :=
    ⟨⟨(i 0).val / 5000, Nat.lt_of_lt_of_eq (by omega : (i 0).val / 5000 < 10) Gen.N_4.symm⟩, rfl⟩
  have e0 := idx4_3_0 t
  have e1 := idx4_3_1 t
  refine ⟨t, Gen.flush4_3 t, ?_⟩
  rw [mem_blk4]
  intro a
  match a with
  | ⟨0, _⟩ =>
    show win4_3.index t (0 : Fin 2) * 5000 ≤ (i 0).val ∧ (i 0).val < win4_3.index t (0 : Fin 2) * 5000 + 5000
    rw [e0]; omega
  | ⟨1, _⟩ =>
    show win4_3.index t (1 : Fin 2) * 128 ≤ (i 1).val ∧ (i 1).val < win4_3.index t (1 : Fin 2) * 128 + 128
    rw [e1]; omega

/-- The output array after region 4: the residual map of the region's input arrays. -/
theorem final4 (c : Dev nD) : (Gen.dat4 V c).arrAt 3 cfg4.N
      = residArr (V c (Pipeline.arrRef spec4 0)) (V c (Pipeline.arrRef spec4 1)) (V c (Pipeline.arrRef spec4 2)) :=
  (Gen.dat4 V c).arrAt_eq_of_cover 3 _ (fun t _ => flushed4_eq V c t) cover4

/-- Region 4's three input arrays as the region finds them, typed as functions into the extended reals (so that sums and
    products of their elements are the extended reals'): the `[50000, 128]` operand, the `[128, 128]` weight, the
    `[50000, 128]` addend. -/
abbrev in4_0 (c : Dev nD) : S50000x128.Idx → EReal := V c (Pipeline.arrRef spec4 0)
abbrev in4_1 (c : Dev nD) : S128x128.Idx → EReal := V c (Pipeline.arrRef spec4 1)
abbrev in4_2 (c : Dev nD) : S50000x128.Idx → EReal := V c (Pipeline.arrRef spec4 2)

/-- Region 4's output array at `(i, j)`, as a function of the region's input arrays. -/
theorem region4_out3 (c : Dev nD) (i : Fin 50000) (j : Fin 128) :
    (Gen.dat4 (F := Ideal) V c).arrAt 3 cfg4.N (ix2 i j)
      = leakyPt (in4_2 V c (ix2 i j) + ∑ k : Fin 128, in4_0 V c (ix2 i k) * in4_1 V c (ix2 k j)) :=
  congrFun (final4 V c) (ix2 i j)

end Regions

end Cert.KernelIdeal.BnRegion

end
-- ==== Proof.Chain.lean ====
/-
  The idealized kernel's program, boundary by boundary, against the reference's function: at each region's
  entry the arrays the region reads are the reference's stages of the argument arrays (the transposed weights, the
  aggregate, the bias and affine parameters as rows, the column mean and variance as rows, the normaliser), and
  at each region's exit its output array is the reference's next stage — a projection's array entry by entry the
  sum over the feature index; the batch-norm region's array entry by entry the batch-norm of the pre-activation
  (rectified in the first layer); the last region's array the rectified residual sum. The last boundary's result
  buffer is therefore the reference's function of the launch contents of the arguments.
-/
import proofs.«112986_j26706106647093_2_alg».proof.Proof.Cross
import proofs.«112986_j26706106647093_2_alg».proof.Proof.KerRun
import proofs.«112986_j26706106647093_2_alg».proof.Proof.ProjRegion
import proofs.«112986_j26706106647093_2_alg».proof.Proof.BnRegion

noncomputable section

namespace Cert.Chain

open Cert.KernelIdeal Cert.KernelIdeal.Gen Idealize.ShloMosaic Idealize.ShloMosaic.TcCoe Idealize.SL.Sem
open Idealize.ShloMosaic.ValueIdx Cert.Layout Cert.Cross Cert.PointFns
open Cert.KernelIdeal.HostVal
open Cert.ReferenceIdeal.HostRun (refOut layerR projR edgeR preR meanR varR bnR leakyR normR projR_apply preR_apply bnR_apply leakyR_apply)

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)
local notation "A14" => m ((c : Thread nD τ).loc main_arg14)
local notation "A15" => m ((c : Thread nD τ).loc main_arg15)
local notation "A16" => m ((c : Thread nD τ).loc main_arg16)
local notation "A17" => m ((c : Thread nD τ).loc main_arg17)

/-! ## Before the first region -/

theorem w1_arg0 : W1 m ρ c (Proc.devRef .tc main_arg0) = A0 := seg0_arg0 (W0 m ρ c)
theorem w1_arg4 : W1 m ρ c (Proc.devRef .tc main_arg4) = A4 := seg0_arg4 (W0 m ρ c)
theorem w1_arg5 : W1 m ρ c (Proc.devRef .tc main_arg5) = A5 := seg0_arg5 (W0 m ρ c)
theorem w1_arg6 : W1 m ρ c (Proc.devRef .tc main_arg6) = A6 := seg0_arg6 (W0 m ρ c)
theorem w1_arg7 : W1 m ρ c (Proc.devRef .tc main_arg7) = A7 := seg0_arg7 (W0 m ρ c)
theorem w1_arg8 : W1 m ρ c (Proc.devRef .tc main_arg8) = A8 := seg0_arg8 (W0 m ρ c)
theorem w1_arg9 : W1 m ρ c (Proc.devRef .tc main_arg9) = A9 := seg0_arg9 (W0 m ρ c)
theorem w1_arg10 : W1 m ρ c (Proc.devRef .tc main_arg10) = A10 := seg0_arg10 (W0 m ρ c)
theorem w1_arg11 : W1 m ρ c (Proc.devRef .tc main_arg11) = A11 := seg0_arg11 (W0 m ρ c)
theorem w1_arg12 : W1 m ρ c (Proc.devRef .tc main_arg12) = A12 := seg0_arg12 (W0 m ρ c)
theorem w1_arg13 : W1 m ρ c (Proc.devRef .tc main_arg13) = A13 := seg0_arg13 (W0 m ρ c)
theorem w1_arg14 : W1 m ρ c (Proc.devRef .tc main_arg14) = A14 := seg0_arg14 (W0 m ρ c)
theorem w1_arg15 : W1 m ρ c (Proc.devRef .tc main_arg15) = A15 := seg0_arg15 (W0 m ρ c)
theorem w1_arg16 : W1 m ρ c (Proc.devRef .tc main_arg16) = A16 := seg0_arg16 (W0 m ρ c)
theorem w1_arg17 : W1 m ρ c (Proc.devRef .tc main_arg17) = A17 := seg0_arg17 (W0 m ρ c)
theorem w1_v6 : W1 m ρ c (Proc.devRef .tc main_v6) = normK (F := Ideal) A17 := seg0_v6 (W0 m ρ c)
theorem w1_v7 : W1 m ρ c (Proc.devRef .tc main_v7) = trK (F := Ideal) A1 := seg0_v7 (W0 m ρ c)
theorem w1_v8 : W1 m ρ c (Proc.devRef .tc main_v8) = trK (F := Ideal) A2 := seg0_v8 (W0 m ρ c)
theorem w1_v9 : W1 m ρ c (Proc.devRef .tc main_v9) = trK (F := Ideal) A3 := seg0_v9 (W0 m ρ c)

/-! ## The first region: the three projections of the input -/

/-- A projection region's output entry, once its input array and transposed weight are known, is the reference's
    projection's entry. -/
theorem proj_entry (h : (⟨Cert.KernelIdeal.S50000x128, .f32⟩ : BufTy).Contents (Elt Ideal)) (w : (⟨Cert.KernelIdeal.S128x128, .f32⟩ : BufTy).Contents (Elt Ideal)) (i : Fin 50000) (j : Fin 128) :
    (∑ k : Fin 128, h (ix2 i k) * trK (F := Ideal) w (ix2 k j)) = projR (F := Ideal) h w (ix2 i j) := by
  rw [projR_apply]
  exact Finset.sum_congr rfl fun k _ => by rw [trK_apply]

theorem w2_v10_0 : W2 m ρ c (Proc.devRef .tc main_v10_0) = projR (F := Ideal) A0 A1 := by
  funext idx
  obtain ⟨i, j, rfl⟩ : ∃ (i : Fin 50000) (j : Fin 128), idx = ix2 i j := ⟨idx 0, idx 1, eq_ix2 idx⟩
  refine (congrFun (W2_arr m ρ c 4) (ix2 i j)).trans ((Cert.KernelIdeal.ProjRegion.region0_out4 (V1 m ρ) c i j).trans ?_)
  have h0 : V1 m ρ c (Pipeline.arrRef spec0 0) = A0 := w1_arg0 m ρ c
  have h1 : V1 m ρ c (Pipeline.arrRef spec0 1) = trK (F := Ideal) A1 := w1_v7 m ρ c
  rw [h0, h1]
  exact proj_entry A0 A1 i j

theorem w2_v10_1 : W2 m ρ c (Proc.devRef .tc main_v10_1) = projR (F := Ideal) A0 A2 := by
  funext idx
  obtain ⟨i, j, rfl⟩ : ∃ (i : Fin 50000) (j : Fin 128), idx = ix2 i j := ⟨idx 0, idx 1, eq_ix2 idx⟩
  refine (congrFun (W2_arr m ρ c 5) (ix2 i j)).trans ((Cert.KernelIdeal.ProjRegion.region0_out5 (V1 m ρ) c i j).trans ?_)
  have h0 : V1 m ρ c (Pipeline.arrRef spec0 0) = A0 := w1_arg0 m ρ c
  have h1 : V1 m ρ c (Pipeline.arrRef spec0 2) = trK (F := Ideal) A2 := w1_v8 m ρ c
  rw [h0, h1]
  exact proj_entry A0 A2 i j

theorem w2_v10_2 : W2 m ρ c (Proc.devRef .tc main_v10_2) = projR (F := Ideal) A0 A3 := by
  funext idx
  obtain ⟨i, j, rfl⟩ : ∃ (i : Fin 50000) (j : Fin 128), idx = ix2 i j := ⟨idx 0, idx 1, eq_ix2 idx⟩
  refine (congrFun (W2_arr m ρ c 6) (ix2 i j)).trans ((Cert.KernelIdeal.ProjRegion.region0_out6 (V1 m ρ) c i j).trans ?_)
  have h0 : V1 m ρ c (Pipeline.arrRef spec0 0) = A0 := w1_arg0 m ρ c
  have h1 : V1 m ρ c (Pipeline.arrRef spec0 3) = trK (F := Ideal) A3 := w1_v9 m ρ c
  rw [h0, h1]
  exact proj_entry A0 A3 i j

theorem w2_arg4 : W2 m ρ c (Proc.devRef .tc main_arg4) = A4 := (W2_of_ne m ρ c main_arg4 (by decide)).trans (w1_arg4 m ρ c)
theorem w2_arg5 : W2 m ρ c (Proc.devRef .tc main_arg5) = A5 := (W2_of_ne m ρ c main_arg5 (by decide)).trans (w1_arg5 m ρ c)
theorem w2_arg6 : W2 m ρ c (Proc.devRef .tc main_arg6) = A6 := (W2_of_ne m ρ c main_arg6 (by decide)).trans (w1_arg6 m ρ c)
theorem w2_arg7 : W2 m ρ c (Proc.devRef .tc main_arg7) = A7 := (W2_of_ne m ρ c main_arg7 (by decide)).trans (w1_arg7 m ρ c)
theorem w2_arg8 : W2 m ρ c (Proc.devRef .tc main_arg8) = A8 := (W2_of_ne m ρ c main_arg8 (by decide)).trans (w1_arg8 m ρ c)
theorem w2_arg9 : W2 m ρ c (Proc.devRef .tc main_arg9) = A9 := (W2_of_ne m ρ c main_arg9 (by decide)).trans (w1_arg9 m ρ c)
theorem w2_arg10 : W2 m ρ c (Proc.devRef .tc main_arg10) = A10 := (W2_of_ne m ρ c main_arg10 (by decide)).trans (w1_arg10 m ρ c)
theorem w2_arg11 : W2 m ρ c (Proc.devRef .tc main_arg11) = A11 := (W2_of_ne m ρ c main_arg11 (by decide)).trans (w1_arg11 m ρ c)
theorem w2_arg12 : W2 m ρ c (Proc.devRef .tc main_arg12) = A12 := (W2_of_ne m ρ c main_arg12 (by decide)).trans (w1_arg12 m ρ c)
theorem w2_arg13 : W2 m ρ c (Proc.devRef .tc main_arg13) = A13 := (W2_of_ne m ρ c main_arg13 (by decide)).trans (w1_arg13 m ρ c)
theorem w2_arg14 : W2 m ρ c (Proc.devRef .tc main_arg14) = A14 := (W2_of_ne m ρ c main_arg14 (by decide)).trans (w1_arg14 m ρ c)
theorem w2_arg15 : W2 m ρ c (Proc.devRef .tc main_arg15) = A15 := (W2_of_ne m ρ c main_arg15 (by decide)).trans (w1_arg15 m ρ c)
theorem w2_arg16 : W2 m ρ c (Proc.devRef .tc main_arg16) = A16 := (W2_of_ne m ρ c main_arg16 (by decide)).trans (w1_arg16 m ρ c)
theorem w2_arg17 : W2 m ρ c (Proc.devRef .tc main_arg17) = A17 := (W2_of_ne m ρ c main_arg17 (by decide)).trans (w1_arg17 m ρ c)
theorem w2_arg0 : W2 m ρ c (Proc.devRef .tc main_arg0) = A0 :=
  ((W2_arr m ρ c 0).trans (((dat0 (V1 m ρ) c).arrAt_in 0 rfl _).trans (A_eq0 (V1 m ρ) c 0))).trans (w1_arg0 m ρ c)
theorem w2_v6 : W2 m ρ c (Proc.devRef .tc main_v6) = normK (F := Ideal) A17 := (W2_of_ne m ρ c main_v6 (by decide)).trans (w1_v6 m ρ c)

/-! ## Between the first two regions, and the first batch-norm region -/

theorem w4_v48 : W4 m ρ c (Proc.devRef .tc main_v48) = (edgeR (F := Ideal) (projR (F := Ideal) A0 A1) (projR (F := Ideal) A0 A2) (projR (F := Ideal) A0 A3) A5 A16 A17) :=
  (seg1_v48 (W2 m ρ c)).trans (by rw [w2_v10_0, w2_v10_1, w2_v10_2, w2_arg5, w2_arg16, w2_arg17]; exact edgeK_eq _ _ _ _ _ _)
theorem w4_v49 : W4 m ρ c (Proc.devRef .tc main_v49) = rowK (F := Ideal) A4 := (seg1_v49 (W2 m ρ c)).trans (by rw [w2_arg4])
theorem w4_v50 : W4 m ρ c (Proc.devRef .tc main_v50) = rowK (F := Ideal) A11 := (seg1_v50 (W2 m ρ c)).trans (by rw [w2_arg11])
theorem w4_v51 : W4 m ρ c (Proc.devRef .tc main_v51) = rowK (F := Ideal) A12 := (seg1_v51 (W2 m ρ c)).trans (by rw [w2_arg12])
theorem w4_v6 : W4 m ρ c (Proc.devRef .tc main_v6) = (normK (F := Ideal) A17) := (seg1_v6 (W2 m ρ c)).trans (w2_v6 m ρ c)
theorem w4_v59 : W4 m ρ c (Proc.devRef .tc main_v59) = meanK (F := Ideal) (hxK (F := Ideal) (edgeR (F := Ideal) (projR (F := Ideal) A0 A1) (projR (F := Ideal) A0 A2) (projR (F := Ideal) A0 A3) A5 A16 A17) (rowK (F := Ideal) A4) (normK (F := Ideal) A17)) :=
  (seg1_v59 (W2 m ρ c)).trans (by rw [w2_v10_0, w2_v10_1, w2_v10_2, w2_arg5, w2_arg16, w2_arg17, w2_arg4, w2_v6, edgeK_eq])
theorem w4_v60 : W4 m ρ c (Proc.devRef .tc main_v60) = varK (F := Ideal) (hxK (F := Ideal) (edgeR (F := Ideal) (projR (F := Ideal) A0 A1) (projR (F := Ideal) A0 A2) (projR (F := Ideal) A0 A3) A5 A16 A17) (rowK (F := Ideal) A4) (normK (F := Ideal) A17)) :=
  (seg1_v60 (W2 m ρ c)).trans (by rw [w2_v10_0, w2_v10_1, w2_v10_2, w2_arg5, w2_arg16, w2_arg17, w2_arg4, w2_v6, edgeK_eq])
theorem w4_arg0 : W4 m ρ c (Proc.devRef .tc main_arg0) = A0 := (seg1_arg0 (W2 m ρ c)).trans (w2_arg0 m ρ c)
theorem w4_arg6 : W4 m ρ c (Proc.devRef .tc main_arg6) = A6 := (seg1_arg6 (W2 m ρ c)).trans (w2_arg6 m ρ c)
theorem w4_arg7 : W4 m ρ c (Proc.devRef .tc main_arg7) = A7 := (seg1_arg7 (W2 m ρ c)).trans (w2_arg7 m ρ c)
theorem w4_arg8 : W4 m ρ c (Proc.devRef .tc main_arg8) = A8 := (seg1_arg8 (W2 m ρ c)).trans (w2_arg8 m ρ c)
theorem w4_arg9 : W4 m ρ c (Proc.devRef .tc main_arg9) = A9 := (seg1_arg9 (W2 m ρ c)).trans (w2_arg9 m ρ c)
theorem w4_arg10 : W4 m ρ c (Proc.devRef .tc main_arg10) = A10 := (seg1_arg10 (W2 m ρ c)).trans (w2_arg10 m ρ c)
theorem w4_arg13 : W4 m ρ c (Proc.devRef .tc main_arg13) = A13 := (seg1_arg13 (W2 m ρ c)).trans (w2_arg13 m ρ c)
theorem w4_arg14 : W4 m ρ c (Proc.devRef .tc main_arg14) = A14 := (seg1_arg14 (W2 m ρ c)).trans (w2_arg14 m ρ c)
theorem w4_arg15 : W4 m ρ c (Proc.devRef .tc main_arg15) = A15 := (seg1_arg15 (W2 m ρ c)).trans (w2_arg15 m ρ c)
theorem w4_arg16 : W4 m ρ c (Proc.devRef .tc main_arg16) = A16 := (seg1_arg16 (W2 m ρ c)).trans (w2_arg16 m ρ c)
theorem w4_arg17 : W4 m ρ c (Proc.devRef .tc main_arg17) = A17 := (seg1_arg17 (W2 m ρ c)).trans (w2_arg17 m ρ c)

set_option maxHeartbeats 2000000 in
theorem w5_v61 : W5 m ρ c (Proc.devRef .tc main_v61) = (leakyR (F := Ideal) (layerR (F := Ideal) A0 A1 A2 A3 A4 A5 A11 A12 A16 A17)) := by
  funext idx
  obtain ⟨i, j, rfl⟩ : ∃ (i : Fin 50000) (j : Fin 128), idx = ix2 i j := ⟨idx 0, idx 1, eq_ix2 idx⟩
  refine (congrFun (W5_arr m ρ c 7) (ix2 i j)).trans ((Cert.KernelIdeal.BnRegion.region1_out7 (V4 m ρ) c i j).trans ?_)
  have e0 : V4 m ρ c (Pipeline.arrRef spec1 0) = (edgeR (F := Ideal) (projR (F := Ideal) A0 A1) (projR (F := Ideal) A0 A2) (projR (F := Ideal) A0 A3) A5 A16 A17) := w4_v48 m ρ c
  have e1 : V4 m ρ c (Pipeline.arrRef spec1 1) = rowK (F := Ideal) A4 := w4_v49 m ρ c
  have e2 : V4 m ρ c (Pipeline.arrRef spec1 2) = (normK (F := Ideal) A17) := w4_v6 m ρ c
  have e3 : V4 m ρ c (Pipeline.arrRef spec1 3) = meanK (F := Ideal) (hxK (F := Ideal) (edgeR (F := Ideal) (projR (F := Ideal) A0 A1) (projR (F := Ideal) A0 A2) (projR (F := Ideal) A0 A3) A5 A16 A17) (rowK (F := Ideal) A4) (normK (F := Ideal) A17)) := w4_v59 m ρ c
  have e4 : V4 m ρ c (Pipeline.arrRef spec1 4) = varK (F := Ideal) (hxK (F := Ideal) (edgeR (F := Ideal) (projR (F := Ideal) A0 A1) (projR (F := Ideal) A0 A2) (projR (F := Ideal) A0 A3) A5 A16 A17) (rowK (F := Ideal) A4) (normK (F := Ideal) A17)) := w4_v60 m ρ c
  have e5 : V4 m ρ c (Pipeline.arrRef spec1 5) = rowK (F := Ideal) A11 := w4_v50 m ρ c
  have e6 : V4 m ρ c (Pipeline.arrRef spec1 6) = rowK (F := Ideal) A12 := w4_v51 m ρ c
  rw [e0, e1, e2, e3, e4, e5, e6, hxK_eq, meanK_apply, varK_apply, rowK_apply, rowK_apply, rowK_apply, normK_eq, leakyR_apply]
  unfold layerR
  rw [bnR_apply, preR_apply]
  unfold leakyPt bnPt
  rfl

theorem w5_arg0 : W5 m ρ c (Proc.devRef .tc main_arg0) = A0 := (W5_of_ne m ρ c main_arg0 (by decide)).trans (w4_arg0 m ρ c)
theorem w5_arg6 : W5 m ρ c (Proc.devRef .tc main_arg6) = A6 := (W5_of_ne m ρ c main_arg6 (by decide)).trans (w4_arg6 m ρ c)
theorem w5_arg7 : W5 m ρ c (Proc.devRef .tc main_arg7) = A7 := (W5_of_ne m ρ c main_arg7 (by decide)).trans (w4_arg7 m ρ c)
theorem w5_arg8 : W5 m ρ c (Proc.devRef .tc main_arg8) = A8 := (W5_of_ne m ρ c main_arg8 (by decide)).trans (w4_arg8 m ρ c)
theorem w5_arg9 : W5 m ρ c (Proc.devRef .tc main_arg9) = A9 := (W5_of_ne m ρ c main_arg9 (by decide)).trans (w4_arg9 m ρ c)
theorem w5_arg10 : W5 m ρ c (Proc.devRef .tc main_arg10) = A10 := (W5_of_ne m ρ c main_arg10 (by decide)).trans (w4_arg10 m ρ c)
theorem w5_arg13 : W5 m ρ c (Proc.devRef .tc main_arg13) = A13 := (W5_of_ne m ρ c main_arg13 (by decide)).trans (w4_arg13 m ρ c)
theorem w5_arg14 : W5 m ρ c (Proc.devRef .tc main_arg14) = A14 := (W5_of_ne m ρ c main_arg14 (by decide)).trans (w4_arg14 m ρ c)
theorem w5_arg15 : W5 m ρ c (Proc.devRef .tc main_arg15) = A15 := (W5_of_ne m ρ c main_arg15 (by decide)).trans (w4_arg15 m ρ c)
theorem w5_arg16 : W5 m ρ c (Proc.devRef .tc main_arg16) = A16 := (W5_of_ne m ρ c main_arg16 (by decide)).trans (w4_arg16 m ρ c)
theorem w5_arg17 : W5 m ρ c (Proc.devRef .tc main_arg17) = A17 := (W5_of_ne m ρ c main_arg17 (by decide)).trans (w4_arg17 m ρ c)
theorem w5_v6 : W5 m ρ c (Proc.devRef .tc main_v6) = (normK (F := Ideal) A17) :=
  ((W5_arr m ρ c 2).trans (((dat1 (V4 m ρ) c).arrAt_in 2 rfl _).trans (A_eq1 (V4 m ρ) c 2))).trans (w4_v6 m ρ c)

/-! ## The second layer's projections -/

theorem w6_v62 : W6 m ρ c (Proc.devRef .tc main_v62) = trK (F := Ideal) A6 := (seg2_v62 (W5 m ρ c)).trans (by rw [w5_arg6])
theorem w6_v63 : W6 m ρ c (Proc.devRef .tc main_v63) = trK (F := Ideal) A7 := (seg2_v63 (W5 m ρ c)).trans (by rw [w5_arg7])
theorem w6_v64 : W6 m ρ c (Proc.devRef .tc main_v64) = trK (F := Ideal) A8 := (seg2_v64 (W5 m ρ c)).trans (by rw [w5_arg8])
theorem w6_v61 : W6 m ρ c (Proc.devRef .tc main_v61) = (leakyR (F := Ideal) (layerR (F := Ideal) A0 A1 A2 A3 A4 A5 A11 A12 A16 A17)) := (seg2_v61 (W5 m ρ c)).trans (w5_v61 m ρ c)
theorem w6_v6 : W6 m ρ c (Proc.devRef .tc main_v6) = (normK (F := Ideal) A17) := (seg2_v6 (W5 m ρ c)).trans (w5_v6 m ρ c)
theorem w6_arg0 : W6 m ρ c (Proc.devRef .tc main_arg0) = A0 := (seg2_arg0 (W5 m ρ c)).trans (w5_arg0 m ρ c)
theorem w6_arg9 : W6 m ρ c (Proc.devRef .tc main_arg9) = A9 := (seg2_arg9 (W5 m ρ c)).trans (w5_arg9 m ρ c)
theorem w6_arg10 : W6 m ρ c (Proc.devRef .tc main_arg10) = A10 := (seg2_arg10 (W5 m ρ c)).trans (w5_arg10 m ρ c)
theorem w6_arg13 : W6 m ρ c (Proc.devRef .tc main_arg13) = A13 := (seg2_arg13 (W5 m ρ c)).trans (w5_arg13 m ρ c)
theorem w6_arg14 : W6 m ρ c (Proc.devRef .tc main_arg14) = A14 := (seg2_arg14 (W5 m ρ c)).trans (w5_arg14 m ρ c)
theorem w6_arg15 : W6 m ρ c (Proc.devRef .tc main_arg15) = A15 := (seg2_arg15 (W5 m ρ c)).trans (w5_arg15 m ρ c)
theorem w6_arg16 : W6 m ρ c (Proc.devRef .tc main_arg16) = A16 := (seg2_arg16 (W5 m ρ c)).trans (w5_arg16 m ρ c)
theorem w6_arg17 : W6 m ρ c (Proc.devRef .tc main_arg17) = A17 := (seg2_arg17 (W5 m ρ c)).trans (w5_arg17 m ρ c)

theorem w7_v65_0 : W7 m ρ c (Proc.devRef .tc main_v65_0) = projR (F := Ideal) (leakyR (F := Ideal) (layerR (F := Ideal) A0 A1 A2 A3 A4 A5 A11 A12 A16 A17)) A6 := by
  funext idx
  obtain ⟨i, j, rfl⟩ : ∃ (i : Fin 50000) (j : Fin 128), idx = ix2 i j := ⟨idx 0, idx 1, eq_ix2 idx⟩
  refine (congrFun (W7_arr m ρ c 4) (ix2 i j)).trans ((Cert.KernelIdeal.ProjRegion.region2_out4 (V6 m ρ) c i j).trans ?_)
  have h0 : V6 m ρ c (Pipeline.arrRef spec2 0) = (leakyR (F := Ideal) (layerR (F := Ideal) A0 A1 A2 A3 A4 A5 A11 A12 A16 A17)) := w6_v61 m ρ c
  have h1 : V6 m ρ c (Pipeline.arrRef spec2 1) = trK (F := Ideal) A6 := w6_v62 m ρ c
  rw [h0, h1]
  exact proj_entry (leakyR (F := Ideal) (layerR (F := Ideal) A0 A1 A2 A3 A4 A5 A11 A12 A16 A17)) A6 i j

theorem w7_v65_1 : W7 m ρ c (Proc.devRef .tc main_v65_1) = projR (F := Ideal) (leakyR (F := Ideal) (layerR (F := Ideal) A0 A1 A2 A3 A4 A5 A11 A12 A16 A17)) A7 := by
  funext idx
  obtain ⟨i, j, rfl⟩ : ∃ (i : Fin 50000) (j : Fin 128), idx = ix2 i j := ⟨idx 0, idx 1, eq_ix2 idx⟩
  refine (congrFun (W7_arr m ρ c 5) (ix2 i j)).trans ((Cert.KernelIdeal.ProjRegion.region2_out5 (V6 m ρ) c i j).trans ?_)
  have h0 : V6 m ρ c (Pipeline.arrRef spec2 0) = (leakyR (F := Ideal) (layerR (F := Ideal) A0 A1 A2 A3 A4 A5 A11 A12 A16 A17)) := w6_v61 m ρ c
  have h1 : V6 m ρ c (Pipeline.arrRef spec2 2) = trK (F := Ideal) A7 := w6_v63 m ρ c
  rw [h0, h1]
  exact proj_entry (leakyR (F := Ideal) (layerR (F := Ideal) A0 A1 A2 A3 A4 A5 A11 A12 A16 A17)) A7 i j

theorem w7_v65_2 : W7 m ρ c (Proc.devRef .tc main_v65_2) = projR (F := Ideal) (leakyR (F := Ideal) (layerR (F := Ideal) A0 A1 A2 A3 A4 A5 A11 A12 A16 A17)) A8 := by
  funext idx
  obtain ⟨i, j, rfl⟩ : ∃ (i : Fin 50000) (j : Fin 128), idx = ix2 i j := ⟨idx 0, idx 1, eq_ix2 idx⟩
  refine (congrFun (W7_arr m ρ c 6) (ix2 i j)).trans ((Cert.KernelIdeal.ProjRegion.region2_out6 (V6 m ρ) c i j).trans ?_)
  have h0 : V6 m ρ c (Pipeline.arrRef spec2 0) = (leakyR (F := Ideal) (layerR (F := Ideal) A0 A1 A2 A3 A4 A5 A11 A12 A16 A17)) := w6_v61 m ρ c
  have h1 : V6 m ρ c (Pipeline.arrRef spec2 3) = trK (F := Ideal) A8 := w6_v64 m ρ c
  rw [h0, h1]
  exact proj_entry (leakyR (F := Ideal) (layerR (F := Ideal) A0 A1 A2 A3 A4 A5 A11 A12 A16 A17)) A8 i j

theorem w7_arg0 : W7 m ρ c (Proc.devRef .tc main_arg0) = A0 := (W7_of_ne m ρ c main_arg0 (by decide)).trans (w6_arg0 m ρ c)
theorem w7_arg9 : W7 m ρ c (Proc.devRef .tc main_arg9) = A9 := (W7_of_ne m ρ c main_arg9 (by decide)).trans (w6_arg9 m ρ c)
theorem w7_arg10 : W7 m ρ c (Proc.devRef .tc main_arg10) = A10 := (W7_of_ne m ρ c main_arg10 (by decide)).trans (w6_arg10 m ρ c)
theorem w7_arg13 : W7 m ρ c (Proc.devRef .tc main_arg13) = A13 := (W7_of_ne m ρ c main_arg13 (by decide)).trans (w6_arg13 m ρ c)
theorem w7_arg14 : W7 m ρ c (Proc.devRef .tc main_arg14) = A14 := (W7_of_ne m ρ c main_arg14 (by decide)).trans (w6_arg14 m ρ c)
theorem w7_arg15 : W7 m ρ c (Proc.devRef .tc main_arg15) = A15 := (W7_of_ne m ρ c main_arg15 (by decide)).trans (w6_arg15 m ρ c)
theorem w7_arg16 : W7 m ρ c (Proc.devRef .tc main_arg16) = A16 := (W7_of_ne m ρ c main_arg16 (by decide)).trans (w6_arg16 m ρ c)
theorem w7_arg17 : W7 m ρ c (Proc.devRef .tc main_arg17) = A17 := (W7_of_ne m ρ c main_arg17 (by decide)).trans (w6_arg17 m ρ c)
theorem w7_v6 : W7 m ρ c (Proc.devRef .tc main_v6) = (normK (F := Ideal) A17) := (W7_of_ne m ρ c main_v6 (by decide)).trans (w6_v6 m ρ c)

/-! ## Between the third and fourth regions, and the second batch-norm region -/

theorem w9_v103 : W9 m ρ c (Proc.devRef .tc main_v103) = (edgeR (F := Ideal) (projR (F := Ideal) (leakyR (F := Ideal) (layerR (F := Ideal) A0 A1 A2 A3 A4 A5 A11 A12 A16 A17)) A6) (projR (F := Ideal) (leakyR (F := Ideal) (layerR (F := Ideal) A0 A1 A2 A3 A4 A5 A11 A12 A16 A17)) A7) (projR (F := Ideal) (leakyR (F := Ideal) (layerR (F := Ideal) A0 A1 A2 A3 A4 A5 A11 A12 A16 A17)) A8) A10 A16 A17) :=
  (seg3_v103 (W7 m ρ c)).trans (by rw [w7_v65_0, w7_v65_1, w7_v65_2, w7_arg10, w7_arg16, w7_arg17]; exact edgeK_eq _ _ _ _ _ _)
theorem w9_v104 : W9 m ρ c (Proc.devRef .tc main_v104) = rowK (F := Ideal) A9 := (seg3_v104 (W7 m ρ c)).trans (by rw [w7_arg9])
theorem w9_v105 : W9 m ρ c (Proc.devRef .tc main_v105) = rowK (F := Ideal) A13 := (seg3_v105 (W7 m ρ c)).trans (by rw [w7_arg13])
theorem w9_v106 : W9 m ρ c (Proc.devRef .tc main_v106) = rowK (F := Ideal) A14 := (seg3_v106 (W7 m ρ c)).trans (by rw [w7_arg14])
theorem w9_v6 : W9 m ρ c (Proc.devRef .tc main_v6) = (normK (F := Ideal) A17) := (seg3_v6 (W7 m ρ c)).trans (w7_v6 m ρ c)
theorem w9_v114 : W9 m ρ c (Proc.devRef .tc main_v114) = meanK (F := Ideal) (hxK (F := Ideal) (edgeR (F := Ideal) (projR (F := Ideal) (leakyR (F := Ideal) (layerR (F := Ideal) A0 A1 A2 A3 A4 A5 A11 A12 A16 A17)) A6) (projR (F := Ideal) (leakyR (F := Ideal) (layerR (F := Ideal) A0 A1 A2 A3 A4 A5 A11 A12 A16 A17)) A7) (projR (F := Ideal) (leakyR (F := Ideal) (layerR (F := Ideal) A0 A1 A2 A3 A4 A5 A11 A12 A16 A17)) A8) A10 A16 A17) (rowK (F := Ideal) A9) (normK (F := Ideal) A17)) :=
  (seg3_v114 (W7 m ρ c)).trans (by rw [w7_v65_0, w7_v65_1, w7_v65_2, w7_arg10, w7_arg16, w7_arg17, w7_arg9, w7_v6, edgeK_eq])
theorem w9_v115 : W9 m ρ c (Proc.devRef .tc main_v115) = varK (F := Ideal) (hxK (F := Ideal) (edgeR (F := Ideal) (projR (F := Ideal) (leakyR (F := Ideal) (layerR (F := Ideal) A0 A1 A2 A3 A4 A5 A11 A12 A16 A17)) A6) (projR (F := Ideal) (leakyR (F := Ideal) (layerR (F := Ideal) A0 A1 A2 A3 A4 A5 A11 A12 A16 A17)) A7) (projR (F := Ideal) (leakyR (F := Ideal) (layerR (F := Ideal) A0 A1 A2 A3 A4 A5 A11 A12 A16 A17)) A8) A10 A16 A17) (rowK (F := Ideal) A9) (normK (F := Ideal) A17)) :=
  (seg3_v115 (W7 m ρ c)).trans (by rw [w7_v65_0, w7_v65_1, w7_v65_2, w7_arg10, w7_arg16, w7_arg17, w7_arg9, w7_v6, edgeK_eq])
theorem w9_arg0 : W9 m ρ c (Proc.devRef .tc main_arg0) = A0 := (seg3_arg0 (W7 m ρ c)).trans (w7_arg0 m ρ c)
theorem w9_arg15 : W9 m ρ c (Proc.devRef .tc main_arg15) = A15 := (seg3_arg15 (W7 m ρ c)).trans (w7_arg15 m ρ c)

set_option maxHeartbeats 2000000 in
theorem w10_v116 : W10 m ρ c (Proc.devRef .tc main_v116) = (layerR (F := Ideal) (leakyR (F := Ideal) (layerR (F := Ideal) A0 A1 A2 A3 A4 A5 A11 A12 A16 A17)) A6 A7 A8 A9 A10 A13 A14 A16 A17) := by
  funext idx
  obtain ⟨i, j, rfl⟩ : ∃ (i : Fin 50000) (j : Fin 128), idx = ix2 i j := ⟨idx 0, idx 1, eq_ix2 idx⟩
  refine (congrFun (W10_arr m ρ c 7) (ix2 i j)).trans ((Cert.KernelIdeal.BnRegion.region3_out7 (V9 m ρ) c i j).trans ?_)
  have e0 : V9 m ρ c (Pipeline.arrRef spec3 0) = (edgeR (F := Ideal) (projR (F := Ideal) (leakyR (F := Ideal) (layerR (F := Ideal) A0 A1 A2 A3 A4 A5 A11 A12 A16 A17)) A6) (projR (F := Ideal) (leakyR (F := Ideal) (layerR (F := Ideal) A0 A1 A2 A3 A4 A5 A11 A12 A16 A17)) A7) (projR (F := Ideal) (leakyR (F := Ideal) (layerR (F := Ideal) A0 A1 A2 A3 A4 A5 A11 A12 A16 A17)) A8) A10 A16 A17) := w9_v103 m ρ c
  have e1 : V9 m ρ c (Pipeline.arrRef spec3 1) = rowK (F := Ideal) A9 := w9_v104 m ρ c
  have e2 : V9 m ρ c (Pipeline.arrRef spec3 2) = (normK (F := Ideal) A17) := w9_v6 m ρ c
  have e3 : V9 m ρ c (Pipeline.arrRef spec3 3) = meanK (F := Ideal) (hxK (F := Ideal) (edgeR (F := Ideal) (projR (F := Ideal) (leakyR (F := Ideal) (layerR (F := Ideal) A0 A1 A2 A3 A4 A5 A11 A12 A16 A17)) A6) (projR (F := Ideal) (leakyR (F := Ideal) (layerR (F := Ideal) A0 A1 A2 A3 A4 A5 A11 A12 A16 A17)) A7) (projR (F := Ideal) (leakyR (F := Ideal) (layerR (F := Ideal) A0 A1 A2 A3 A4 A5 A11 A12 A16 A17)) A8) A10 A16 A17) (rowK (F := Ideal) A9) (normK (F := Ideal) A17)) := w9_v114 m ρ c
  have e4 : V9 m ρ c (Pipeline.arrRef spec3 4) = varK (F := Ideal) (hxK (F := Ideal) (edgeR (F := Ideal) (projR (F := Ideal) (leakyR (F := Ideal) (layerR (F := Ideal) A0 A1 A2 A3 A4 A5 A11 A12 A16 A17)) A6) (projR (F := Ideal) (leakyR (F := Ideal) (layerR (F := Ideal) A0 A1 A2 A3 A4 A5 A11 A12 A16 A17)) A7) (projR (F := Ideal) (leakyR (F := Ideal) (layerR (F := Ideal) A0 A1 A2 A3 A4 A5 A11 A12 A16 A17)) A8) A10 A16 A17) (rowK (F := Ideal) A9) (normK (F := Ideal) A17)) := w9_v115 m ρ c
  have e5 : V9 m ρ c (Pipeline.arrRef spec3 5) = rowK (F := Ideal) A13 := w9_v105 m ρ c
  have e6 : V9 m ρ c (Pipeline.arrRef spec3 6) = rowK (F := Ideal) A14 := w9_v106 m ρ c
  rw [e0, e1, e2, e3, e4, e5, e6, hxK_eq, meanK_apply, varK_apply, rowK_apply, rowK_apply, rowK_apply, normK_eq]
  unfold layerR
  rw [bnR_apply, preR_apply]
  unfold bnPt
  rfl

theorem w10_arg0 : W10 m ρ c (Proc.devRef .tc main_arg0) = A0 := (W10_of_ne m ρ c main_arg0 (by decide)).trans (w9_arg0 m ρ c)
theorem w10_arg15 : W10 m ρ c (Proc.devRef .tc main_arg15) = A15 := (W10_of_ne m ρ c main_arg15 (by decide)).trans (w9_arg15 m ρ c)

/-! ## The last region: the residual sum, rectified -/

theorem w11_v117 : W11 m ρ c (Proc.devRef .tc main_v117) = trK (F := Ideal) A15 := (seg4_v117 (W10 m ρ c)).trans (by rw [w10_arg15])
theorem w11_v116 : W11 m ρ c (Proc.devRef .tc main_v116) = (layerR (F := Ideal) (leakyR (F := Ideal) (layerR (F := Ideal) A0 A1 A2 A3 A4 A5 A11 A12 A16 A17)) A6 A7 A8 A9 A10 A13 A14 A16 A17) := (seg4_v116 (W10 m ρ c)).trans (w10_v116 m ρ c)
theorem w11_arg0 : W11 m ρ c (Proc.devRef .tc main_arg0) = A0 := (seg4_arg0 (W10 m ρ c)).trans (w10_arg0 m ρ c)

/-- The result array after the last region is the reference's function of the argument arrays as launched. -/
theorem kernel_result : W12 m ρ c (Proc.devRef .tc main_v118) = refOut (F := Ideal) A0 A1 A2 A3 A4 A5 A6 A7 A8 A9 A10 A11 A12 A13 A14 A15 A16 A17 := by
  funext idx
  obtain ⟨i, j, rfl⟩ : ∃ (i : Fin 50000) (j : Fin 128), idx = ix2 i j := ⟨idx 0, idx 1, eq_ix2 idx⟩
  refine (congrFun (W12_arr m ρ c 3) (ix2 i j)).trans ((Cert.KernelIdeal.BnRegion.region4_out3 (V11 m ρ) c i j).trans ?_)
  have h0 : Cert.KernelIdeal.BnRegion.in4_0 (V11 m ρ) c = A0 := w11_arg0 m ρ c
  have h1 : Cert.KernelIdeal.BnRegion.in4_1 (V11 m ρ) c = trK (F := Ideal) A15 := w11_v117 m ρ c
  have h2 : Cert.KernelIdeal.BnRegion.in4_2 (V11 m ρ) c = (layerR (F := Ideal) (leakyR (F := Ideal) (layerR (F := Ideal) A0 A1 A2 A3 A4 A5 A11 A12 A16 A17)) A6 A7 A8 A9 A10 A13 A14 A16 A17) := w11_v116 m ρ c
  rw [h0, h1, h2, proj_entry]
  unfold refOut
  rw [leakyR_apply]
  rfl

end Cert.Chain

end
-- ==== Proof.RefFrame.lean ====
/-
  No operation of the reference's program writes an argument array: the buffers the operations write are the
  program's own values, listed here once, and an argument is not among them. So the fold of the operations leaves
  every argument at its launch contents.
-/
import proofs.«112986_j26706106647093_2_alg».proof.Proof.RefOps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffers the program's operations write, in program order. -/
def writtenRefs : List (Ref sig .tc) :=
  [ main_cst, main_v0, main_cst_0, main_v1, main_v2, main_v3, main_cst_1, main_v4,
    main_v5, main_v6, main_v7, main_v8, main_v9, main_v10, main_v11, main_v12,
    main_c, main_v13, main_v14, main_c_2, main_v15, main_v16, main_v17, main_v18,
    main_v19, main_c_3, main_v20, main_v21, main_c_4, main_v22, main_v23, main_v24,
    main_v25, main_v26, main_v27, main_v28, main_v29, main_v30, main_v31, main_v32,
    main_cst_5, main_v33, main_v34, main_cst_6, main_v35, main_v36, main_c_7, main_v37,
    main_v38, main_c_8, main_v39, main_v40, main_v41, main_v42, main_v43, main_v44,
    main_cst_9, main_v45, main_v46, main_v47, main_v48, main_v49, main_v50, main_v51,
    main_v52, main_cst_10, main_v53, main_cst_11, main_v54, main_v55, main_c_12, main_call0_cst,
    main_call0_v0, main_call0_v1, main_call0_cst_0, main_call0_v2, main_call0_v3, main_call0_v4, main_call0_v5, main_call0_v6,
    main_call0_v7, main_call0_cst_1, main_call0_v8, main_call0_cst_2, main_call0_v9, main_call0_v10, main_call0_v11, main_call0_cst_3,
    main_call0_v12, main_call0_cst_4, main_call0_call0_v0, main_call0_call0_v1, main_v56, main_v57, main_v58, main_v59,
    main_cst_13, main_v60, main_v61, main_v62, main_v63, main_v64, main_v65, main_v66,
    main_v67, main_v68, main_v69, main_v70, main_v71, main_cst_14, main_v72, main_v73,
    main_cst_15, main_v74, main_v75, main_v76, main_v77, main_v78, main_v79, main_v80,
    main_v81, main_v82, main_c_16, main_v83, main_v84, main_c_17, main_v85, main_v86,
    main_v87, main_v88, main_v89, main_c_18, main_v90, main_v91, main_c_19, main_v92,
    main_v93, main_v94, main_v95, main_v96, main_v97, main_v98, main_v99, main_v100,
    main_v101, main_v102, main_cst_20, main_v103, main_v104, main_cst_21, main_v105, main_v106,
    main_c_22, main_v107, main_v108, main_c_23, main_v109, main_v110, main_v111, main_v112,
    main_v113, main_v114, main_cst_24, main_v115, main_v116, main_v117, main_v118, main_v119,
    main_v120, main_v121, main_v122, main_cst_25, main_v123, main_cst_26, main_v124, main_v125,
    main_c_27, main_call2_cst, main_call2_v0, main_call2_v1, main_call2_cst_0, main_call2_v2, main_call2_v3, main_call2_v4,
    main_call2_v5, main_call2_v6, main_call2_v7, main_call2_cst_1, main_call2_v8, main_call2_cst_2, main_call2_v9, main_call2_v10,
    main_call2_v11, main_call2_cst_3, main_call2_v12, main_call2_cst_4, main_call2_call0_v0, main_call2_call0_v1, main_v126, main_v127,
    main_v128, main_v129, main_cst_28, main_v130, main_v131, main_v132, main_v133, main_v134,
    main_v135, main_v136, main_v137, main_v138, main_v139, main_v140, main_v141, main_v142,
    main_v143, main_v144, main_cst_29, main_v145, main_v146, main_cst_30, main_v147, main_v148,
    main_v149 ]

theorem opsNorm_writes : (opsNorm : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsProj1_writes : (opsProj1 : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsEdge1_writes : (opsEdge1 : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsPre1_writes : (opsPre1 : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsStats1_writes : (opsStats1 : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsBn1_writes : (opsBn1 : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsProj2_writes : (opsProj2 : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsEdge2a_writes : (opsEdge2a : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsEdge2b_writes : (opsEdge2b : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsPre2_writes : (opsPre2 : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsStats2_writes : (opsStats2 : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsBn2_writes : (opsBn2 : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsOutA_writes : (opsOutA : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem opsOutB_writes : (opsOutB : List (HloOp τ sig (Elt F))).Forall fun op => op.writes ⊆ (writtenRefs.map (Proc.devRef (τ := τ) .tc)).toFinset := by
  simp only [List.Forall, nullary_writes, unary_writes, binary_writes, ternary_writes, Finset.singleton_subset_iff, List.mem_toFinset, List.mem_map]
  repeat' apply And.intro
  all_goals exact ⟨_, by decide, rfl⟩

theorem ops_writes : (ops : List (HloOp τ sig (Elt F))).Forall fun op => op.writes ⊆ (writtenRefs.map (Proc.devRef (τ := τ) .tc)).toFinset :=
  forall_append opsNorm_writes (forall_append opsProj1_writes (forall_append opsEdge1_writes (forall_append opsPre1_writes (forall_append opsStats1_writes (forall_append opsBn1_writes (forall_append opsProj2_writes (forall_append opsEdge2a_writes (forall_append opsEdge2b_writes (forall_append opsPre2_writes (forall_append opsStats2_writes (forall_append opsBn2_writes (forall_append opsOutA_writes (opsOutB_writes)))))))))))))

/-- An argument array is found after the program as the valuation had it. -/
theorem kept (V : Valuation τ sig (Elt F)) (r : Ref sig .tc) (hr : r ∉ writtenRefs) :
    after ops V (Proc.devRef .tc r) = V (Proc.devRef .tc r) :=
  after_of_writes_sub ops V ops_writes hr

end Cert.ReferenceIdeal.HostRun

end
-- ==== Proof.lean ====
/-
  The certificate. The two kernel programs' frames are the generated ones. The reference is a straight line of host
  operations, none of which writes an argument, so it runs to the end with its arguments as launched. The ideal
  pass rewrote nothing, so there is nothing to preserve. And at the ideal values the kernel's program and the
  reference compute one function of the arguments: the kernel's regions are, entry by entry, the reference's dense
  stages (a block product against a zero accumulator is the host's product; a change of float format is the
  identity; the batch-norm and the rectifier are the same expressions of the same entries), and the host stages
  between them (gathers, the gate, the scatter-sums, the column statistics) are the reference's own operations.
  No finiteness of the inputs is used: no algebraic law beyond these identities is needed.
-/
import proofs.«112986_j26706106647093_2_alg».proof.Defs
import proofs.«112986_j26706106647093_2_alg».proof.Proof.Gen.Kernel
import proofs.«112986_j26706106647093_2_alg».proof.Proof.Gen.Kernel.Frame
import proofs.«112986_j26706106647093_2_alg».proof.Proof.Gen.KernelIdeal
import proofs.«112986_j26706106647093_2_alg».proof.Proof.Gen.KernelIdeal.Frame
import proofs.«112986_j26706106647093_2_alg».proof.Proof.Gen.ReferenceIdeal
import proofs.«112986_j26706106647093_2_alg».proof.Proof.Gen.Pre_finite_inputs
import proofs.«112986_j26706106647093_2_alg».proof.Proof.Chain
import proofs.«112986_j26706106647093_2_alg».proof.Proof.RefFrame
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference ends with each argument at the fold of its operations, none of which writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.HostRun.kept _ Cert.ReferenceIdeal.main_arg0 (by decide)),
     (h c Cert.ReferenceIdeal.main_arg1).trans (Cert.ReferenceIdeal.HostRun.kept _ Cert.ReferenceIdeal.main_arg1 (by decide)),
     (h c Cert.ReferenceIdeal.main_arg2).trans (Cert.ReferenceIdeal.HostRun.kept _ Cert.ReferenceIdeal.main_arg2 (by decide)),
     (h c Cert.ReferenceIdeal.main_arg3).trans (Cert.ReferenceIdeal.HostRun.kept _ Cert.ReferenceIdeal.main_arg3 (by decide)),
     (h c Cert.ReferenceIdeal.main_arg4).trans (Cert.ReferenceIdeal.HostRun.kept _ Cert.ReferenceIdeal.main_arg4 (by decide)),
     (h c Cert.ReferenceIdeal.main_arg5).trans (Cert.ReferenceIdeal.HostRun.kept _ Cert.ReferenceIdeal.main_arg5 (by decide)),
     (h c Cert.ReferenceIdeal.main_arg6).trans (Cert.ReferenceIdeal.HostRun.kept _ Cert.ReferenceIdeal.main_arg6 (by decide)),
     (h c Cert.ReferenceIdeal.main_arg7).trans (Cert.ReferenceIdeal.HostRun.kept _ Cert.ReferenceIdeal.main_arg7 (by decide)),
     (h c Cert.ReferenceIdeal.main_arg8).trans (Cert.ReferenceIdeal.HostRun.kept _ Cert.ReferenceIdeal.main_arg8 (by decide)),
     (h c Cert.ReferenceIdeal.main_arg9).trans (Cert.ReferenceIdeal.HostRun.kept _ Cert.ReferenceIdeal.main_arg9 (by decide)),
     (h c Cert.ReferenceIdeal.main_arg10).trans (Cert.ReferenceIdeal.HostRun.kept _ Cert.ReferenceIdeal.main_arg10 (by decide)),
     (h c Cert.ReferenceIdeal.main_arg11).trans (Cert.ReferenceIdeal.HostRun.kept _ Cert.ReferenceIdeal.main_arg11 (by decide)),
     (h c Cert.ReferenceIdeal.main_arg12).trans (Cert.ReferenceIdeal.HostRun.kept _ Cert.ReferenceIdeal.main_arg12 (by decide)),
     (h c Cert.ReferenceIdeal.main_arg13).trans (Cert.ReferenceIdeal.HostRun.kept _ Cert.ReferenceIdeal.main_arg13 (by decide)),
     (h c Cert.ReferenceIdeal.main_arg14).trans (Cert.ReferenceIdeal.HostRun.kept _ Cert.ReferenceIdeal.main_arg14 (by decide)),
     (h c Cert.ReferenceIdeal.main_arg15).trans (Cert.ReferenceIdeal.HostRun.kept _ Cert.ReferenceIdeal.main_arg15 (by decide)),
     (h c Cert.ReferenceIdeal.main_arg16).trans (Cert.ReferenceIdeal.HostRun.kept _ Cert.ReferenceIdeal.main_arg16 (by decide)),
     (h c Cert.ReferenceIdeal.main_arg17).trans (Cert.ReferenceIdeal.HostRun.kept _ Cert.ReferenceIdeal.main_arg17 (by decide))⟩)
    (Cert.ReferenceIdeal.HostRun.run (F := Ideal) m ρ)

theorem preserves : Cert.preserves_Kernel_KernelIdeal := trivial

/-- Both programs end with the result array at the reference's function of the (agreeing) argument arrays. -/
theorem algebraic : Cert.algebraic_KernelIdeal_ReferenceIdeal := by
  intro m ρ m' ρ' _ hagree
  refine ⟨fun c => Cert.ReferenceIdeal.HostRun.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun r h c => ⟨(h c).1.trans (Cert.Chain.kernel_result m ρ c), (h c).2⟩)
      (Cert.KernelIdeal.HostRun.run (F := Ideal) m ρ)
  · refine (θ_run Cert.ReferenceIdeal.defs _ _).mono (fun r h c =>
      ⟨?_, (h c Cert.ReferenceIdeal.main_arg0).trans (Cert.ReferenceIdeal.HostRun.kept _ Cert.ReferenceIdeal.main_arg0 (by decide)),
       (h c Cert.ReferenceIdeal.main_arg1).trans (Cert.ReferenceIdeal.HostRun.kept _ Cert.ReferenceIdeal.main_arg1 (by decide)),
       (h c Cert.ReferenceIdeal.main_arg2).trans (Cert.ReferenceIdeal.HostRun.kept _ Cert.ReferenceIdeal.main_arg2 (by decide)),
       (h c Cert.ReferenceIdeal.main_arg3).trans (Cert.ReferenceIdeal.HostRun.kept _ Cert.ReferenceIdeal.main_arg3 (by decide)),
       (h c Cert.ReferenceIdeal.main_arg4).trans (Cert.ReferenceIdeal.HostRun.kept _ Cert.ReferenceIdeal.main_arg4 (by decide)),
       (h c Cert.ReferenceIdeal.main_arg5).trans (Cert.ReferenceIdeal.HostRun.kept _ Cert.ReferenceIdeal.main_arg5 (by decide)),
       (h c Cert.ReferenceIdeal.main_arg6).trans (Cert.ReferenceIdeal.HostRun.kept _ Cert.ReferenceIdeal.main_arg6 (by decide)),
       (h c Cert.ReferenceIdeal.main_arg7).trans (Cert.ReferenceIdeal.HostRun.kept _ Cert.ReferenceIdeal.main_arg7 (by decide)),
       (h c Cert.ReferenceIdeal.main_arg8).trans (Cert.ReferenceIdeal.HostRun.kept _ Cert.ReferenceIdeal.main_arg8 (by decide)),
       (h c Cert.ReferenceIdeal.main_arg9).trans (Cert.ReferenceIdeal.HostRun.kept _ Cert.ReferenceIdeal.main_arg9 (by decide)),
       (h c Cert.ReferenceIdeal.main_arg10).trans (Cert.ReferenceIdeal.HostRun.kept _ Cert.ReferenceIdeal.main_arg10 (by decide)),
       (h c Cert.ReferenceIdeal.main_arg11).trans (Cert.ReferenceIdeal.HostRun.kept _ Cert.ReferenceIdeal.main_arg11 (by decide)),
       (h c Cert.ReferenceIdeal.main_arg12).trans (Cert.ReferenceIdeal.HostRun.kept _ Cert.ReferenceIdeal.main_arg12 (by decide)),
       (h c Cert.ReferenceIdeal.main_arg13).trans (Cert.ReferenceIdeal.HostRun.kept _ Cert.ReferenceIdeal.main_arg13 (by decide)),
       (h c Cert.ReferenceIdeal.main_arg14).trans (Cert.ReferenceIdeal.HostRun.kept _ Cert.ReferenceIdeal.main_arg14 (by decide)),
       (h c Cert.ReferenceIdeal.main_arg15).trans (Cert.ReferenceIdeal.HostRun.kept _ Cert.ReferenceIdeal.main_arg15 (by decide)),
       (h c Cert.ReferenceIdeal.main_arg16).trans (Cert.ReferenceIdeal.HostRun.kept _ Cert.ReferenceIdeal.main_arg16 (by decide)),
       (h c Cert.ReferenceIdeal.main_arg17).trans (Cert.ReferenceIdeal.HostRun.kept _ Cert.ReferenceIdeal.main_arg17 (by decide))⟩)
      (Cert.ReferenceIdeal.HostRun.run (F := Ideal) m' ρ')
    refine (h c Cert.ReferenceIdeal.main_v149).trans ((Cert.ReferenceIdeal.HostRun.result_eq _).trans ?_)
    obtain ⟨a0, a1, a2, a3, a4, a5, a6, a7, a8, a9, a10, a11, a12, a13, a14, a15, a16, a17⟩ := hagree c
    show Cert.ReferenceIdeal.HostRun.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
    rw [a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
